-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_v63 main_v67

def fn_part2 {F : FTy → Type} [FloatOps F] (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x256 .f32) (main_arg7 : FVec F S256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 123
  | .vmem => 39
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S50000x256, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .f32⟩
  | .hbm, ⟨66, _⟩ => ⟨S850000x1, .f32⟩
  | .hbm, ⟨67, _⟩ => ⟨S850000x256, .f32⟩
  | .hbm, ⟨68, _⟩ => ⟨S850000x256, .f32⟩
  | .hbm, ⟨69, _⟩ => ⟨S_, .f32⟩
  | .hbm, ⟨70, _⟩ => ⟨S50000x256, .f32⟩
  | .hbm, ⟨71, _⟩ => ⟨S850000x1, .i32⟩
  | .hbm, ⟨72, _⟩ => ⟨S50000x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x256, .f32⟩
  | .hbm, ⟨89, _⟩ => ⟨S850000x1, .f32⟩
  | .hbm, ⟨90, _⟩ => ⟨S850000x256, .f32⟩
  | .hbm, ⟨91, _⟩ => ⟨S850000x256, .f32⟩
  | .hbm, ⟨92, _⟩ => ⟨S_, .f32⟩
  | .hbm, ⟨93, _⟩ => ⟨S50000x256, .f32⟩
  | .hbm, ⟨94, _⟩ => ⟨S850000x1, .i32⟩
  | .hbm, ⟨95, _⟩ => ⟨S50000x256, .f32⟩
  | .hbm, ⟨96, _⟩ => ⟨S1x256, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x256, .f32⟩
  | .hbm, ⟨113, _⟩ => ⟨S850000x1, .f32⟩
  | .hbm, ⟨114, _⟩ => ⟨S850000x256, .f32⟩
  | .hbm, ⟨115, _⟩ => ⟨S850000x256, .f32⟩
  | .hbm, ⟨116, _⟩ => ⟨S_, .f32⟩
  | .hbm, ⟨117, _⟩ => ⟨S50000x256, .f32⟩
  | .hbm, ⟨118, _⟩ => ⟨S850000x1, .i32⟩
  | .hbm, ⟨119, _⟩ => ⟨S50000x256, .f32⟩
  | .hbm, ⟨120, _⟩ => ⟨S1x256, .f32⟩
  | .hbm, ⟨121, _⟩ => ⟨S50000x256, .f32⟩
  | .hbm, ⟨122, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S2000x256, .f32⟩
  | .local _ .vmem, ⟨38, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69_0 : Ref sig .tc := ⟨.hbm, 101, rfl⟩
abbrev main_v69_1 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg8_1 : Ref sig .tc := ⟨.vmem, 31, rfl⟩
abbrev cc3_stg9_0 : Ref sig .tc := ⟨.vmem, 32, rfl⟩
abbrev cc3_stg9_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29
abbrev cc3_sem8_0 : DmaSem sig := 30
abbrev cc3_sem8_1 : DmaSem sig := 31
abbrev cc3_sem9_0 : DmaSem sig := 32
abbrev cc3_sem9_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S50000x256.size a
  hwx3_9 : ∀ i : grid3.Coords, EltTy.bits .f32 = 32 ∨ (Rect.block (s := S50000x256) S2000x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S2000x256.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v69_0) S2000x256.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v69_1) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v69_1) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 166
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S256, .f32⟩
  | 81 => ⟨S256, .f32⟩
  | 82 => ⟨S256, .f32⟩
  | 83 => ⟨S1x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S_, .f32⟩
  | 94 => ⟨S50000x256, .f32⟩
  | 95 => ⟨S50000x256, .i1⟩
  | 96 => ⟨S_, .f32⟩
  | 97 => ⟨S50000x256, .f32⟩
  | 98 => ⟨S50000x256, .f32⟩
  | 99 => ⟨S50000x256, .f32⟩
  | 100 => ⟨S50000x256, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x256, .f32⟩
  | 110 => ⟨S850000x1, .f32⟩
  | 111 => ⟨S850000x256, .f32⟩
  | 112 => ⟨S850000x256, .f32⟩
  | 113 => ⟨S_, .f32⟩
  | 114 => ⟨S50000x256, .f32⟩
  | 115 => ⟨S850000x1, .i32⟩
  | 116 => ⟨S50000x256, .f32⟩
  | 117 => ⟨S1x256, .f32⟩
  | 118 => ⟨S50000x256, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S256, .f32⟩
  | 126 => ⟨S256, .f32⟩
  | 127 => ⟨S256, .f32⟩
  | _ => ⟨S50000x512, .f32⟩

abbrev hbmTy0_1 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S_, .f32⟩
  | 11 => ⟨S50000x256, .f32⟩
  | 12 => ⟨S50000x256, .i1⟩
  | 13 => ⟨S_, .f32⟩
  | 14 => ⟨S50000x256, .f32⟩
  | 15 => ⟨S50000x256, .f32⟩
  | 16 => ⟨S50000x256, .f32⟩
  | 17 => ⟨S50000x256, .f32⟩
  | 18 => ⟨S50000x256, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x256, .f32⟩
  | 28 => ⟨S850000x1, .f32⟩
  | 29 => ⟨S850000x256, .f32⟩
  | 30 => ⟨S850000x256, .f32⟩
  | 31 => ⟨S_, .f32⟩
  | 32 => ⟨S50000x256, .f32⟩
  | 33 => ⟨S850000x1, .i32⟩
  | 34 => ⟨S50000x256, .f32⟩
  | 35 => ⟨S1x256, .f32⟩
  | 36 => ⟨S50000x256, .f32⟩
  | 37 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v62 : Ref sig .tc := ⟨.hbm, 99, rfl⟩
abbrev main_v63 : Ref sig .tc := ⟨.hbm, 100, rfl⟩
abbrev main_c_11 : Ref sig .tc := ⟨.hbm, 101, rfl⟩
abbrev main_v64 : Ref sig .tc := ⟨.hbm, 102, rfl⟩
abbrev main_v65 : Ref sig .tc := ⟨.hbm, 103, rfl⟩
abbrev main_c_12 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_16 : Ref sig .tc := ⟨.hbm, 147, rfl⟩
abbrev main_v99 : Ref sig .tc := ⟨.hbm, 148, rfl⟩
abbrev main_v100 : Ref sig .tc := ⟨.hbm, 149, rfl⟩
abbrev main_c_17 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_18 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.K.Region0.lean ====
/-
  The first matrix product of the network, as one kernel region of the program: rows 2000 t … 2000 t + 1999 of the
  node features (a [2000, 512] block) against the whole [512, 256] weight matrix, 25 row blocks in all.
  Stated at a parameter V, the contents of the core's buffers when the region is entered: what each window's block is at a
  grid point, what the body leaves in the output block (the product of the two blocks read), the body's run on the
  staging buffers, and the region's proof data (inputs left in place, the output block the body's result, nothing owed).
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the whole weight matrix at every point (fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each is the whole of its buffer. -/
abbrev r0_x : Rect S2000x512 := Rect.unit (s := S2000x512) ![0, 0] S2000x512.size inb_S2000x512_S2000x512_0_0
abbrev r0_w : Rect S512x256 := Rect.unit (s := S512x256) ![0, 0] S512x256.size inb_S512x256_S512x256_0_0
abbrev r0_o : Rect S2000x256 := Rect.unit (s := S2000x256) ![0, 0] S2000x256.size inb_S2000x256_S2000x256_0_0

/-- The output block after the body: the one store's value, the product of the feature block and the weights. -/
def out0_2 (x0 : Vec F S2000x512 .f32) (x1 : Vec F S512x256 .f32) : Vec F S2000x256 .f32 :=
  View.canon [⟨r0_o, k0_pay1 (View.ld x0 r0_x) (View.ld x1 r0_w)⟩]

/-- The one store covers the output block. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

set_option maxHeartbeats 1000000 in
/-- The body on whole staging buffers: the two inputs at read contents, the output at anything; it ends with the inputs as
    they were and the output at the product. -/
theorem sound_kernel0 (c : Dev nD) (E : Set ℕ) (i : grid0.Coords) (arg1 : Memref sig .tc .vmem S2000x512 .f32) (harg1 : arg1.IsWhole) (arg2 : Memref sig .tc .vmem S512x256 .f32) (harg2 : arg2.IsWhole) (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- The region's proof data on core c: the arrays as the region finds them; after the body at point t the inputs' buffers
    at their blocks and the output's at the product of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The first layer's pointwise stage as one kernel region: on each [2000, 256] row block of the aggregated messages, add the
  bias row, subtract the running mean, scale by the reciprocal square root of the running variance plus a small constant,
  scale by gamma, add beta, and apply the leaky rectifier; the five parameter rows are [1, 256] blocks that never move.
  Stated at a parameter V, the buffers' contents when the region is entered: each window's block at a grid point, what
  the body leaves in the output block, the body's run on the staging buffers, and the region's proof data.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point: the row block of the messages is fetched
    at every point, a parameter row once (its block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole of its buffer, a [2000, 256] block or a [1, 256] row. -/
abbrev r1_o : Rect S2000x256 := Rect.unit (s := S2000x256) ![0, 0] S2000x256.size inb_S2000x256_S2000x256_0_0
abbrev r1_p : Rect S1x256 := Rect.unit (s := S1x256) ![0, 0] S1x256.size inb_S1x256_S1x256_0_0

/-- The output block after the body: the one store's value, the normalised and rectified block, from the message block
    x0 and the rows x1 (bias), x2 (gamma), x3 (beta), x4 (running mean), x5 (running variance). -/
def out1_6 (x0 : Vec F S2000x256 .f32) (x1 x2 x3 x4 x5 : Vec F S1x256 .f32) : Vec F S2000x256 .f32 :=
  View.canon [⟨r1_o, k1_pay1 (View.ld x0 r1_o) (View.ld x1 r1_p) (View.ld x4 r1_p) (View.ld x5 r1_p) (View.ld x2 r1_p) (View.ld x3 r1_p)⟩]

/-- The one store covers the output block. -/
theorem cover1_6 (p0 : Vec F S2000x256 .f32) (y : S2000x256.Idx) :
    ∃ pc ∈ ([⟨r1_o, p0⟩] : List (View.Piece (Elt F) S2000x256 .f32)), y ∈ pc.1.set :=
  View.cover_of_tiled [⟨r1_o, p0⟩] S2000x256.size (by rfl) y

set_option maxHeartbeats 4000000 in
/-- The body on whole staging buffers: the six inputs at read contents, the output at anything; it ends with the inputs
    as they were and the output at the normalised and rectified block. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_act_kernel i arg1 harg1 arg2 harg2 arg3 harg3 arg4 harg4 arg5 harg5 arg6 harg6 arg7 harg7) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The region's proof data on core c: the arrays as the region finds them; after the body at point t each input's buffer
    at its block and the output's at the body's result on the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  The second matrix product of the network, as one kernel region: rows 2000 t … 2000 t + 1999 of the first layer's
  activations (a [2000, 256] block) against the whole [256, 256] weight matrix, 25 row blocks in all. Stated at a
  parameter V, the buffers' contents when the region is entered: each window's block at a grid point, what the body
  leaves in the output block (the product of the two blocks read), the body's run, and the region's proof data.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's current staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the whole weight matrix at every point (fetched once; its block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each is the whole of its buffer. -/
abbrev r2_x : Rect S2000x256 := Rect.unit (s := S2000x256) ![0, 0] S2000x256.size inb_S2000x256_S2000x256_0_0
abbrev r2_w : Rect S256x256 := Rect.unit (s := S256x256) ![0, 0] S256x256.size inb_S256x256_S256x256_0_0
abbrev r2_o : Rect S2000x256 := Rect.unit (s := S2000x256) ![0, 0] S2000x256.size inb_S2000x256_S2000x256_0_0

/-- The output block after the body: the one store's value, the product of the activation block and the weights. -/
def out2_2 (x0 : Vec F S2000x256 .f32) (x1 : Vec F S256x256 .f32) : Vec F S2000x256 .f32 :=
  View.canon [⟨r2_o, k2_pay1 (View.ld x0 r2_x) (View.ld x1 r2_w)⟩]

/-- The one store covers the output block. -/
theorem cover2_2 (p0 : Vec F S2000x256 .f32) (y : S2000x256.Idx) :
    ∃ pc ∈ ([⟨r2_o, p0⟩] : List (View.Piece (Elt F) S2000x256 .f32)), y ∈ pc.1.set :=
  View.cover_of_tiled [⟨r2_o, p0⟩] S2000x256.size (by rfl) y

set_option maxHeartbeats 1000000 in
/-- The body on whole staging buffers: the two inputs at read contents, the output at anything; it ends with the inputs as
    they were and the output at the product. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-- The region's proof data on core c: the arrays as the region finds them; after the body at point t the inputs' buffers
    at their blocks and the output's at the product of the two blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's run applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  The second layer's pointwise stage as one kernel region, with two results: on each [2000, 256] row block, add the bias
  row and the previous layer's block to the aggregated messages, normalise with the running statistics, scale, shift,
  apply the leaky rectifier — the first result — and add that to the block of the accumulated representation — the
  second result. The previous layer's activations reach the body through two windows on ONE array (once as the residual,
  once as the accumulated representation); both only read it.
  Stated at a parameter V, the buffers' contents when the region is entered: each window's block at a grid point, what
  the body leaves in the two output blocks, the body's run on the staging buffers, and the region's proof data, in which
  the two windows on the shared array each hold one half of it.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point: a row block is fetched at every point, a
    parameter row once (its block never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each is the whole of its buffer, a [2000, 256] block or a [1, 256] row. -/
abbrev r3_o : Rect S2000x256 := Rect.unit (s := S2000x256) ![0, 0] S2000x256.size inb_S2000x256_S2000x256_0_0
abbrev r3_p : Rect S1x256 := Rect.unit (s := S1x256) ![0, 0] S1x256.size inb_S1x256_S1x256_0_0

/-- The first output block after the body: the normalised and rectified block, from the message block x0, the bias row x1,
    the residual block x2, and the rows x3 (gamma), x4 (beta), x5 (running mean), x6 (running variance). -/
def out3_8 (x0 : Vec F S2000x256 .f32) (x1 : Vec F S1x256 .f32) (x2 : Vec F S2000x256 .f32) (x3 x4 x5 x6 : Vec F S1x256 .f32) : Vec F S2000x256 .f32 :=
  View.canon [⟨r3_o, k3_pay1 (View.ld x0 r3_o) (View.ld x1 r3_p) (View.ld x2 r3_o) (View.ld x5 r3_p) (View.ld x6 r3_p) (View.ld x3 r3_p) (View.ld x4 r3_p)⟩]

/-- The second output block after the body: the accumulated block x7 plus the first output. -/
def out3_9 (x0 : Vec F S2000x256 .f32) (x1 : Vec F S1x256 .f32) (x2 : Vec F S2000x256 .f32) (x3 x4 x5 x6 : Vec F S1x256 .f32) (x7 : Vec F S2000x256 .f32) : Vec F S2000x256 .f32 :=
  View.canon [⟨r3_o, k3_pay2 (View.ld x0 r3_o) (View.ld x1 r3_p) (View.ld x2 r3_o) (View.ld x5 r3_p) (View.ld x6 r3_p) (View.ld x3 r3_p) (View.ld x4 r3_p) (View.ld x7 r3_o)⟩]

/-- One store covers an output block. -/
theorem cover3_o (p0 : Vec F S2000x256 .f32) (y : S2000x256.Idx) :
    ∃ pc ∈ ([⟨r3_o, p0⟩] : List (View.Piece (Elt F) S2000x256 .f32)), y ∈ pc.1.set :=
  View.cover_of_tiled [⟨r3_o, p0⟩] S2000x256.size (by rfl) y

set_option maxHeartbeats 4000000 in
/-- The body on whole staging buffers: the eight inputs at read contents, the two outputs at anything; it ends with the
    inputs as they were and the outputs at the two results. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S2000x256 .f32) (harg9 : arg9.IsWhole) (arg10 : Memref sig .tc .vmem S2000x256 .f32) (harg10 : arg10.IsWhole)
    (x0 : Vec F S2000x256 .f32) (x1 : Vec F S1x256 .f32) (x2 : Vec F S2000x256 .f32) (x3 x4 x5 x6 : Vec F S1x256 .f32) (x7 : Vec F S2000x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6) ∗ owns (c : Thread nD τ) arg10 fullShare (out3_9 x0 x1 x2 x3 x4 x5 x6 x7)) -∗ K ⟨⟩))
      ⊢ wp frame (wpE (defs₀ (F := F)) Variants.none c none) E (cc3__bn_act_res_kernel i arg1 harg1 arg2 harg2 arg3 harg3 arg4 harg4 arg5 harg5 arg6 harg6 arg7 harg7 arg8 harg8 arg9 harg9 arg10 harg10) K := by
  simp only [cc3__bn_act_res_kernel_eq_skeleton]; unfold cc3__bn_act_res_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_o _)
  iexists _; isplitr
  swap; · iexact H9
  ipureintro
  try dsimp only
  exact View.read_writes_eq_canon _ _ _ (cover3_o _)

/-- The region's proof data on core c: the arrays as the region finds them; after the body at point t each input's buffer
    at its block and each output's at the body's result on the blocks; nothing owed; full shares, but for the two windows
    on the shared array, which hold complementary halves of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q w := match w with
    | ⟨2, _⟩ => (fullShare : PosShare TreeShare).left
    | ⟨7, _⟩ => (fullShare : PosShare TreeShare).right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's run applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  The third matrix product of the network, as one kernel region: rows 2000 t … 2000 t + 1999 of the summed layer
  activations (a [2000, 256] block) against the whole [256, 256] weight matrix, 25 row blocks in all. Stated at a
  parameter V, the buffers' contents when the region is entered: each window's block at a grid point, what the body
  leaves in the output block (the product of the two blocks read), the body's run, and the region's proof data.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's current staging buffer holds its row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weight window's staging buffer holds the whole weight matrix at every point (fetched once; its block never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's three accesses: each is the whole of its buffer. -/
abbrev r4_x : Rect S2000x256 := Rect.unit (s := S2000x256) ![0, 0] S2000x256.size inb_S2000x256_S2000x256_0_0
abbrev r4_w : Rect S256x256 := Rect.unit (s := S256x256) ![0, 0] S256x256.size inb_S256x256_S256x256_0_0
abbrev r4_o : Rect S2000x256 := Rect.unit (s := S2000x256) ![0, 0] S2000x256.size inb_S2000x256_S2000x256_0_0

/-- The output block after the body: the one store's value, the product of the activation block and the weights. -/
def out4_2 (x0 : Vec F S2000x256 .f32) (x1 : Vec F S256x256 .f32) : Vec F S2000x256 .f32 :=
  View.canon [⟨r4_o, k4_pay1 (View.ld x0 r4_x) (View.ld x1 r4_w)⟩]

/-- The one store covers the output block. -/
theorem cover4_2 (p0 : Vec F S2000x256 .f32) (y : S2000x256.Idx) :
    ∃ pc ∈ ([⟨r4_o, p0⟩] : List (View.Piece (Elt F) S2000x256 .f32)), y ∈ pc.1.set :=
  View.cover_of_tiled [⟨r4_o, p0⟩] S2000x256.size (by rfl) y

set_option maxHeartbeats 1000000 in
/-- The body on whole staging buffers: the two inputs at read contents, the output at anything; it ends with the inputs as
    they were and the output at the product. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-- The region's proof data on core c: the arrays as the region finds them; after the body at point t the inputs' buffers
    at their blocks and the output's at the product of the two blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's run applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Fold.lean ====
/-
  The contents of the core's buffers at each boundary between the items of the program: the launch memory, then each
  stretch of host operations applied, then after each kernel region the region's arrays at what its write-backs leave
  (the inputs as entered, each output block by block) and every other buffer as entered. Also each region's proof data
  at its own entry contents, as one family.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import proofs.«122691_j4398046511761_1_alg».proof.Proof.Gen.Kernel.Regions
import proofs.«122691_j4398046511761_1_alg».proof.Proof.K.Region0
import proofs.«122691_j4398046511761_1_alg».proof.Proof.K.Region1
import proofs.«122691_j4398046511761_1_alg».proof.Proof.K.Region2
import proofs.«122691_j4398046511761_1_alg».proof.Proof.K.Region3
import proofs.«122691_j4398046511761_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first three host stretches (edge lists with self loops, degrees, the edge weights): region 0's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- After region 0 (the first matrix product). -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the first message passing and the parameter rows' reshapes: region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- After region 1 (the first pointwise stage). -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After region 2 (the second matrix product), entered from region 1's exit. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the second message passing and the parameter rows' reshapes: region 3's entry. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- After region 3 (the second pointwise stage): its two result arrays at what the write-backs leave, every other buffer —
    the array two of its windows share among them — as entered. -/
def W9 (c : Dev nD) : Valuation τ sig (Elt F) :=
  Function.update (Function.update (W8 m c) (Proc.devRef .tc main_v69_0) ((dat3 (V8 m) c).arrAt 8 cfg3.N))
    (Proc.devRef .tc main_v69_1) ((dat3 (V8 m) c).arrAt 9 cfg3.N)
abbrev V9 : (c : Dev nD) → (b : Ref sig .tc) → Buf (Elt F) ((c : Thread nD τ).loc b) := fun c b => W9 m c b
theorem W9_v69_1 (c : Dev nD) : W9 m c (Proc.devRef .tc main_v69_1) = (dat3 (V8 m) c).arrAt 9 cfg3.N := by
  unfold W9; exact Function.update_self ..
theorem W9_v69_0 (c : Dev nD) : W9 m c (Proc.devRef .tc main_v69_0) = (dat3 (V8 m) c).arrAt 8 cfg3.N := by
  unfold W9
  rw [Function.update_of_ne (StableHlo.devRef_ne_of_ne (by decide) : (Proc.devRef .tc main_v69_0 : DevRef τ sig) ≠ Proc.devRef .tc main_v69_1)]
  exact Function.update_self ..
theorem W9_of_ne (c : Dev nD) (b : Ref sig .tc) (h0 : b ≠ main_v69_0) (h1 : b ≠ main_v69_1) :
    W9 m c (Proc.devRef .tc b) = W8 m c (Proc.devRef .tc b) := by
  unfold W9
  rw [Function.update_of_ne (StableHlo.devRef_ne_of_ne h1 : (Proc.devRef .tc b : DevRef τ sig) ≠ Proc.devRef .tc main_v69_1),
    Function.update_of_ne (StableHlo.devRef_ne_of_ne h0 : (Proc.devRef .tc b : DevRef τ sig) ≠ Proc.devRef .tc main_v69_0)]

/-- After region 4 (the third matrix product), entered from region 3's exit. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After the last message passing and the final bias: the end. -/
abbrev W11 : Dev nD → Valuation τ sig (Elt F) := fun c => StableHlo.after hostOps5 (W10 m c)

/-- The prefetched tables' admissible contents: no region has a table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V9 m) c

end Cert.Kernel.Hand

end
-- ==== Proof.K.Shared3.lean ====
/-
  The second pointwise region hands ONE array — the first layer's activations — to two of its input windows. Its ten
  windowed arrays are then nine distinct buffers: the shared one is held by the two windows at complementary halves,
  every other at the full share. This module says that the nine buffers, each whole at the full share at contents V',
  are exactly the region's ten arrays at the same contents, so that the region's arrays can be taken out of the core's
  unscoped buffers at entry and put back at exit.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import proofs.«122691_j4398046511761_1_alg».proof.Proof.K.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The distinct buffers behind region 3's ten windows. -/
theorem image_arrRef3 : (Finset.univ.image (Pipeline.arrRef spec3) : Finset (Ref sig .tc))
    = {main_v63, main_v64, main_v49, main_v65, main_v66, main_v67, main_v68, main_v69_0, main_v69_1} := by decide

/-- The nine buffers one by one. -/
theorem arrBufs3_eq (c : Dev nD) :
    (Pipeline.arrBufs (Ix := Unit) (Name := ℕ) (U := UR sig nD τ) (Lvl := ℕ) spec3 c (V' c) : sProp 𝕄)
      = iprop((((c : Thread nD τ).loc main_v63) ↦{fullShare} V' c main_v63) ∗ (((c : Thread nD τ).loc main_v64) ↦{fullShare} V' c main_v64)
        ∗ (((c : Thread nD τ).loc main_v49) ↦{fullShare} V' c main_v49) ∗ (((c : Thread nD τ).loc main_v65) ↦{fullShare} V' c main_v65)
        ∗ (((c : Thread nD τ).loc main_v66) ↦{fullShare} V' c main_v66) ∗ (((c : Thread nD τ).loc main_v67) ↦{fullShare} V' c main_v67)
        ∗ (((c : Thread nD τ).loc main_v68) ↦{fullShare} V' c main_v68) ∗ (((c : Thread nD τ).loc main_v69_0) ↦{fullShare} V' c main_v69_0)
        ∗ (((c : Thread nD τ).loc main_v69_1) ↦{fullShare} V' c main_v69_1)) := by
  unfold Pipeline.arrBufs
  rw [image_arrRef3]
  rw [bigSep_insert (by decide), bigSep_insert (by decide), bigSep_insert (by decide), bigSep_insert (by decide),
    bigSep_insert (by decide), bigSep_insert (by decide), bigSep_insert (by decide), bigSep_insert (by decide), bigSep_singleton]
  rfl

/-- The region's arrays window by window: every array a whole buffer, held at the window's share. -/
theorem arrays3_eq (c : Dev nD) (F : (w : Fin cfg3.W) → Buf (Elt F) ((cfg3.win w).arr.view.loc (c : Thread nD τ))) :
    ((dat3 V c).arrays F : sProp 𝕄)
      = bigSep Finset.univ fun w : Fin cfg3.W => (((c : Thread nD τ).loc (Pipeline.arrRef spec3 w)) ↦{(dat3 V c).share w} F w : sProp 𝕄) := by
  unfold Dat.arrays
  exact bigSep_congr fun w _ => by rw [(arr_whole3 w).set_eq_univ]

/-- The ten arrays one by one, at contents read off V': the shared buffer appears twice, at the two halves. -/
theorem arrays3_list (c : Dev nD) (F : (w : Fin cfg3.W) → Buf (Elt F) ((cfg3.win w).arr.view.loc (c : Thread nD τ)))
    (hF : ∀ w, F w = V' c (Pipeline.arrRef spec3 w)) :
    ((dat3 V c).arrays F : sProp 𝕄)
      = iprop((((c : Thread nD τ).loc main_v63) ↦{fullShare} V' c main_v63) ∗ (((c : Thread nD τ).loc main_v64) ↦{fullShare} V' c main_v64)
        ∗ (((c : Thread nD τ).loc main_v49) ↦{(fullShare : PosShare TreeShare).left} V' c main_v49) ∗ (((c : Thread nD τ).loc main_v65) ↦{fullShare} V' c main_v65)
        ∗ (((c : Thread nD τ).loc main_v66) ↦{fullShare} V' c main_v66) ∗ (((c : Thread nD τ).loc main_v67) ↦{fullShare} V' c main_v67)
        ∗ (((c : Thread nD τ).loc main_v68) ↦{fullShare} V' c main_v68) ∗ (((c : Thread nD τ).loc main_v49) ↦{(fullShare : PosShare TreeShare).right} V' c main_v49)
        ∗ (((c : Thread nD τ).loc main_v69_0) ↦{fullShare} V' c main_v69_0) ∗ (((c : Thread nD τ).loc main_v69_1) ↦{fullShare} V' c main_v69_1)) := by
  obtain rfl : F = fun w => V' c (Pipeline.arrRef spec3 w) := funext hF
  rw [arrays3_eq, bigSep_W3]
  rfl

/-- ENTRY: the nine buffers, whole, make the region's ten arrays (the shared buffer split in halves). -/
theorem arrays3_of_bufs (c : Dev nD) (F : (w : Fin cfg3.W) → Buf (Elt F) ((cfg3.win w).arr.view.loc (c : Thread nD τ)))
    (hF : ∀ w, F w = V' c (Pipeline.arrRef spec3 w)) :
    (Pipeline.arrBufs (Ix := Unit) (Name := ℕ) (U := UR sig nD τ) (Lvl := ℕ) spec3 c (V' c) : sProp 𝕄) ⊢ (dat3 V c).arrays F := by
  rw [arrBufs3_eq, arrays3_list V V' c F hF]
  iintro ⟨H0, H1, H2, H3, H4, H5, H6, H8, H9⟩
  ihave H2' := (pointsTo_share (PosShare.mem_left_op_right fullShare)).1 $$ H2
  icases H2' with ⟨H2l, H2r⟩
  isplitl [H0]; · iexact H0
  isplitl [H1]; · iexact H1
  isplitl [H2l]; · iexact H2l
  isplitl [H3]; · iexact H3
  isplitl [H4]; · iexact H4
  isplitl [H5]; · iexact H5
  isplitl [H6]; · iexact H6
  isplitl [H2r]; · iexact H2r
  isplitl [H8]; · iexact H8
  iexact H9

/-- EXIT: the region's ten arrays make the nine buffers, whole (the two halves of the shared buffer rejoined). -/
theorem bufs_of_arrays3 (c : Dev nD) (F : (w : Fin cfg3.W) → Buf (Elt F) ((cfg3.win w).arr.view.loc (c : Thread nD τ)))
    (hF : ∀ w, F w = V' c (Pipeline.arrRef spec3 w)) :
    ((dat3 V c).arrays F : sProp 𝕄) ⊢ Pipeline.arrBufs (Ix := Unit) (Name := ℕ) (U := UR sig nD τ) (Lvl := ℕ) spec3 c (V' c) := by
  rw [arrBufs3_eq, arrays3_list V V' c F hF]
  iintro ⟨H0, H1, H2l, H3, H4, H5, H6, H2r, H8, H9⟩
  isplitl [H0]; · iexact H0
  isplitl [H1]; · iexact H1
  isplitl [H2l H2r]
  · iapply (pointsTo_share (PosShare.mem_left_op_right fullShare)).2
    isplitl [H2l]; · iexact H2l
    iexact H2r
  isplitl [H3]; · iexact H3
  isplitl [H4]; · iexact H4
  isplitl [H5]; · iexact H5
  isplitl [H6]; · iexact H6
  isplitl [H8]; · iexact H8
  iexact H9

end Cert.Kernel.Hand

end
-- ==== Proof.K.Segs.lean ====
/-
  Each kernel region of the program as a segment between two thread states: "every unscoped buffer of the core at the
  contents of this boundary, the generator register at some state, nothing owed". A region takes its arrays out of the
  unscoped buffers at entry and puts them back, at what its write-backs left, at exit.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import proofs.«122691_j4398046511761_1_alg».proof.Proof.K.Fold
import proofs.«122691_j4398046511761_1_alg».proof.Proof.K.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

-- the library's lemmas are stated over the pinned configuration, which unifies with the printed one only when unification may
-- unfold plain definitions in a metavariable's type
set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 2 over the thread state: entered from every unscoped buffer at the contents before it, left at the contents
    after it. Its arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 3 leaves in each of its arrays is the next boundary's contents there: an input as entered, an output at
    what its write-backs left. -/
theorem hF3 (c : Dev nD) (w : Fin cfg3.W) : (dat3 (V8 m) c).arrAt w cfg3.N = V9 m c (Pipeline.arrRef spec3 w) := by
  rcases w with ⟨w, hw⟩
  have hw' : w = 0 ∨ w = 1 ∨ w = 2 ∨ w = 3 ∨ w = 4 ∨ w = 5 ∨ w = 6 ∨ w = 7 ∨ w = 8 ∨ w = 9 := by
    have : w < 10 := hw
    omega
  rcases hw' with rfl | rfl | rfl | rfl | rfl | rfl | rfl | rfl | rfl | rfl
  · exact ((dat3 (V8 m) c).arrAt_in 0 rfl _).trans ((A_eq3 (V8 m) c 0).trans (W9_of_ne m c _ (by decide) (by decide)).symm)
  · exact ((dat3 (V8 m) c).arrAt_in 1 rfl _).trans ((A_eq3 (V8 m) c 1).trans (W9_of_ne m c _ (by decide) (by decide)).symm)
  · exact ((dat3 (V8 m) c).arrAt_in 2 rfl _).trans ((A_eq3 (V8 m) c 2).trans (W9_of_ne m c _ (by decide) (by decide)).symm)
  · exact ((dat3 (V8 m) c).arrAt_in 3 rfl _).trans ((A_eq3 (V8 m) c 3).trans (W9_of_ne m c _ (by decide) (by decide)).symm)
  · exact ((dat3 (V8 m) c).arrAt_in 4 rfl _).trans ((A_eq3 (V8 m) c 4).trans (W9_of_ne m c _ (by decide) (by decide)).symm)
  · exact ((dat3 (V8 m) c).arrAt_in 5 rfl _).trans ((A_eq3 (V8 m) c 5).trans (W9_of_ne m c _ (by decide) (by decide)).symm)
  · exact ((dat3 (V8 m) c).arrAt_in 6 rfl _).trans ((A_eq3 (V8 m) c 6).trans (W9_of_ne m c _ (by decide) (by decide)).symm)
  · exact ((dat3 (V8 m) c).arrAt_in 7 rfl _).trans ((A_eq3 (V8 m) c 7).trans (W9_of_ne m c _ (by decide) (by decide)).symm)
  · exact (W9_v69_0 m c).symm
  · exact (W9_v69_1 m c).symm

/-- Off region 3's arrays nothing changes. -/
theorem hrest3 (c : Dev nD) : ∀ b, b ∉ Finset.univ.image (Pipeline.arrRef spec3) → V9 m c b = V8 m c b :=
  fun b hb => W9_of_ne m c b
    (fun e => hb (Finset.mem_image.mpr ⟨8, Finset.mem_univ _, e.symm⟩))
    (fun e => hb (Finset.mem_image.mpr ⟨9, Finset.mem_univ _, e.symm⟩))

set_option backward.isDefEq.respectTransparency.types false in
/-- Region 3 over the thread state. Two of its windows read one array: at entry that buffer is split in halves between
    them, at exit the halves are rejoined; otherwise as the other regions. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit : (unscopedBufs (Ix := Unit) (Name := ℕ) (U := UR sig nD τ) (Lvl := ℕ) c (V8 m c) : sProp 𝕄)
        ⊢ iprop((pdats m 3 c).arrays ((pdats m 3 c).arrAt · 0) ∗ Pipeline.unscopedRest spec3 c (V8 m c)) := by
      rw [Pipeline.unscopedBufs_split₀ (Pipeline.pin (pcfgs (F := F)) adm) 3 winFacts₀3.arr_unscoped c (V8 m c)]
      exact sep_mono (arrays3_of_bufs (V8 m) (V8 m) c _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V8 m c))
        ⊢ (unscopedBufs (Ix := Unit) (Name := ℕ) (U := UR sig nD τ) (Lvl := ℕ) c (V9 m c) : sProp 𝕄) := by
      rw [Pipeline.unscopedBufs_split₀ (Pipeline.pin (pcfgs (F := F)) adm) 3 winFacts₀3.arr_unscoped c (V9 m c)]
      refine sep_mono (bufs_of_arrays3 (V8 m) (V9 m) c _ (hF3 m c)) (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 4 over the thread state: entered from every unscoped buffer at the contents before it, left at the contents
    after it. Its arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole program as a list of eleven segments — six stretches of host operations and five kernel regions, in the
  program's order — and its run: from any launch memory with all counters at zero every weakly fair execution terminates
  without a fault, and in the final memory every unscoped buffer of every core holds the last boundary's contents.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import proofs.«122691_j4398046511761_1_alg».proof.Proof.K.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped buffers from the contents W, the register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's eleven segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)) ]

/-- The last thread state without the dues: every unscoped buffer at the last contents, the register at some state. -/
abbrev Tₙ (c : Dev nD) : sProp 𝕄 := iprop(StableHlo.held (c : Thread nD τ) (Pipeline.ucRefs τ sig) (W11 m c) ∗ ∃ r, prngReg c r)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.Kernel.Hand

end
-- ==== Proof.K.Frame.lean ====
/-
  How a buffer's contents pass from one boundary of the program to the next: a stretch of host operations leaves every
  buffer it does not write as it was; a kernel region leaves every buffer that is none of its arrays as it was, and an
  array it only reads as it was too. Hence every argument array ends as launched, which is the program's frame: it runs
  to the end without a fault and its arguments are unchanged.
-/
import proofs.«122691_j4398046511761_1_alg».proof.Proof.Gen.Kernel.Launch
import proofs.«122691_j4398046511761_1_alg».proof.Proof.Gen.Kernel.Skeleton
import proofs.«122691_j4398046511761_1_alg».proof.Proof.Gen.Kernel.Points
import proofs.«122691_j4398046511761_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem s1 (c : Dev nD) (b : Ref sig .tc) (h : b ∉ hostOps0_W) : W1 m c (Proc.devRef .tc b) = W0 m c (Proc.devRef .tc b) :=
  StableHlo.after_of_writes_sub hostOps0 _ hostOps0_writes h
theorem s2 (c : Dev nD) (b : Ref sig .tc) (h : b ∉ hostOps0_1_W) : W2 m c (Proc.devRef .tc b) = W1 m c (Proc.devRef .tc b) :=
  StableHlo.after_of_writes_sub hostOps0_1 _ hostOps0_1_writes h
theorem s3 (c : Dev nD) (b : Ref sig .tc) (h : b ∉ hostOps0_2_W) : W3 m c (Proc.devRef .tc b) = W2 m c (Proc.devRef .tc b) :=
  StableHlo.after_of_writes_sub hostOps0_2 _ hostOps0_2_writes h
theorem s4 (c : Dev nD) (b : Ref sig .tc) (h : ∀ w, Pipeline.arrRef spec0 w ≠ b) : W4 m c (Proc.devRef .tc b) = W3 m c (Proc.devRef .tc b) :=
  W4_of_ne m c b h
theorem s4i (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
theorem s5 (c : Dev nD) (b : Ref sig .tc) (h : b ∉ hostOps1_W) : W5 m c (Proc.devRef .tc b) = W4 m c (Proc.devRef .tc b) :=
  StableHlo.after_of_writes_sub hostOps1 _ hostOps1_writes h
theorem s6 (c : Dev nD) (b : Ref sig .tc) (h : ∀ w, Pipeline.arrRef spec1 w ≠ b) : W6 m c (Proc.devRef .tc b) = W5 m c (Proc.devRef .tc b) :=
  W6_of_ne m c b h
theorem s6i (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem s7 (c : Dev nD) (b : Ref sig .tc) (h : ∀ w, Pipeline.arrRef spec2 w ≠ b) : W7 m c (Proc.devRef .tc b) = W6 m c (Proc.devRef .tc b) :=
  W7_of_ne m c b h
theorem s7i (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (V6 m) c).arrAt_in w hw _).trans (A_eq2 (V6 m) c w))
theorem s8 (c : Dev nD) (b : Ref sig .tc) (h : b ∉ hostOps3_W) : W8 m c (Proc.devRef .tc b) = W7 m c (Proc.devRef .tc b) :=
  StableHlo.after_of_writes_sub hostOps3 _ hostOps3_writes h
theorem s9 (c : Dev nD) (b : Ref sig .tc) (h0 : b ≠ main_v69_0) (h1 : b ≠ main_v69_1) : W9 m c (Proc.devRef .tc b) = W8 m c (Proc.devRef .tc b) :=
  W9_of_ne m c b h0 h1
theorem s10 (c : Dev nD) (b : Ref sig .tc) (h : ∀ w, Pipeline.arrRef spec4 w ≠ b) : W10 m c (Proc.devRef .tc b) = W9 m c (Proc.devRef .tc b) :=
  W10_of_ne m c b h
theorem s10i (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
theorem s11 (c : Dev nD) (b : Ref sig .tc) (h : b ∉ hostOps5_W) : W11 m c (Proc.devRef .tc b) = W10 m c (Proc.devRef .tc b) :=
  StableHlo.after_of_writes_sub hostOps5 _ hostOps5_writes h

/-- Argument 0 reaches the end as launched: no host operation writes it, and a region at most reads it. -/
theorem W11_arg0 (c : Dev nD) : W11 m c (Proc.devRef .tc main_arg0) = m ((c : Thread nD τ).loc main_arg0) :=
  (s11 m c main_arg0 (by decide)).trans <| (s10 m c main_arg0 (by decide)).trans <| (s9 m c main_arg0 (by decide) (by decide)).trans <|
    (s8 m c main_arg0 (by decide)).trans <| (s7 m c main_arg0 (by decide)).trans <| (s6 m c main_arg0 (by decide)).trans <|
    (s5 m c main_arg0 (by decide)).trans <| (s4i m c 0 rfl).trans <| (s3 m c main_arg0 (by decide)).trans <|
    (s2 m c main_arg0 (by decide)).trans <| (s1 m c main_arg0 (by decide)).trans rfl
/-- Argument 1 reaches the end as launched: no host operation writes it, and a region at most reads it. -/
theorem W11_arg1 (c : Dev nD) : W11 m c (Proc.devRef .tc main_arg1) = m ((c : Thread nD τ).loc main_arg1) :=
  (s11 m c main_arg1 (by decide)).trans <| (s10 m c main_arg1 (by decide)).trans <| (s9 m c main_arg1 (by decide) (by decide)).trans <|
    (s8 m c main_arg1 (by decide)).trans <| (s7 m c main_arg1 (by decide)).trans <| (s6 m c main_arg1 (by decide)).trans <|
    (s5 m c main_arg1 (by decide)).trans <| (s4 m c main_arg1 (by decide)).trans <| (s3 m c main_arg1 (by decide)).trans <|
    (s2 m c main_arg1 (by decide)).trans <| (s1 m c main_arg1 (by decide)).trans rfl
/-- Argument 2 reaches the end as launched: no host operation writes it, and a region at most reads it. -/
theorem W11_arg2 (c : Dev nD) : W11 m c (Proc.devRef .tc main_arg2) = m ((c : Thread nD τ).loc main_arg2) :=
  (s11 m c main_arg2 (by decide)).trans <| (s10 m c main_arg2 (by decide)).trans <| (s9 m c main_arg2 (by decide) (by decide)).trans <|
    (s8 m c main_arg2 (by decide)).trans <| (s7 m c main_arg2 (by decide)).trans <| (s6 m c main_arg2 (by decide)).trans <|
    (s5 m c main_arg2 (by decide)).trans <| (s4i m c 1 rfl).trans <| (s3 m c main_arg2 (by decide)).trans <|
    (s2 m c main_arg2 (by decide)).trans <| (s1 m c main_arg2 (by decide)).trans rfl
/-- Argument 3 reaches the end as launched: no host operation writes it, and a region at most reads it. -/
theorem W11_arg3 (c : Dev nD) : W11 m c (Proc.devRef .tc main_arg3) = m ((c : Thread nD τ).loc main_arg3) :=
  (s11 m c main_arg3 (by decide)).trans <| (s10 m c main_arg3 (by decide)).trans <| (s9 m c main_arg3 (by decide) (by decide)).trans <|
    (s8 m c main_arg3 (by decide)).trans <| (s7 m c main_arg3 (by decide)).trans <| (s6 m c main_arg3 (by decide)).trans <|
    (s5 m c main_arg3 (by decide)).trans <| (s4 m c main_arg3 (by decide)).trans <| (s3 m c main_arg3 (by decide)).trans <|
    (s2 m c main_arg3 (by decide)).trans <| (s1 m c main_arg3 (by decide)).trans rfl
/-- Argument 4 reaches the end as launched: no host operation writes it, and a region at most reads it. -/
theorem W11_arg4 (c : Dev nD) : W11 m c (Proc.devRef .tc main_arg4) = m ((c : Thread nD τ).loc main_arg4) :=
  (s11 m c main_arg4 (by decide)).trans <| (s10 m c main_arg4 (by decide)).trans <| (s9 m c main_arg4 (by decide) (by decide)).trans <|
    (s8 m c main_arg4 (by decide)).trans <| (s7i m c 1 rfl).trans <| (s6 m c main_arg4 (by decide)).trans <|
    (s5 m c main_arg4 (by decide)).trans <| (s4 m c main_arg4 (by decide)).trans <| (s3 m c main_arg4 (by decide)).trans <|
    (s2 m c main_arg4 (by decide)).trans <| (s1 m c main_arg4 (by decide)).trans rfl
/-- Argument 5 reaches the end as launched: no host operation writes it, and a region at most reads it. -/
theorem W11_arg5 (c : Dev nD) : W11 m c (Proc.devRef .tc main_arg5) = m ((c : Thread nD τ).loc main_arg5) :=
  (s11 m c main_arg5 (by decide)).trans <| (s10 m c main_arg5 (by decide)).trans <| (s9 m c main_arg5 (by decide) (by decide)).trans <|
    (s8 m c main_arg5 (by decide)).trans <| (s7 m c main_arg5 (by decide)).trans <| (s6 m c main_arg5 (by decide)).trans <|
    (s5 m c main_arg5 (by decide)).trans <| (s4 m c main_arg5 (by decide)).trans <| (s3 m c main_arg5 (by decide)).trans <|
    (s2 m c main_arg5 (by decide)).trans <| (s1 m c main_arg5 (by decide)).trans rfl
/-- Argument 6 reaches the end as launched: no host operation writes it, and a region at most reads it. -/
theorem W11_arg6 (c : Dev nD) : W11 m c (Proc.devRef .tc main_arg6) = m ((c : Thread nD τ).loc main_arg6) :=
  (s11 m c main_arg6 (by decide)).trans <| (s10i m c 1 rfl).trans <| (s9 m c main_arg6 (by decide) (by decide)).trans <|
    (s8 m c main_arg6 (by decide)).trans <| (s7 m c main_arg6 (by decide)).trans <| (s6 m c main_arg6 (by decide)).trans <|
    (s5 m c main_arg6 (by decide)).trans <| (s4 m c main_arg6 (by decide)).trans <| (s3 m c main_arg6 (by decide)).trans <|
    (s2 m c main_arg6 (by decide)).trans <| (s1 m c main_arg6 (by decide)).trans rfl
/-- Argument 7 reaches the end as launched: no host operation writes it, and a region at most reads it. -/
theorem W11_arg7 (c : Dev nD) : W11 m c (Proc.devRef .tc main_arg7) = m ((c : Thread nD τ).loc main_arg7) :=
  (s11 m c main_arg7 (by decide)).trans <| (s10 m c main_arg7 (by decide)).trans <| (s9 m c main_arg7 (by decide) (by decide)).trans <|
    (s8 m c main_arg7 (by decide)).trans <| (s7 m c main_arg7 (by decide)).trans <| (s6 m c main_arg7 (by decide)).trans <|
    (s5 m c main_arg7 (by decide)).trans <| (s4 m c main_arg7 (by decide)).trans <| (s3 m c main_arg7 (by decide)).trans <|
    (s2 m c main_arg7 (by decide)).trans <| (s1 m c main_arg7 (by decide)).trans rfl
/-- Argument 8 reaches the end as launched: no host operation writes it, and a region at most reads it. -/
theorem W11_arg8 (c : Dev nD) : W11 m c (Proc.devRef .tc main_arg8) = m ((c : Thread nD τ).loc main_arg8) :=
  (s11 m c main_arg8 (by decide)).trans <| (s10 m c main_arg8 (by decide)).trans <| (s9 m c main_arg8 (by decide) (by decide)).trans <|
    (s8 m c main_arg8 (by decide)).trans <| (s7 m c main_arg8 (by decide)).trans <| (s6 m c main_arg8 (by decide)).trans <|
    (s5 m c main_arg8 (by decide)).trans <| (s4 m c main_arg8 (by decide)).trans <| (s3 m c main_arg8 (by decide)).trans <|
    (s2 m c main_arg8 (by decide)).trans <| (s1 m c main_arg8 (by decide)).trans rfl
/-- Argument 9 reaches the end as launched: no host operation writes it, and a region at most reads it. -/
theorem W11_arg9 (c : Dev nD) : W11 m c (Proc.devRef .tc main_arg9) = m ((c : Thread nD τ).loc main_arg9) :=
  (s11 m c main_arg9 (by decide)).trans <| (s10 m c main_arg9 (by decide)).trans <| (s9 m c main_arg9 (by decide) (by decide)).trans <|
    (s8 m c main_arg9 (by decide)).trans <| (s7 m c main_arg9 (by decide)).trans <| (s6 m c main_arg9 (by decide)).trans <|
    (s5 m c main_arg9 (by decide)).trans <| (s4 m c main_arg9 (by decide)).trans <| (s3 m c main_arg9 (by decide)).trans <|
    (s2 m c main_arg9 (by decide)).trans <| (s1 m c main_arg9 (by decide)).trans rfl
/-- Argument 10 reaches the end as launched: no host operation writes it, and a region at most reads it. -/
theorem W11_arg10 (c : Dev nD) : W11 m c (Proc.devRef .tc main_arg10) = m ((c : Thread nD τ).loc main_arg10) :=
  (s11 m c main_arg10 (by decide)).trans <| (s10 m c main_arg10 (by decide)).trans <| (s9 m c main_arg10 (by decide) (by decide)).trans <|
    (s8 m c main_arg10 (by decide)).trans <| (s7 m c main_arg10 (by decide)).trans <| (s6 m c main_arg10 (by decide)).trans <|
    (s5 m c main_arg10 (by decide)).trans <| (s4 m c main_arg10 (by decide)).trans <| (s3 m c main_arg10 (by decide)).trans <|
    (s2 m c main_arg10 (by decide)).trans <| (s1 m c main_arg10 (by decide)).trans rfl
/-- Argument 11 reaches the end as launched: no host operation writes it, and a region at most reads it. -/
theorem W11_arg11 (c : Dev nD) : W11 m c (Proc.devRef .tc main_arg11) = m ((c : Thread nD τ).loc main_arg11) :=
  (s11 m c main_arg11 (by decide)).trans <| (s10 m c main_arg11 (by decide)).trans <| (s9 m c main_arg11 (by decide) (by decide)).trans <|
    (s8 m c main_arg11 (by decide)).trans <| (s7 m c main_arg11 (by decide)).trans <| (s6 m c main_arg11 (by decide)).trans <|
    (s5 m c main_arg11 (by decide)).trans <| (s4 m c main_arg11 (by decide)).trans <| (s3 m c main_arg11 (by decide)).trans <|
    (s2 m c main_arg11 (by decide)).trans <| (s1 m c main_arg11 (by decide)).trans rfl
/-- Argument 12 reaches the end as launched: no host operation writes it, and a region at most reads it. -/
theorem W11_arg12 (c : Dev nD) : W11 m c (Proc.devRef .tc main_arg12) = m ((c : Thread nD τ).loc main_arg12) :=
  (s11 m c main_arg12 (by decide)).trans <| (s10 m c main_arg12 (by decide)).trans <| (s9 m c main_arg12 (by decide) (by decide)).trans <|
    (s8 m c main_arg12 (by decide)).trans <| (s7 m c main_arg12 (by decide)).trans <| (s6 m c main_arg12 (by decide)).trans <|
    (s5 m c main_arg12 (by decide)).trans <| (s4 m c main_arg12 (by decide)).trans <| (s3 m c main_arg12 (by decide)).trans <|
    (s2 m c main_arg12 (by decide)).trans <| (s1 m c main_arg12 (by decide)).trans rfl
/-- Argument 13 reaches the end as launched: no host operation writes it, and a region at most reads it. -/
theorem W11_arg13 (c : Dev nD) : W11 m c (Proc.devRef .tc main_arg13) = m ((c : Thread nD τ).loc main_arg13) :=
  (s11 m c main_arg13 (by decide)).trans <| (s10 m c main_arg13 (by decide)).trans <| (s9 m c main_arg13 (by decide) (by decide)).trans <|
    (s8 m c main_arg13 (by decide)).trans <| (s7 m c main_arg13 (by decide)).trans <| (s6 m c main_arg13 (by decide)).trans <|
    (s5 m c main_arg13 (by decide)).trans <| (s4 m c main_arg13 (by decide)).trans <| (s3 m c main_arg13 (by decide)).trans <|
    (s2 m c main_arg13 (by decide)).trans <| (s1 m c main_arg13 (by decide)).trans rfl
/-- Argument 14 reaches the end as launched: no host operation writes it, and a region at most reads it. -/
theorem W11_arg14 (c : Dev nD) : W11 m c (Proc.devRef .tc main_arg14) = m ((c : Thread nD τ).loc main_arg14) :=
  (s11 m c main_arg14 (by decide)).trans <| (s10 m c main_arg14 (by decide)).trans <| (s9 m c main_arg14 (by decide) (by decide)).trans <|
    (s8 m c main_arg14 (by decide)).trans <| (s7 m c main_arg14 (by decide)).trans <| (s6 m c main_arg14 (by decide)).trans <|
    (s5 m c main_arg14 (by decide)).trans <| (s4 m c main_arg14 (by decide)).trans <| (s3 m c main_arg14 (by decide)).trans <|
    (s2 m c main_arg14 (by decide)).trans <| (s1 m c main_arg14 (by decide)).trans rfl
/-- Argument 15 reaches the end as launched: no host operation writes it, and a region at most reads it. -/
theorem W11_arg15 (c : Dev nD) : W11 m c (Proc.devRef .tc main_arg15) = m ((c : Thread nD τ).loc main_arg15) :=
  (s11 m c main_arg15 (by decide)).trans <| (s10 m c main_arg15 (by decide)).trans <| (s9 m c main_arg15 (by decide) (by decide)).trans <|
    (s8 m c main_arg15 (by decide)).trans <| (s7 m c main_arg15 (by decide)).trans <| (s6 m c main_arg15 (by decide)).trans <|
    (s5 m c main_arg15 (by decide)).trans <| (s4 m c main_arg15 (by decide)).trans <| (s3 m c main_arg15 (by decide)).trans <|
    (s2 m c main_arg15 (by decide)).trans <| (s1 m c main_arg15 (by decide)).trans rfl

/-- An unscoped reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, with the result named: every weakly fair execution terminates without a fault; the result array ends at
    the last boundary's contents and every argument array as launched. -/
theorem run_result : θ_run defs (onTc (τ := τ) (main (F := F))) ⟨m, fun _ => 0, ρ⟩ (fun r => ∀ c : Dev nD,
      r.2.mem ((c.tc : Thread nD τ).loc main_v86) = W11 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v86 (by decide)),
      (h c _ (mem_uc main_arg0 (by decide))).trans (W11_arg0 m c),
      (h c _ (mem_uc main_arg1 (by decide))).trans (W11_arg1 m c),
      (h c _ (mem_uc main_arg2 (by decide))).trans (W11_arg2 m c),
      (h c _ (mem_uc main_arg3 (by decide))).trans (W11_arg3 m c),
      (h c _ (mem_uc main_arg4 (by decide))).trans (W11_arg4 m c),
      (h c _ (mem_uc main_arg5 (by decide))).trans (W11_arg5 m c),
      (h c _ (mem_uc main_arg6 (by decide))).trans (W11_arg6 m c),
      (h c _ (mem_uc main_arg7 (by decide))).trans (W11_arg7 m c),
      (h c _ (mem_uc main_arg8 (by decide))).trans (W11_arg8 m c),
      (h c _ (mem_uc main_arg9 (by decide))).trans (W11_arg9 m c),
      (h c _ (mem_uc main_arg10 (by decide))).trans (W11_arg10 m c),
      (h c _ (mem_uc main_arg11 (by decide))).trans (W11_arg11 m c),
      (h c _ (mem_uc main_arg12 (by decide))).trans (W11_arg12 m c),
      (h c _ (mem_uc main_arg13 (by decide))).trans (W11_arg13 m c),
      (h c _ (mem_uc main_arg14 (by decide))).trans (W11_arg14 m c),
      (h c _ (mem_uc main_arg15 (by decide))).trans (W11_arg15 m c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_result m ρ)

end Cert.Kernel.Hand

end
-- ==== Proof.KI.Region0.lean ====
/-
  The first matrix product of the network, as one kernel region of the program: rows 2000 t … 2000 t + 1999 of the
  node features (a [2000, 512] block) against the whole [512, 256] weight matrix, 25 row blocks in all.
  Stated at a parameter V, the contents of the core's buffers when the region is entered: what each window's block is at a
  grid point, what the body leaves in the output block (the product of the two blocks read), the body's run on the
  staging buffers, and the region's proof data (inputs left in place, the output block the body's result, nothing owed).
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the whole weight matrix at every point (fetched once; its block never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each is the whole of its buffer. -/
abbrev r0_x : Rect S2000x512 := Rect.unit (s := S2000x512) ![0, 0] S2000x512.size inb_S2000x512_S2000x512_0_0
abbrev r0_w : Rect S512x256 := Rect.unit (s := S512x256) ![0, 0] S512x256.size inb_S512x256_S512x256_0_0
abbrev r0_o : Rect S2000x256 := Rect.unit (s := S2000x256) ![0, 0] S2000x256.size inb_S2000x256_S2000x256_0_0

/-- The output block after the body: the one store's value, the product of the feature block and the weights. -/
def out0_2 (x0 : Vec F S2000x512 .f32) (x1 : Vec F S512x256 .f32) : Vec F S2000x256 .f32 :=
  View.canon [⟨r0_o, k0_pay1 (View.ld x0 r0_x) (View.ld x1 r0_w)⟩]

/-- The one store covers the output block. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

set_option maxHeartbeats 1000000 in
/-- The body on whole staging buffers: the two inputs at read contents, the output at anything; it ends with the inputs as
    they were and the output at the product. -/
theorem sound_kernel0 (c : Dev nD) (E : Set ℕ) (i : grid0.Coords) (arg1 : Memref sig .tc .vmem S2000x512 .f32) (harg1 : arg1.IsWhole) (arg2 : Memref sig .tc .vmem S512x256 .f32) (harg2 : arg2.IsWhole) (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- The region's proof data on core c: the arrays as the region finds them; after the body at point t the inputs' buffers
    at their blocks and the output's at the product of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The first layer's pointwise stage as one kernel region: on each [2000, 256] row block of the aggregated messages, add the
  bias row, subtract the running mean, scale by the reciprocal square root of the running variance plus a small constant,
  scale by gamma, add beta, and apply the leaky rectifier; the five parameter rows are [1, 256] blocks that never move.
  Stated at a parameter V, the buffers' contents when the region is entered: each window's block at a grid point, what
  the body leaves in the output block, the body's run on the staging buffers, and the region's proof data.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point: the row block of the messages is fetched
    at every point, a parameter row once (its block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is the whole of its buffer, a [2000, 256] block or a [1, 256] row. -/
abbrev r1_o : Rect S2000x256 := Rect.unit (s := S2000x256) ![0, 0] S2000x256.size inb_S2000x256_S2000x256_0_0
abbrev r1_p : Rect S1x256 := Rect.unit (s := S1x256) ![0, 0] S1x256.size inb_S1x256_S1x256_0_0

/-- The output block after the body: the one store's value, the normalised and rectified block, from the message block
    x0 and the rows x1 (bias), x2 (gamma), x3 (beta), x4 (running mean), x5 (running variance). -/
def out1_6 (x0 : Vec F S2000x256 .f32) (x1 x2 x3 x4 x5 : Vec F S1x256 .f32) : Vec F S2000x256 .f32 :=
  View.canon [⟨r1_o, k1_pay1 (View.ld x0 r1_o) (View.ld x1 r1_p) (View.ld x4 r1_p) (View.ld x5 r1_p) (View.ld x2 r1_p) (View.ld x3 r1_p)⟩]

/-- The one store covers the output block. -/
theorem cover1_6 (p0 : Vec F S2000x256 .f32) (y : S2000x256.Idx) :
    ∃ pc ∈ ([⟨r1_o, p0⟩] : List (View.Piece (Elt F) S2000x256 .f32)), y ∈ pc.1.set :=
  View.cover_of_tiled [⟨r1_o, p0⟩] S2000x256.size (by rfl) y

set_option maxHeartbeats 4000000 in
/-- The body on whole staging buffers: the six inputs at read contents, the output at anything; it ends with the inputs
    as they were and the output at the normalised and rectified block. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_act_kernel i arg1 harg1 arg2 harg2 arg3 harg3 arg4 harg4 arg5 harg5 arg6 harg6 arg7 harg7) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The region's proof data on core c: the arrays as the region finds them; after the body at point t each input's buffer
    at its block and the output's at the body's result on the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The second matrix product of the network, as one kernel region: rows 2000 t … 2000 t + 1999 of the first layer's
  activations (a [2000, 256] block) against the whole [256, 256] weight matrix, 25 row blocks in all. Stated at a
  parameter V, the buffers' contents when the region is entered: each window's block at a grid point, what the body
  leaves in the output block (the product of the two blocks read), the body's run, and the region's proof data.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's current staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the whole weight matrix at every point (fetched once; its block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each is the whole of its buffer. -/
abbrev r2_x : Rect S2000x256 := Rect.unit (s := S2000x256) ![0, 0] S2000x256.size inb_S2000x256_S2000x256_0_0
abbrev r2_w : Rect S256x256 := Rect.unit (s := S256x256) ![0, 0] S256x256.size inb_S256x256_S256x256_0_0
abbrev r2_o : Rect S2000x256 := Rect.unit (s := S2000x256) ![0, 0] S2000x256.size inb_S2000x256_S2000x256_0_0

/-- The output block after the body: the one store's value, the product of the activation block and the weights. -/
def out2_2 (x0 : Vec F S2000x256 .f32) (x1 : Vec F S256x256 .f32) : Vec F S2000x256 .f32 :=
  View.canon [⟨r2_o, k2_pay1 (View.ld x0 r2_x) (View.ld x1 r2_w)⟩]

/-- The one store covers the output block. -/
theorem cover2_2 (p0 : Vec F S2000x256 .f32) (y : S2000x256.Idx) :
    ∃ pc ∈ ([⟨r2_o, p0⟩] : List (View.Piece (Elt F) S2000x256 .f32)), y ∈ pc.1.set :=
  View.cover_of_tiled [⟨r2_o, p0⟩] S2000x256.size (by rfl) y

set_option maxHeartbeats 1000000 in
/-- The body on whole staging buffers: the two inputs at read contents, the output at anything; it ends with the inputs as
    they were and the output at the product. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-- The region's proof data on core c: the arrays as the region finds them; after the body at point t the inputs' buffers
    at their blocks and the output's at the product of the two blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's run applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  The second layer's pointwise stage as one kernel region, with two results: on each [2000, 256] row block, add the bias
  row and the previous layer's block to the aggregated messages, normalise with the running statistics, scale, shift,
  apply the leaky rectifier — the first result — and add that to the block of the accumulated representation — the
  second result. The previous layer's activations reach the body through two windows on ONE array (once as the residual,
  once as the accumulated representation); both only read it.
  Stated at a parameter V, the buffers' contents when the region is entered: each window's block at a grid point, what
  the body leaves in the two output blocks, the body's run on the staging buffers, and the region's proof data, in which
  the two windows on the shared array each hold one half of it.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point: a row block is fetched at every point, a
    parameter row once (its block never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each is the whole of its buffer, a [2000, 256] block or a [1, 256] row. -/
abbrev r3_o : Rect S2000x256 := Rect.unit (s := S2000x256) ![0, 0] S2000x256.size inb_S2000x256_S2000x256_0_0
abbrev r3_p : Rect S1x256 := Rect.unit (s := S1x256) ![0, 0] S1x256.size inb_S1x256_S1x256_0_0

/-- The first output block after the body: the normalised and rectified block, from the message block x0, the bias row x1,
    the residual block x2, and the rows x3 (gamma), x4 (beta), x5 (running mean), x6 (running variance). -/
def out3_8 (x0 : Vec F S2000x256 .f32) (x1 : Vec F S1x256 .f32) (x2 : Vec F S2000x256 .f32) (x3 x4 x5 x6 : Vec F S1x256 .f32) : Vec F S2000x256 .f32 :=
  View.canon [⟨r3_o, k3_pay1 (View.ld x0 r3_o) (View.ld x1 r3_p) (View.ld x2 r3_o) (View.ld x5 r3_p) (View.ld x6 r3_p) (View.ld x3 r3_p) (View.ld x4 r3_p)⟩]

/-- The second output block after the body: the accumulated block x7 plus the first output. -/
def out3_9 (x0 : Vec F S2000x256 .f32) (x1 : Vec F S1x256 .f32) (x2 : Vec F S2000x256 .f32) (x3 x4 x5 x6 : Vec F S1x256 .f32) (x7 : Vec F S2000x256 .f32) : Vec F S2000x256 .f32 :=
  View.canon [⟨r3_o, k3_pay2 (View.ld x0 r3_o) (View.ld x1 r3_p) (View.ld x2 r3_o) (View.ld x5 r3_p) (View.ld x6 r3_p) (View.ld x3 r3_p) (View.ld x4 r3_p) (View.ld x7 r3_o)⟩]

/-- One store covers an output block. -/
theorem cover3_o (p0 : Vec F S2000x256 .f32) (y : S2000x256.Idx) :
    ∃ pc ∈ ([⟨r3_o, p0⟩] : List (View.Piece (Elt F) S2000x256 .f32)), y ∈ pc.1.set :=
  View.cover_of_tiled [⟨r3_o, p0⟩] S2000x256.size (by rfl) y

set_option maxHeartbeats 4000000 in
/-- The body on whole staging buffers: the eight inputs at read contents, the two outputs at anything; it ends with the
    inputs as they were and the outputs at the two results. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S2000x256 .f32) (harg9 : arg9.IsWhole) (arg10 : Memref sig .tc .vmem S2000x256 .f32) (harg10 : arg10.IsWhole)
    (x0 : Vec F S2000x256 .f32) (x1 : Vec F S1x256 .f32) (x2 : Vec F S2000x256 .f32) (x3 x4 x5 x6 : Vec F S1x256 .f32) (x7 : Vec F S2000x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6) ∗ owns (c : Thread nD τ) arg10 fullShare (out3_9 x0 x1 x2 x3 x4 x5 x6 x7)) -∗ K ⟨⟩))
      ⊢ wp frame (wpE (defs₀ (F := F)) Variants.none c none) E (cc3__bn_act_res_kernel i arg1 harg1 arg2 harg2 arg3 harg3 arg4 harg4 arg5 harg5 arg6 harg6 arg7 harg7 arg8 harg8 arg9 harg9 arg10 harg10) K := by
  simp only [cc3__bn_act_res_kernel_eq_skeleton]; unfold cc3__bn_act_res_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_o _)
  iexists _; isplitr
  swap; · iexact H9
  ipureintro
  try dsimp only
  exact View.read_writes_eq_canon _ _ _ (cover3_o _)

/-- The region's proof data on core c: the arrays as the region finds them; after the body at point t each input's buffer
    at its block and each output's at the body's result on the blocks; nothing owed; full shares, but for the two windows
    on the shared array, which hold complementary halves of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q w := match w with
    | ⟨2, _⟩ => (fullShare : PosShare TreeShare).left
    | ⟨7, _⟩ => (fullShare : PosShare TreeShare).right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's run applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  The third matrix product of the network, as one kernel region: rows 2000 t … 2000 t + 1999 of the summed layer
  activations (a [2000, 256] block) against the whole [256, 256] weight matrix, 25 row blocks in all. Stated at a
  parameter V, the buffers' contents when the region is entered: each window's block at a grid point, what the body
  leaves in the output block (the product of the two blocks read), the body's run, and the region's proof data.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's current staging buffer holds its row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weight window's staging buffer holds the whole weight matrix at every point (fetched once; its block never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's three accesses: each is the whole of its buffer. -/
abbrev r4_x : Rect S2000x256 := Rect.unit (s := S2000x256) ![0, 0] S2000x256.size inb_S2000x256_S2000x256_0_0
abbrev r4_w : Rect S256x256 := Rect.unit (s := S256x256) ![0, 0] S256x256.size inb_S256x256_S256x256_0_0
abbrev r4_o : Rect S2000x256 := Rect.unit (s := S2000x256) ![0, 0] S2000x256.size inb_S2000x256_S2000x256_0_0

/-- The output block after the body: the one store's value, the product of the activation block and the weights. -/
def out4_2 (x0 : Vec F S2000x256 .f32) (x1 : Vec F S256x256 .f32) : Vec F S2000x256 .f32 :=
  View.canon [⟨r4_o, k4_pay1 (View.ld x0 r4_x) (View.ld x1 r4_w)⟩]

/-- The one store covers the output block. -/
theorem cover4_2 (p0 : Vec F S2000x256 .f32) (y : S2000x256.Idx) :
    ∃ pc ∈ ([⟨r4_o, p0⟩] : List (View.Piece (Elt F) S2000x256 .f32)), y ∈ pc.1.set :=
  View.cover_of_tiled [⟨r4_o, p0⟩] S2000x256.size (by rfl) y

set_option maxHeartbeats 1000000 in
/-- The body on whole staging buffers: the two inputs at read contents, the output at anything; it ends with the inputs as
    they were and the output at the product. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-- The region's proof data on core c: the arrays as the region finds them; after the body at point t the inputs' buffers
    at their blocks and the output's at the product of the two blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's run applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Fold.lean ====
/-
  The contents of the core's buffers at each boundary between the items of the program: the launch memory, then each
  stretch of host operations applied, then after each kernel region the region's arrays at what its write-backs leave
  (the inputs as entered, each output block by block) and every other buffer as entered. Also each region's proof data
  at its own entry contents, as one family.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.Gen.KernelIdeal.Regions
import proofs.«122691_j4398046511761_1_alg».proof.Proof.KI.Region0
import proofs.«122691_j4398046511761_1_alg».proof.Proof.KI.Region1
import proofs.«122691_j4398046511761_1_alg».proof.Proof.KI.Region2
import proofs.«122691_j4398046511761_1_alg».proof.Proof.KI.Region3
import proofs.«122691_j4398046511761_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first three host stretches (edge lists with self loops, degrees, the edge weights): region 0's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- After region 0 (the first matrix product). -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the first message passing and the parameter rows' reshapes: region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- After region 1 (the first pointwise stage). -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After region 2 (the second matrix product), entered from region 1's exit. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the second message passing and the parameter rows' reshapes: region 3's entry. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- After region 3 (the second pointwise stage): its two result arrays at what the write-backs leave, every other buffer —
    the array two of its windows share among them — as entered. -/
def W9 (c : Dev nD) : Valuation τ sig (Elt F) :=
  Function.update (Function.update (W8 m c) (Proc.devRef .tc main_v69_0) ((dat3 (V8 m) c).arrAt 8 cfg3.N))
    (Proc.devRef .tc main_v69_1) ((dat3 (V8 m) c).arrAt 9 cfg3.N)
abbrev V9 : (c : Dev nD) → (b : Ref sig .tc) → Buf (Elt F) ((c : Thread nD τ).loc b) := fun c b => W9 m c b
theorem W9_v69_1 (c : Dev nD) : W9 m c (Proc.devRef .tc main_v69_1) = (dat3 (V8 m) c).arrAt 9 cfg3.N := by
  unfold W9; exact Function.update_self ..
theorem W9_v69_0 (c : Dev nD) : W9 m c (Proc.devRef .tc main_v69_0) = (dat3 (V8 m) c).arrAt 8 cfg3.N := by
  unfold W9
  rw [Function.update_of_ne (StableHlo.devRef_ne_of_ne (by decide) : (Proc.devRef .tc main_v69_0 : DevRef τ sig) ≠ Proc.devRef .tc main_v69_1)]
  exact Function.update_self ..
theorem W9_of_ne (c : Dev nD) (b : Ref sig .tc) (h0 : b ≠ main_v69_0) (h1 : b ≠ main_v69_1) :
    W9 m c (Proc.devRef .tc b) = W8 m c (Proc.devRef .tc b) := by
  unfold W9
  rw [Function.update_of_ne (StableHlo.devRef_ne_of_ne h1 : (Proc.devRef .tc b : DevRef τ sig) ≠ Proc.devRef .tc main_v69_1),
    Function.update_of_ne (StableHlo.devRef_ne_of_ne h0 : (Proc.devRef .tc b : DevRef τ sig) ≠ Proc.devRef .tc main_v69_0)]

/-- After region 4 (the third matrix product), entered from region 3's exit. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After the last message passing and the final bias: the end. -/
abbrev W11 : Dev nD → Valuation τ sig (Elt F) := fun c => StableHlo.after hostOps5 (W10 m c)

/-- The prefetched tables' admissible contents: no region has a table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V9 m) c

end Cert.KernelIdeal.Hand

end
-- ==== Proof.KI.Shared3.lean ====
/-
  The second pointwise region hands ONE array — the first layer's activations — to two of its input windows. Its ten
  windowed arrays are then nine distinct buffers: the shared one is held by the two windows at complementary halves,
  every other at the full share. This module says that the nine buffers, each whole at the full share at contents V',
  are exactly the region's ten arrays at the same contents, so that the region's arrays can be taken out of the core's
  unscoped buffers at entry and put back at exit.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.KI.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The distinct buffers behind region 3's ten windows. -/
theorem image_arrRef3 : (Finset.univ.image (Pipeline.arrRef spec3) : Finset (Ref sig .tc))
    = {main_v63, main_v64, main_v49, main_v65, main_v66, main_v67, main_v68, main_v69_0, main_v69_1} := by decide

/-- The nine buffers one by one. -/
theorem arrBufs3_eq (c : Dev nD) :
    (Pipeline.arrBufs (Ix := Unit) (Name := ℕ) (U := UR sig nD τ) (Lvl := ℕ) spec3 c (V' c) : sProp 𝕄)
      = iprop((((c : Thread nD τ).loc main_v63) ↦{fullShare} V' c main_v63) ∗ (((c : Thread nD τ).loc main_v64) ↦{fullShare} V' c main_v64)
        ∗ (((c : Thread nD τ).loc main_v49) ↦{fullShare} V' c main_v49) ∗ (((c : Thread nD τ).loc main_v65) ↦{fullShare} V' c main_v65)
        ∗ (((c : Thread nD τ).loc main_v66) ↦{fullShare} V' c main_v66) ∗ (((c : Thread nD τ).loc main_v67) ↦{fullShare} V' c main_v67)
        ∗ (((c : Thread nD τ).loc main_v68) ↦{fullShare} V' c main_v68) ∗ (((c : Thread nD τ).loc main_v69_0) ↦{fullShare} V' c main_v69_0)
        ∗ (((c : Thread nD τ).loc main_v69_1) ↦{fullShare} V' c main_v69_1)) := by
  unfold Pipeline.arrBufs
  rw [image_arrRef3]
  rw [bigSep_insert (by decide), bigSep_insert (by decide), bigSep_insert (by decide), bigSep_insert (by decide),
    bigSep_insert (by decide), bigSep_insert (by decide), bigSep_insert (by decide), bigSep_insert (by decide), bigSep_singleton]
  rfl

/-- The region's arrays window by window: every array a whole buffer, held at the window's share. -/
theorem arrays3_eq (c : Dev nD) (F : (w : Fin cfg3.W) → Buf (Elt F) ((cfg3.win w).arr.view.loc (c : Thread nD τ))) :
    ((dat3 V c).arrays F : sProp 𝕄)
      = bigSep Finset.univ fun w : Fin cfg3.W => (((c : Thread nD τ).loc (Pipeline.arrRef spec3 w)) ↦{(dat3 V c).share w} F w : sProp 𝕄) := by
  unfold Dat.arrays
  exact bigSep_congr fun w _ => by rw [(arr_whole3 w).set_eq_univ]

/-- The ten arrays one by one, at contents read off V': the shared buffer appears twice, at the two halves. -/
theorem arrays3_list (c : Dev nD) (F : (w : Fin cfg3.W) → Buf (Elt F) ((cfg3.win w).arr.view.loc (c : Thread nD τ)))
    (hF : ∀ w, F w = V' c (Pipeline.arrRef spec3 w)) :
    ((dat3 V c).arrays F : sProp 𝕄)
      = iprop((((c : Thread nD τ).loc main_v63) ↦{fullShare} V' c main_v63) ∗ (((c : Thread nD τ).loc main_v64) ↦{fullShare} V' c main_v64)
        ∗ (((c : Thread nD τ).loc main_v49) ↦{(fullShare : PosShare TreeShare).left} V' c main_v49) ∗ (((c : Thread nD τ).loc main_v65) ↦{fullShare} V' c main_v65)
        ∗ (((c : Thread nD τ).loc main_v66) ↦{fullShare} V' c main_v66) ∗ (((c : Thread nD τ).loc main_v67) ↦{fullShare} V' c main_v67)
        ∗ (((c : Thread nD τ).loc main_v68) ↦{fullShare} V' c main_v68) ∗ (((c : Thread nD τ).loc main_v49) ↦{(fullShare : PosShare TreeShare).right} V' c main_v49)
        ∗ (((c : Thread nD τ).loc main_v69_0) ↦{fullShare} V' c main_v69_0) ∗ (((c : Thread nD τ).loc main_v69_1) ↦{fullShare} V' c main_v69_1)) := by
  obtain rfl : F = fun w => V' c (Pipeline.arrRef spec3 w) := funext hF
  rw [arrays3_eq, bigSep_W3]
  rfl

/-- ENTRY: the nine buffers, whole, make the region's ten arrays (the shared buffer split in halves). -/
theorem arrays3_of_bufs (c : Dev nD) (F : (w : Fin cfg3.W) → Buf (Elt F) ((cfg3.win w).arr.view.loc (c : Thread nD τ)))
    (hF : ∀ w, F w = V' c (Pipeline.arrRef spec3 w)) :
    (Pipeline.arrBufs (Ix := Unit) (Name := ℕ) (U := UR sig nD τ) (Lvl := ℕ) spec3 c (V' c) : sProp 𝕄) ⊢ (dat3 V c).arrays F := by
  rw [arrBufs3_eq, arrays3_list V V' c F hF]
  iintro ⟨H0, H1, H2, H3, H4, H5, H6, H8, H9⟩
  ihave H2' := (pointsTo_share (PosShare.mem_left_op_right fullShare)).1 $$ H2
  icases H2' with ⟨H2l, H2r⟩
  isplitl [H0]; · iexact H0
  isplitl [H1]; · iexact H1
  isplitl [H2l]; · iexact H2l
  isplitl [H3]; · iexact H3
  isplitl [H4]; · iexact H4
  isplitl [H5]; · iexact H5
  isplitl [H6]; · iexact H6
  isplitl [H2r]; · iexact H2r
  isplitl [H8]; · iexact H8
  iexact H9

/-- EXIT: the region's ten arrays make the nine buffers, whole (the two halves of the shared buffer rejoined). -/
theorem bufs_of_arrays3 (c : Dev nD) (F : (w : Fin cfg3.W) → Buf (Elt F) ((cfg3.win w).arr.view.loc (c : Thread nD τ)))
    (hF : ∀ w, F w = V' c (Pipeline.arrRef spec3 w)) :
    ((dat3 V c).arrays F : sProp 𝕄) ⊢ Pipeline.arrBufs (Ix := Unit) (Name := ℕ) (U := UR sig nD τ) (Lvl := ℕ) spec3 c (V' c) := by
  rw [arrBufs3_eq, arrays3_list V V' c F hF]
  iintro ⟨H0, H1, H2l, H3, H4, H5, H6, H2r, H8, H9⟩
  isplitl [H0]; · iexact H0
  isplitl [H1]; · iexact H1
  isplitl [H2l H2r]
  · iapply (pointsTo_share (PosShare.mem_left_op_right fullShare)).2
    isplitl [H2l]; · iexact H2l
    iexact H2r
  isplitl [H3]; · iexact H3
  isplitl [H4]; · iexact H4
  isplitl [H5]; · iexact H5
  isplitl [H6]; · iexact H6
  isplitl [H8]; · iexact H8
  iexact H9

end Cert.KernelIdeal.Hand

end
-- ==== Proof.KI.Segs.lean ====
/-
  Each kernel region of the program as a segment between two thread states: "every unscoped buffer of the core at the
  contents of this boundary, the generator register at some state, nothing owed". A region takes its arrays out of the
  unscoped buffers at entry and puts them back, at what its write-backs left, at exit.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.KI.Fold
import proofs.«122691_j4398046511761_1_alg».proof.Proof.KI.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

-- the library's lemmas are stated over the pinned configuration, which unifies with the printed one only when unification may
-- unfold plain definitions in a metavariable's type
set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 2 over the thread state: entered from every unscoped buffer at the contents before it, left at the contents
    after it. Its arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- What region 3 leaves in each of its arrays is the next boundary's contents there: an input as entered, an output at
    what its write-backs left. -/
theorem hF3 (c : Dev nD) (w : Fin cfg3.W) : (dat3 (V8 m) c).arrAt w cfg3.N = V9 m c (Pipeline.arrRef spec3 w) := by
  rcases w with ⟨w, hw⟩
  have hw' : w = 0 ∨ w = 1 ∨ w = 2 ∨ w = 3 ∨ w = 4 ∨ w = 5 ∨ w = 6 ∨ w = 7 ∨ w = 8 ∨ w = 9 := by
    have : w < 10 := hw
    omega
  rcases hw' with rfl | rfl | rfl | rfl | rfl | rfl | rfl | rfl | rfl | rfl
  · exact ((dat3 (V8 m) c).arrAt_in 0 rfl _).trans ((A_eq3 (V8 m) c 0).trans (W9_of_ne m c _ (by decide) (by decide)).symm)
  · exact ((dat3 (V8 m) c).arrAt_in 1 rfl _).trans ((A_eq3 (V8 m) c 1).trans (W9_of_ne m c _ (by decide) (by decide)).symm)
  · exact ((dat3 (V8 m) c).arrAt_in 2 rfl _).trans ((A_eq3 (V8 m) c 2).trans (W9_of_ne m c _ (by decide) (by decide)).symm)
  · exact ((dat3 (V8 m) c).arrAt_in 3 rfl _).trans ((A_eq3 (V8 m) c 3).trans (W9_of_ne m c _ (by decide) (by decide)).symm)
  · exact ((dat3 (V8 m) c).arrAt_in 4 rfl _).trans ((A_eq3 (V8 m) c 4).trans (W9_of_ne m c _ (by decide) (by decide)).symm)
  · exact ((dat3 (V8 m) c).arrAt_in 5 rfl _).trans ((A_eq3 (V8 m) c 5).trans (W9_of_ne m c _ (by decide) (by decide)).symm)
  · exact ((dat3 (V8 m) c).arrAt_in 6 rfl _).trans ((A_eq3 (V8 m) c 6).trans (W9_of_ne m c _ (by decide) (by decide)).symm)
  · exact ((dat3 (V8 m) c).arrAt_in 7 rfl _).trans ((A_eq3 (V8 m) c 7).trans (W9_of_ne m c _ (by decide) (by decide)).symm)
  · exact (W9_v69_0 m c).symm
  · exact (W9_v69_1 m c).symm

/-- Off region 3's arrays nothing changes. -/
theorem hrest3 (c : Dev nD) : ∀ b, b ∉ Finset.univ.image (Pipeline.arrRef spec3) → V9 m c b = V8 m c b :=
  fun b hb => W9_of_ne m c b
    (fun e => hb (Finset.mem_image.mpr ⟨8, Finset.mem_univ _, e.symm⟩))
    (fun e => hb (Finset.mem_image.mpr ⟨9, Finset.mem_univ _, e.symm⟩))

set_option backward.isDefEq.respectTransparency.types false in
/-- Region 3 over the thread state. Two of its windows read one array: at entry that buffer is split in halves between
    them, at exit the halves are rejoined; otherwise as the other regions. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit : (unscopedBufs (Ix := Unit) (Name := ℕ) (U := UR sig nD τ) (Lvl := ℕ) c (V8 m c) : sProp 𝕄)
        ⊢ iprop((pdats m 3 c).arrays ((pdats m 3 c).arrAt · 0) ∗ Pipeline.unscopedRest spec3 c (V8 m c)) := by
      rw [Pipeline.unscopedBufs_split₀ (Pipeline.pin (pcfgs (F := F)) adm) 3 winFacts₀3.arr_unscoped c (V8 m c)]
      exact sep_mono (arrays3_of_bufs (V8 m) (V8 m) c _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V8 m c))
        ⊢ (unscopedBufs (Ix := Unit) (Name := ℕ) (U := UR sig nD τ) (Lvl := ℕ) c (V9 m c) : sProp 𝕄) := by
      rw [Pipeline.unscopedBufs_split₀ (Pipeline.pin (pcfgs (F := F)) adm) 3 winFacts₀3.arr_unscoped c (V9 m c)]
      refine sep_mono (bufs_of_arrays3 (V8 m) (V9 m) c _ (hF3 m c)) (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 4 over the thread state: entered from every unscoped buffer at the contents before it, left at the contents
    after it. Its arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program as a list of eleven segments — six stretches of host operations and five kernel regions, in the
  program's order — and its run: from any launch memory with all counters at zero every weakly fair execution terminates
  without a fault, and in the final memory every unscoped buffer of every core holds the last boundary's contents.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped buffers from the contents W, the register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's eleven segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)) ]

/-- The last thread state without the dues: every unscoped buffer at the last contents, the register at some state. -/
abbrev Tₙ (c : Dev nD) : sProp 𝕄 := iprop(StableHlo.held (c : Thread nD τ) (Pipeline.ucRefs τ sig) (W11 m c) ∗ ∃ r, prngReg c r)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.KernelIdeal.Hand

end
-- ==== Proof.KI.Frame.lean ====
/-
  How a buffer's contents pass from one boundary of the program to the next: a stretch of host operations leaves every
  buffer it does not write as it was; a kernel region leaves every buffer that is none of its arrays as it was, and an
  array it only reads as it was too. Hence every argument array ends as launched, which is the program's frame: it runs
  to the end without a fault and its arguments are unchanged.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem s1 (c : Dev nD) (b : Ref sig .tc) (h : b ∉ hostOps0_W) : W1 m c (Proc.devRef .tc b) = W0 m c (Proc.devRef .tc b) :=
  StableHlo.after_of_writes_sub hostOps0 _ hostOps0_writes h
theorem s2 (c : Dev nD) (b : Ref sig .tc) (h : b ∉ hostOps0_1_W) : W2 m c (Proc.devRef .tc b) = W1 m c (Proc.devRef .tc b) :=
  StableHlo.after_of_writes_sub hostOps0_1 _ hostOps0_1_writes h
theorem s3 (c : Dev nD) (b : Ref sig .tc) (h : b ∉ hostOps0_2_W) : W3 m c (Proc.devRef .tc b) = W2 m c (Proc.devRef .tc b) :=
  StableHlo.after_of_writes_sub hostOps0_2 _ hostOps0_2_writes h
theorem s4 (c : Dev nD) (b : Ref sig .tc) (h : ∀ w, Pipeline.arrRef spec0 w ≠ b) : W4 m c (Proc.devRef .tc b) = W3 m c (Proc.devRef .tc b) :=
  W4_of_ne m c b h
theorem s4i (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
theorem s5 (c : Dev nD) (b : Ref sig .tc) (h : b ∉ hostOps1_W) : W5 m c (Proc.devRef .tc b) = W4 m c (Proc.devRef .tc b) :=
  StableHlo.after_of_writes_sub hostOps1 _ hostOps1_writes h
theorem s6 (c : Dev nD) (b : Ref sig .tc) (h : ∀ w, Pipeline.arrRef spec1 w ≠ b) : W6 m c (Proc.devRef .tc b) = W5 m c (Proc.devRef .tc b) :=
  W6_of_ne m c b h
theorem s6i (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem s7 (c : Dev nD) (b : Ref sig .tc) (h : ∀ w, Pipeline.arrRef spec2 w ≠ b) : W7 m c (Proc.devRef .tc b) = W6 m c (Proc.devRef .tc b) :=
  W7_of_ne m c b h
theorem s7i (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (V6 m) c).arrAt_in w hw _).trans (A_eq2 (V6 m) c w))
theorem s8 (c : Dev nD) (b : Ref sig .tc) (h : b ∉ hostOps3_W) : W8 m c (Proc.devRef .tc b) = W7 m c (Proc.devRef .tc b) :=
  StableHlo.after_of_writes_sub hostOps3 _ hostOps3_writes h
theorem s9 (c : Dev nD) (b : Ref sig .tc) (h0 : b ≠ main_v69_0) (h1 : b ≠ main_v69_1) : W9 m c (Proc.devRef .tc b) = W8 m c (Proc.devRef .tc b) :=
  W9_of_ne m c b h0 h1
theorem s10 (c : Dev nD) (b : Ref sig .tc) (h : ∀ w, Pipeline.arrRef spec4 w ≠ b) : W10 m c (Proc.devRef .tc b) = W9 m c (Proc.devRef .tc b) :=
  W10_of_ne m c b h
theorem s10i (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
theorem s11 (c : Dev nD) (b : Ref sig .tc) (h : b ∉ hostOps5_W) : W11 m c (Proc.devRef .tc b) = W10 m c (Proc.devRef .tc b) :=
  StableHlo.after_of_writes_sub hostOps5 _ hostOps5_writes h

/-- Argument 0 reaches the end as launched: no host operation writes it, and a region at most reads it. -/
theorem W11_arg0 (c : Dev nD) : W11 m c (Proc.devRef .tc main_arg0) = m ((c : Thread nD τ).loc main_arg0) :=
  (s11 m c main_arg0 (by decide)).trans <| (s10 m c main_arg0 (by decide)).trans <| (s9 m c main_arg0 (by decide) (by decide)).trans <|
    (s8 m c main_arg0 (by decide)).trans <| (s7 m c main_arg0 (by decide)).trans <| (s6 m c main_arg0 (by decide)).trans <|
    (s5 m c main_arg0 (by decide)).trans <| (s4i m c 0 rfl).trans <| (s3 m c main_arg0 (by decide)).trans <|
    (s2 m c main_arg0 (by decide)).trans <| (s1 m c main_arg0 (by decide)).trans rfl
/-- Argument 1 reaches the end as launched: no host operation writes it, and a region at most reads it. -/
theorem W11_arg1 (c : Dev nD) : W11 m c (Proc.devRef .tc main_arg1) = m ((c : Thread nD τ).loc main_arg1) :=
  (s11 m c main_arg1 (by decide)).trans <| (s10 m c main_arg1 (by decide)).trans <| (s9 m c main_arg1 (by decide) (by decide)).trans <|
    (s8 m c main_arg1 (by decide)).trans <| (s7 m c main_arg1 (by decide)).trans <| (s6 m c main_arg1 (by decide)).trans <|
    (s5 m c main_arg1 (by decide)).trans <| (s4 m c main_arg1 (by decide)).trans <| (s3 m c main_arg1 (by decide)).trans <|
    (s2 m c main_arg1 (by decide)).trans <| (s1 m c main_arg1 (by decide)).trans rfl
/-- Argument 2 reaches the end as launched: no host operation writes it, and a region at most reads it. -/
theorem W11_arg2 (c : Dev nD) : W11 m c (Proc.devRef .tc main_arg2) = m ((c : Thread nD τ).loc main_arg2) :=
  (s11 m c main_arg2 (by decide)).trans <| (s10 m c main_arg2 (by decide)).trans <| (s9 m c main_arg2 (by decide) (by decide)).trans <|
    (s8 m c main_arg2 (by decide)).trans <| (s7 m c main_arg2 (by decide)).trans <| (s6 m c main_arg2 (by decide)).trans <|
    (s5 m c main_arg2 (by decide)).trans <| (s4i m c 1 rfl).trans <| (s3 m c main_arg2 (by decide)).trans <|
    (s2 m c main_arg2 (by decide)).trans <| (s1 m c main_arg2 (by decide)).trans rfl
/-- Argument 3 reaches the end as launched: no host operation writes it, and a region at most reads it. -/
theorem W11_arg3 (c : Dev nD) : W11 m c (Proc.devRef .tc main_arg3) = m ((c : Thread nD τ).loc main_arg3) :=
  (s11 m c main_arg3 (by decide)).trans <| (s10 m c main_arg3 (by decide)).trans <| (s9 m c main_arg3 (by decide) (by decide)).trans <|
    (s8 m c main_arg3 (by decide)).trans <| (s7 m c main_arg3 (by decide)).trans <| (s6 m c main_arg3 (by decide)).trans <|
    (s5 m c main_arg3 (by decide)).trans <| (s4 m c main_arg3 (by decide)).trans <| (s3 m c main_arg3 (by decide)).trans <|
    (s2 m c main_arg3 (by decide)).trans <| (s1 m c main_arg3 (by decide)).trans rfl
/-- Argument 4 reaches the end as launched: no host operation writes it, and a region at most reads it. -/
theorem W11_arg4 (c : Dev nD) : W11 m c (Proc.devRef .tc main_arg4) = m ((c : Thread nD τ).loc main_arg4) :=
  (s11 m c main_arg4 (by decide)).trans <| (s10 m c main_arg4 (by decide)).trans <| (s9 m c main_arg4 (by decide) (by decide)).trans <|
    (s8 m c main_arg4 (by decide)).trans <| (s7i m c 1 rfl).trans <| (s6 m c main_arg4 (by decide)).trans <|
    (s5 m c main_arg4 (by decide)).trans <| (s4 m c main_arg4 (by decide)).trans <| (s3 m c main_arg4 (by decide)).trans <|
    (s2 m c main_arg4 (by decide)).trans <| (s1 m c main_arg4 (by decide)).trans rfl
/-- Argument 5 reaches the end as launched: no host operation writes it, and a region at most reads it. -/
theorem W11_arg5 (c : Dev nD) : W11 m c (Proc.devRef .tc main_arg5) = m ((c : Thread nD τ).loc main_arg5) :=
  (s11 m c main_arg5 (by decide)).trans <| (s10 m c main_arg5 (by decide)).trans <| (s9 m c main_arg5 (by decide) (by decide)).trans <|
    (s8 m c main_arg5 (by decide)).trans <| (s7 m c main_arg5 (by decide)).trans <| (s6 m c main_arg5 (by decide)).trans <|
    (s5 m c main_arg5 (by decide)).trans <| (s4 m c main_arg5 (by decide)).trans <| (s3 m c main_arg5 (by decide)).trans <|
    (s2 m c main_arg5 (by decide)).trans <| (s1 m c main_arg5 (by decide)).trans rfl
/-- Argument 6 reaches the end as launched: no host operation writes it, and a region at most reads it. -/
theorem W11_arg6 (c : Dev nD) : W11 m c (Proc.devRef .tc main_arg6) = m ((c : Thread nD τ).loc main_arg6) :=
  (s11 m c main_arg6 (by decide)).trans <| (s10i m c 1 rfl).trans <| (s9 m c main_arg6 (by decide) (by decide)).trans <|
    (s8 m c main_arg6 (by decide)).trans <| (s7 m c main_arg6 (by decide)).trans <| (s6 m c main_arg6 (by decide)).trans <|
    (s5 m c main_arg6 (by decide)).trans <| (s4 m c main_arg6 (by decide)).trans <| (s3 m c main_arg6 (by decide)).trans <|
    (s2 m c main_arg6 (by decide)).trans <| (s1 m c main_arg6 (by decide)).trans rfl
/-- Argument 7 reaches the end as launched: no host operation writes it, and a region at most reads it. -/
theorem W11_arg7 (c : Dev nD) : W11 m c (Proc.devRef .tc main_arg7) = m ((c : Thread nD τ).loc main_arg7) :=
  (s11 m c main_arg7 (by decide)).trans <| (s10 m c main_arg7 (by decide)).trans <| (s9 m c main_arg7 (by decide) (by decide)).trans <|
    (s8 m c main_arg7 (by decide)).trans <| (s7 m c main_arg7 (by decide)).trans <| (s6 m c main_arg7 (by decide)).trans <|
    (s5 m c main_arg7 (by decide)).trans <| (s4 m c main_arg7 (by decide)).trans <| (s3 m c main_arg7 (by decide)).trans <|
    (s2 m c main_arg7 (by decide)).trans <| (s1 m c main_arg7 (by decide)).trans rfl
/-- Argument 8 reaches the end as launched: no host operation writes it, and a region at most reads it. -/
theorem W11_arg8 (c : Dev nD) : W11 m c (Proc.devRef .tc main_arg8) = m ((c : Thread nD τ).loc main_arg8) :=
  (s11 m c main_arg8 (by decide)).trans <| (s10 m c main_arg8 (by decide)).trans <| (s9 m c main_arg8 (by decide) (by decide)).trans <|
    (s8 m c main_arg8 (by decide)).trans <| (s7 m c main_arg8 (by decide)).trans <| (s6 m c main_arg8 (by decide)).trans <|
    (s5 m c main_arg8 (by decide)).trans <| (s4 m c main_arg8 (by decide)).trans <| (s3 m c main_arg8 (by decide)).trans <|
    (s2 m c main_arg8 (by decide)).trans <| (s1 m c main_arg8 (by decide)).trans rfl
/-- Argument 9 reaches the end as launched: no host operation writes it, and a region at most reads it. -/
theorem W11_arg9 (c : Dev nD) : W11 m c (Proc.devRef .tc main_arg9) = m ((c : Thread nD τ).loc main_arg9) :=
  (s11 m c main_arg9 (by decide)).trans <| (s10 m c main_arg9 (by decide)).trans <| (s9 m c main_arg9 (by decide) (by decide)).trans <|
    (s8 m c main_arg9 (by decide)).trans <| (s7 m c main_arg9 (by decide)).trans <| (s6 m c main_arg9 (by decide)).trans <|
    (s5 m c main_arg9 (by decide)).trans <| (s4 m c main_arg9 (by decide)).trans <| (s3 m c main_arg9 (by decide)).trans <|
    (s2 m c main_arg9 (by decide)).trans <| (s1 m c main_arg9 (by decide)).trans rfl
/-- Argument 10 reaches the end as launched: no host operation writes it, and a region at most reads it. -/
theorem W11_arg10 (c : Dev nD) : W11 m c (Proc.devRef .tc main_arg10) = m ((c : Thread nD τ).loc main_arg10) :=
  (s11 m c main_arg10 (by decide)).trans <| (s10 m c main_arg10 (by decide)).trans <| (s9 m c main_arg10 (by decide) (by decide)).trans <|
    (s8 m c main_arg10 (by decide)).trans <| (s7 m c main_arg10 (by decide)).trans <| (s6 m c main_arg10 (by decide)).trans <|
    (s5 m c main_arg10 (by decide)).trans <| (s4 m c main_arg10 (by decide)).trans <| (s3 m c main_arg10 (by decide)).trans <|
    (s2 m c main_arg10 (by decide)).trans <| (s1 m c main_arg10 (by decide)).trans rfl
/-- Argument 11 reaches the end as launched: no host operation writes it, and a region at most reads it. -/
theorem W11_arg11 (c : Dev nD) : W11 m c (Proc.devRef .tc main_arg11) = m ((c : Thread nD τ).loc main_arg11) :=
  (s11 m c main_arg11 (by decide)).trans <| (s10 m c main_arg11 (by decide)).trans <| (s9 m c main_arg11 (by decide) (by decide)).trans <|
    (s8 m c main_arg11 (by decide)).trans <| (s7 m c main_arg11 (by decide)).trans <| (s6 m c main_arg11 (by decide)).trans <|
    (s5 m c main_arg11 (by decide)).trans <| (s4 m c main_arg11 (by decide)).trans <| (s3 m c main_arg11 (by decide)).trans <|
    (s2 m c main_arg11 (by decide)).trans <| (s1 m c main_arg11 (by decide)).trans rfl
/-- Argument 12 reaches the end as launched: no host operation writes it, and a region at most reads it. -/
theorem W11_arg12 (c : Dev nD) : W11 m c (Proc.devRef .tc main_arg12) = m ((c : Thread nD τ).loc main_arg12) :=
  (s11 m c main_arg12 (by decide)).trans <| (s10 m c main_arg12 (by decide)).trans <| (s9 m c main_arg12 (by decide) (by decide)).trans <|
    (s8 m c main_arg12 (by decide)).trans <| (s7 m c main_arg12 (by decide)).trans <| (s6 m c main_arg12 (by decide)).trans <|
    (s5 m c main_arg12 (by decide)).trans <| (s4 m c main_arg12 (by decide)).trans <| (s3 m c main_arg12 (by decide)).trans <|
    (s2 m c main_arg12 (by decide)).trans <| (s1 m c main_arg12 (by decide)).trans rfl
/-- Argument 13 reaches the end as launched: no host operation writes it, and a region at most reads it. -/
theorem W11_arg13 (c : Dev nD) : W11 m c (Proc.devRef .tc main_arg13) = m ((c : Thread nD τ).loc main_arg13) :=
  (s11 m c main_arg13 (by decide)).trans <| (s10 m c main_arg13 (by decide)).trans <| (s9 m c main_arg13 (by decide) (by decide)).trans <|
    (s8 m c main_arg13 (by decide)).trans <| (s7 m c main_arg13 (by decide)).trans <| (s6 m c main_arg13 (by decide)).trans <|
    (s5 m c main_arg13 (by decide)).trans <| (s4 m c main_arg13 (by decide)).trans <| (s3 m c main_arg13 (by decide)).trans <|
    (s2 m c main_arg13 (by decide)).trans <| (s1 m c main_arg13 (by decide)).trans rfl
/-- Argument 14 reaches the end as launched: no host operation writes it, and a region at most reads it. -/
theorem W11_arg14 (c : Dev nD) : W11 m c (Proc.devRef .tc main_arg14) = m ((c : Thread nD τ).loc main_arg14) :=
  (s11 m c main_arg14 (by decide)).trans <| (s10 m c main_arg14 (by decide)).trans <| (s9 m c main_arg14 (by decide) (by decide)).trans <|
    (s8 m c main_arg14 (by decide)).trans <| (s7 m c main_arg14 (by decide)).trans <| (s6 m c main_arg14 (by decide)).trans <|
    (s5 m c main_arg14 (by decide)).trans <| (s4 m c main_arg14 (by decide)).trans <| (s3 m c main_arg14 (by decide)).trans <|
    (s2 m c main_arg14 (by decide)).trans <| (s1 m c main_arg14 (by decide)).trans rfl
/-- Argument 15 reaches the end as launched: no host operation writes it, and a region at most reads it. -/
theorem W11_arg15 (c : Dev nD) : W11 m c (Proc.devRef .tc main_arg15) = m ((c : Thread nD τ).loc main_arg15) :=
  (s11 m c main_arg15 (by decide)).trans <| (s10 m c main_arg15 (by decide)).trans <| (s9 m c main_arg15 (by decide) (by decide)).trans <|
    (s8 m c main_arg15 (by decide)).trans <| (s7 m c main_arg15 (by decide)).trans <| (s6 m c main_arg15 (by decide)).trans <|
    (s5 m c main_arg15 (by decide)).trans <| (s4 m c main_arg15 (by decide)).trans <| (s3 m c main_arg15 (by decide)).trans <|
    (s2 m c main_arg15 (by decide)).trans <| (s1 m c main_arg15 (by decide)).trans rfl

/-- An unscoped reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, with the result named: every weakly fair execution terminates without a fault; the result array ends at
    the last boundary's contents and every argument array as launched. -/
theorem run_result : θ_run defs (onTc (τ := τ) (main (F := F))) ⟨m, fun _ => 0, ρ⟩ (fun r => ∀ c : Dev nD,
      r.2.mem ((c.tc : Thread nD τ).loc main_v86) = W11 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v86 (by decide)),
      (h c _ (mem_uc main_arg0 (by decide))).trans (W11_arg0 m c),
      (h c _ (mem_uc main_arg1 (by decide))).trans (W11_arg1 m c),
      (h c _ (mem_uc main_arg2 (by decide))).trans (W11_arg2 m c),
      (h c _ (mem_uc main_arg3 (by decide))).trans (W11_arg3 m c),
      (h c _ (mem_uc main_arg4 (by decide))).trans (W11_arg4 m c),
      (h c _ (mem_uc main_arg5 (by decide))).trans (W11_arg5 m c),
      (h c _ (mem_uc main_arg6 (by decide))).trans (W11_arg6 m c),
      (h c _ (mem_uc main_arg7 (by decide))).trans (W11_arg7 m c),
      (h c _ (mem_uc main_arg8 (by decide))).trans (W11_arg8 m c),
      (h c _ (mem_uc main_arg9 (by decide))).trans (W11_arg9 m c),
      (h c _ (mem_uc main_arg10 (by decide))).trans (W11_arg10 m c),
      (h c _ (mem_uc main_arg11 (by decide))).trans (W11_arg11 m c),
      (h c _ (mem_uc main_arg12 (by decide))).trans (W11_arg12 m c),
      (h c _ (mem_uc main_arg13 (by decide))).trans (W11_arg13 m c),
      (h c _ (mem_uc main_arg14 (by decide))).trans (W11_arg14 m c),
      (h c _ (mem_uc main_arg15 (by decide))).trans (W11_arg15 m c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_result m ρ)

end Cert.KernelIdeal.Hand

end
-- ==== Proof.Glue.lean ====
/- The host-side functions the kernel program and the reference share.

   Both programs build the graph's edge lists and edge weights, and pass messages along the edges, with the same host
   operations. Each such array is named here as a function of the arrays it reads: the body is the composed term of the
   operations, in their order, for any float values. -/
import proofs.«122691_j4398046511761_1_alg».proof.ReferenceIdeal

noncomputable section

namespace Cert.Bridge

open Idealize.ShloMosaic
open Cert.ReferenceIdeal Cert.ReferenceIdeal.Facts₀

variable {F : FTy → Type} [FloatOps F] [Cert.ReferenceIdeal.Facts₀]

/-- The sources of the edges: row 0 of the edge table (a slice, read as a vector), then every node once — its self loop. -/
def srcOf (ei : (⟨S2x800000, .i32⟩ : BufTy).Contents (Elt F)) : (⟨S850000, .i32⟩ : BufTy).Contents (Elt F) :=
  concatenate S850000 0
    [⟨S800000, fun i => shapeCast S800000 (extractStridedSlice S1x800000 ![0, 0] ei slices_S2x800000_S1x800000_0_0) shapeCasts_S1x800000_S800000 i⟩,
     ⟨S50000, iotaInDim S50000 32 0⟩] concatenates_S800000_S50000_S850000_d0

/-- The targets of the edges: row 1 of the edge table, then every node once. -/
def dstOf (ei : (⟨S2x800000, .i32⟩ : BufTy).Contents (Elt F)) : (⟨S850000, .i32⟩ : BufTy).Contents (Elt F) :=
  concatenate S850000 0
    [⟨S800000, fun i => shapeCast S800000 (extractStridedSlice S1x800000 ![1, 0] ei slices_S2x800000_S1x800000_1_0) shapeCasts_S1x800000_S800000 i⟩,
     ⟨S50000, iotaInDim S50000 32 0⟩] concatenates_S800000_S50000_S850000_d0

/-- An index vector made non-negative (a negative index counts from the end: 50000 is added to it), as a column. -/
def nidxOf (i : (⟨S850000, .i32⟩ : BufTy).Contents (Elt F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- The degree of every node: a one summed into it per edge that targets it. -/
def degOf (dst : (⟨S850000, .i32⟩ : BufTy).Contents (Elt F)) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- The reciprocal square root of the degree where it is positive, zero elsewhere. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))

/-- The weight of every edge, from the edge lists: the product of that vector at the edge's source and at its target. -/
def normOf (src dst : (⟨S850000, .i32⟩ : BufTy).Contents (Elt F)) : FVec F S850000 .f32 :=
  mulf (Host.gather gather_S50000_S850000x1_S850000_n_0_n_n_0_1_1 (dinvOf (degOf dst)) (nidxOf src))
    (Host.gather gather_S50000_S850000x1_S850000_n_0_n_n_0_1_1 (dinvOf (degOf dst)) (nidxOf dst))

/-- One round of message passing: the rows of `h` at the edges' sources, each scaled by its edge's weight, summed into
    the targets' rows of a zero array. -/
def propagate (src dst : (⟨S850000, .i32⟩ : BufTy).Contents (Elt F)) (norm : FVec F S850000 .f32) (h : FVec F S50000x256 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 dst)
    (mulf (Host.gather gather_S50000x256_S850000x1_S850000x256_1_0_n_n_0_1_1256 h (nidxOf src))
      (broadcastInDim S850000x256 ![0, 1] bcast_S850000x1_S850000x256_0_1
        (broadcastInDim S850000x1 ![0] bcast_S850000_S850000x1_0 norm)))

/-- A bias of 256 entries added to every row. -/
def addRow (agg : FVec F S50000x256 .f32) (b : FVec F S256 .f32) : FVec F S50000x256 .f32 :=
  addf agg (broadcastInDim S50000x256 ![0, 1] bcast_S1x256_S50000x256_0_1 (broadcastInDim S1x256 ![1] bcast_S256_S1x256_1 b))

/-- The first layer's dense product. -/
def dot512 (x : FVec F S50000x512 .f32) (w : FVec F S512x256 .f32) : FVec F S50000x256 .f32 :=
  Host.dotGeneral dot_S50000x512_S512x256_S50000x256_1_0_0_1_n_n none x w

/-- The second and third layers' dense product. -/
def dot256 (x : FVec F S50000x256 .f32) (w : FVec F S256x256 .f32) : FVec F S50000x256 .f32 :=
  Host.dotGeneral dot_S50000x256_S256x256_S50000x256_1_0_0_1_n_n none x w

end Cert.Bridge

end
-- ==== Proof.KI.Stretch.lean ====
/-
  What the kernel program's stretches of host operations compute, read as values: the edge lists with self loops, the
  edge weights, each round of message passing (a row gather, a scaling by the edge weight, a scatter-add into zeros),
  the parameter rows reshaped to [1, 256], and the final bias — each as a function of the buffers the stretch reads,
  for any contents of the buffers before it. The functions are the ones the reference's host operations define.
-/
import proofs.«122691_j4398046511761_1_alg».proof.Proof.Gen.KernelIdeal.Launch
import proofs.«122691_j4398046511761_1_alg».proof.Proof.Glue
import Idealize.ShloMosaic.Lib.StableHlo.Run

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.StableHlo
open Cert.Bridge

variable {F : FTy → Type} [FloatOps F] [Cert.ReferenceIdeal.Facts₀]
variable (W : Valuation τ sig (Elt F))

/-- The two programs name the same gather and scatter dimension records. -/
theorem scatter1_eq : Cert.KernelIdeal.scatter_S50000_S850000x1_S850000_n_0_0_1 = Cert.ReferenceIdeal.scatter_S50000_S850000x1_S850000_n_0_0_1 := rfl
theorem gather1_eq : Cert.KernelIdeal.gather_S50000_S850000x1_S850000_n_0_n_n_0_1_1 = Cert.ReferenceIdeal.gather_S50000_S850000x1_S850000_n_0_n_n_0_1_1 := rfl
theorem scatter2_eq : Cert.KernelIdeal.scatter_S50000x256_S850000x1_S850000x256_1_0_0_1 = Cert.ReferenceIdeal.scatter_S50000x256_S850000x1_S850000x256_1_0_0_1 := rfl
theorem gather2_eq : Cert.KernelIdeal.gather_S50000x256_S850000x1_S850000x256_1_0_n_n_0_1_1256 = Cert.ReferenceIdeal.gather_S50000x256_S850000x1_S850000x256_1_0_n_n_0_1_1256 := rfl

/-- The edges' sources and targets, from the edge table. -/
theorem src_eq : (after hostOps0 W (Proc.devRef .tc main_v3) : (⟨S850000, .i32⟩ : BufTy).Contents (Elt F)) = srcOf (W (Proc.devRef .tc main_arg1)) := by
  after_results; unfold srcOf; rfl
theorem dst_eq : (after hostOps0 W (Proc.devRef .tc main_v6) : (⟨S850000, .i32⟩ : BufTy).Contents (Elt F)) = dstOf (W (Proc.devRef .tc main_arg1)) := by
  after_results; unfold dstOf; rfl

/-- The degrees' comparison with zero, their reciprocal square roots, and the zero the selection falls back to. -/
theorem pos_eq : (after hostOps0 W (Proc.devRef .tc main_v12) : (⟨S50000, .i1⟩ : BufTy).Contents (Elt F))
    = cmpf .ogt (degOf (F := F) (dstOf (W (Proc.devRef .tc main_arg1)))) (broadcastInDim S50000 ![] bcast_S_S50000 (constant S_ .f32 0x00000000#32)) := by
  after_results; rw [scatter1_eq]; unfold degOf dstOf; rfl
theorem rsq_eq : (after hostOps0 W (Proc.devRef .tc main_v13) : FVec F S50000 .f32)
    = Host.rsqrt (degOf (F := F) (dstOf (W (Proc.devRef .tc main_arg1)))) := by
  after_results; rw [scatter1_eq]; unfold degOf dstOf; rfl
theorem zero_eq : (after hostOps0 W (Proc.devRef .tc main_cst_2) : FVec F S_ .f32) = constant S_ .f32 0x00000000#32 := by
  after_results

/-- The selection between them, in the second stretch. -/
theorem dinv_eq : (after hostOps0_1 W (Proc.devRef .tc main_v14) : FVec F S50000 .f32)
    = select (W (Proc.devRef .tc main_v12) : (⟨S50000, .i1⟩ : BufTy).Contents (Elt F)) (W (Proc.devRef .tc main_v13) : FVec F S50000 .f32)
        (broadcastInDim S50000 ![] bcast_S_S50000 (id (W (Proc.devRef .tc main_cst_2) : FVec F S_ .f32))) := by
  after_results; rfl

/-- The edge weights, in the third stretch, from the selected vector and the edge lists. -/
theorem norm_step : (after hostOps0_2 W (Proc.devRef .tc main_v29) : FVec F S850000 .f32)
    = mulf (Host.gather Cert.ReferenceIdeal.gather_S50000_S850000x1_S850000_n_0_n_n_0_1_1 (W (Proc.devRef .tc main_v14) : FVec F S50000 .f32) (nidxOf (W (Proc.devRef .tc main_v3))))
        (Host.gather Cert.ReferenceIdeal.gather_S50000_S850000x1_S850000_n_0_n_n_0_1_1 (W (Proc.devRef .tc main_v14) : FVec F S50000 .f32) (nidxOf (W (Proc.devRef .tc main_v6)))) := by
  after_results; rw [gather1_eq]; unfold nidxOf; rfl

/-- A round of message passing in the stretch before the first pointwise region, and the five parameter rows. -/
theorem agg0_eq : (after hostOps1 W (Proc.devRef .tc main_v43) : FVec F S50000x256 .f32)
    = propagate (W (Proc.devRef .tc main_v3)) (W (Proc.devRef .tc main_v6)) (W (Proc.devRef .tc main_v29)) (W (Proc.devRef .tc main_v30)) := by
  after_results; rw [scatter2_eq, gather2_eq]; unfold propagate nidxOf; rfl
theorem row44_eq : (after hostOps1 W (Proc.devRef .tc main_v44) : FVec F S1x256 .f32) = shapeCast S1x256 (W (Proc.devRef .tc main_arg3) : FVec F S256 .f32) shapeCasts_S256_S1x256 := by
  after_results; rfl
theorem row45_eq : (after hostOps1 W (Proc.devRef .tc main_v45) : FVec F S1x256 .f32) = shapeCast S1x256 (W (Proc.devRef .tc main_arg8) : FVec F S256 .f32) shapeCasts_S256_S1x256 := by
  after_results; rfl
theorem row46_eq : (after hostOps1 W (Proc.devRef .tc main_v46) : FVec F S1x256 .f32) = shapeCast S1x256 (W (Proc.devRef .tc main_arg9) : FVec F S256 .f32) shapeCasts_S256_S1x256 := by
  after_results; rfl
theorem row47_eq : (after hostOps1 W (Proc.devRef .tc main_v47) : FVec F S1x256 .f32) = shapeCast S1x256 (W (Proc.devRef .tc main_arg10) : FVec F S256 .f32) shapeCasts_S256_S1x256 := by
  after_results; rfl
theorem row48_eq : (after hostOps1 W (Proc.devRef .tc main_v48) : FVec F S1x256 .f32) = shapeCast S1x256 (W (Proc.devRef .tc main_arg11) : FVec F S256 .f32) shapeCasts_S256_S1x256 := by
  after_results; rfl

/-- The same before the second pointwise region. -/
theorem agg1_eq : (after hostOps3 W (Proc.devRef .tc main_v63) : FVec F S50000x256 .f32)
    = propagate (W (Proc.devRef .tc main_v3)) (W (Proc.devRef .tc main_v6)) (W (Proc.devRef .tc main_v29)) (W (Proc.devRef .tc main_v50)) := by
  after_results; rw [scatter2_eq, gather2_eq]; unfold propagate nidxOf; rfl
theorem row64_eq : (after hostOps3 W (Proc.devRef .tc main_v64) : FVec F S1x256 .f32) = shapeCast S1x256 (W (Proc.devRef .tc main_arg5) : FVec F S256 .f32) shapeCasts_S256_S1x256 := by
  after_results; rfl
theorem row65_eq : (after hostOps3 W (Proc.devRef .tc main_v65) : FVec F S1x256 .f32) = shapeCast S1x256 (W (Proc.devRef .tc main_arg12) : FVec F S256 .f32) shapeCasts_S256_S1x256 := by
  after_results; rfl
theorem row66_eq : (after hostOps3 W (Proc.devRef .tc main_v66) : FVec F S1x256 .f32) = shapeCast S1x256 (W (Proc.devRef .tc main_arg13) : FVec F S256 .f32) shapeCasts_S256_S1x256 := by
  after_results; rfl
theorem row67_eq : (after hostOps3 W (Proc.devRef .tc main_v67) : FVec F S1x256 .f32) = shapeCast S1x256 (W (Proc.devRef .tc main_arg14) : FVec F S256 .f32) shapeCasts_S256_S1x256 := by
  after_results; rfl
theorem row68_eq : (after hostOps3 W (Proc.devRef .tc main_v68) : FVec F S1x256 .f32) = shapeCast S1x256 (W (Proc.devRef .tc main_arg15) : FVec F S256 .f32) shapeCasts_S256_S1x256 := by
  after_results; rfl

/-- The last round of message passing and the final bias. -/
theorem out_eq : (after hostOps5 W (Proc.devRef .tc main_v86) : FVec F S50000x256 .f32)
    = addRow (propagate (W (Proc.devRef .tc main_v3)) (W (Proc.devRef .tc main_v6)) (W (Proc.devRef .tc main_v29)) (W (Proc.devRef .tc main_v70))) (W (Proc.devRef .tc main_arg7)) := by
  after_results; rw [scatter2_eq, gather2_eq]; unfold addRow propagate nidxOf; rfl

end Cert.KernelIdeal.Hand

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.MatmulValue.lean ====
/-
  The matrix products of the two programs, read at one entry, on the extended reals.

  Each of the three row-block kernels rounds its two operands to bf16 (the identity on the extended reals), and
  accumulates their product into an all-zero block; the reference takes the host's product of the whole arrays.
  Either way entry (p, q) of the result is
      sum over k of  x (p, k) * w (k, q),
  the sum running over the contracted axis (512 for the first layer, 256 for the other two).
-/
import proofs.«122691_j4398046511761_1_alg».proof.Proof.Gen.KernelIdeal.Skeleton
import proofs.«122691_j4398046511761_1_alg».proof.ReferenceIdeal
import proofs.«122691_j4398046511761_1_alg».proof.Proof.LibPlainDot
import Idealize.ShloMosaic.Lib.Pipeline.Value

noncomputable section

namespace Cert.Bridge

open Idealize.ShloMosaic Idealize.ShloMosaic.ValueIdx

/-! ## The kernels' products -/

/-- The first layer's block product: a [2000, 512] block by the [512, 256] weight. -/
theorem k0_pay1_apply (x0 : Vec Ideal Cert.KernelIdeal.S2000x512 .f32) (w0 : Vec Ideal Cert.KernelIdeal.S512x256 .f32)
    (p : Fin 2000) (q : Fin 256) :
    Cert.KernelIdeal.Gen.k0_pay1 (F := Ideal) x0 w0 (ix2 p q) = ∑ k : Fin 512, x0 (ix2 p k) * w0 (ix2 k q) := by
  unfold Cert.KernelIdeal.Gen.k0_pay1
  exact PlainDot.matmul_zero_apply Cert.KernelIdeal.dot_S2000x512_S512x256_S2000x256_1_0_0_1_n_n
    rfl rfl rfl rfl rfl rfl rfl rfl none
    (truncf .bf16 x0 _) (truncf .bf16 w0 _) p q

/-- The second layer's block product: a [2000, 256] block by the [256, 256] weight. -/
theorem k2_pay1_apply (x0 : Vec Ideal Cert.KernelIdeal.S2000x256 .f32) (w0 : Vec Ideal Cert.KernelIdeal.S256x256 .f32)
    (p : Fin 2000) (q : Fin 256) :
    Cert.KernelIdeal.Gen.k2_pay1 (F := Ideal) x0 w0 (ix2 p q) = ∑ k : Fin 256, x0 (ix2 p k) * w0 (ix2 k q) := by
  unfold Cert.KernelIdeal.Gen.k2_pay1
  rw [shapeCast_self]
  exact PlainDot.matmul_zero_apply Cert.KernelIdeal.dot_S2000x256_S256x256_S2000x256_1_0_0_1_n_n
    rfl rfl rfl rfl rfl rfl rfl rfl none
    (truncf .bf16 x0 _) (truncf .bf16 w0 _) p q

/-- The third layer's block product: the same shapes as the second's. -/
theorem k4_pay1_apply (x0 : Vec Ideal Cert.KernelIdeal.S2000x256 .f32) (w0 : Vec Ideal Cert.KernelIdeal.S256x256 .f32)
    (p : Fin 2000) (q : Fin 256) :
    Cert.KernelIdeal.Gen.k4_pay1 (F := Ideal) x0 w0 (ix2 p q) = ∑ k : Fin 256, x0 (ix2 p k) * w0 (ix2 k q) := by
  unfold Cert.KernelIdeal.Gen.k4_pay1
  rw [shapeCast_self]
  exact PlainDot.matmul_zero_apply Cert.KernelIdeal.dot_S2000x256_S256x256_S2000x256_1_0_0_1_n_n
    rfl rfl rfl rfl rfl rfl rfl rfl none
    (truncf .bf16 x0 _) (truncf .bf16 w0 _) p q

/-! ## The reference's products -/

variable [Cert.ReferenceIdeal.Facts₀]

/-- The reference's first product: the whole [50000, 512] input by the [512, 256] weight. -/
theorem ref_dot512_apply (x : FVec Ideal Cert.ReferenceIdeal.S50000x512 .f32) (w : FVec Ideal Cert.ReferenceIdeal.S512x256 .f32)
    (i : Fin 50000) (q : Fin 256) :
    Host.dotGeneral (F := Ideal) Cert.ReferenceIdeal.dot_S50000x512_S512x256_S50000x256_1_0_0_1_n_n none x w (ix2 i q)
      = ∑ k : Fin 512, x (ix2 i k) * w (ix2 k q) :=
  PlainDot.dotGeneral_apply Cert.ReferenceIdeal.dot_S50000x512_S512x256_S50000x256_1_0_0_1_n_n
    rfl rfl rfl rfl rfl rfl rfl rfl none .single x w i q

/-- The reference's second and third products: a whole [50000, 256] array by a [256, 256] weight. -/
theorem ref_dot256_apply (x : FVec Ideal Cert.ReferenceIdeal.S50000x256 .f32) (w : FVec Ideal Cert.ReferenceIdeal.S256x256 .f32)
    (i : Fin 50000) (q : Fin 256) :
    Host.dotGeneral (F := Ideal) Cert.ReferenceIdeal.dot_S50000x256_S256x256_S50000x256_1_0_0_1_n_n none x w (ix2 i q)
      = ∑ k : Fin 256, x (ix2 i k) * w (ix2 k q) :=
  PlainDot.dotGeneral_apply Cert.ReferenceIdeal.dot_S50000x256_S256x256_S50000x256_1_0_0_1_n_n
    rfl rfl rfl rfl rfl rfl rfl rfl none .single x w i q

end Cert.Bridge

end
-- ==== Proof.MmRows.lean ====
/-
  The products of the three layers as functions of whole arrays, entry by entry, on the extended reals:
  entry (r, q) of a [50000, K] array times a [K, 256] matrix is the sum over k < K of x (r, k) * w (k, q).
-/
import proofs.«122691_j4398046511761_1_alg».proof.KernelIdeal
import Idealize.ShloMosaic.Lib.ValueIdx

noncomputable section

namespace Cert.Bridge

open Cert.KernelIdeal
open Idealize.ShloMosaic Idealize.ShloMosaic.ValueIdx

/-- The product of a [50000, 512] array with a [512, 256] matrix, entry by entry. -/
def mmRows512 (x : S50000x512.Idx → EReal) (w : S512x256.Idx → EReal) : S50000x256.Idx → EReal :=
  fun j => ∑ k : Fin 512, x (ix2 (j 0) k) * w (ix2 k (j 1))

theorem mmRows512_apply (x : S50000x512.Idx → EReal) (w : S512x256.Idx → EReal) (r : Fin 50000) (q : Fin 256) :
    mmRows512 x w (ix2 r q) = ∑ k : Fin 512, x (ix2 r k) * w (ix2 k q) := rfl

/-- The product of a [50000, 256] array with a [256, 256] matrix, entry by entry. -/
def mmRows256 (x : S50000x256.Idx → EReal) (w : S256x256.Idx → EReal) : S50000x256.Idx → EReal :=
  fun j => ∑ k : Fin 256, x (ix2 (j 0) k) * w (ix2 k (j 1))

theorem mmRows256_apply (x : S50000x256.Idx → EReal) (w : S256x256.Idx → EReal) (r : Fin 50000) (q : Fin 256) :
    mmRows256 x w (ix2 r q) = ∑ k : Fin 256, x (ix2 r k) * w (ix2 k q) := rfl

/-- The zero offsets of a whole-buffer access. -/
theorem hz2 : (![0, 0] : Fin 2 → Nat) = fun _ => 0 := funext fun a => by fin_cases a <;> rfl

end Cert.Bridge

end
-- ==== Proof.KIFinal0.lean ====
/-
  The first product region, from blocks to the array, on the extended reals.

  The region runs over 25 points; point t reads rows 2000 t … 2000 t + 1999 of the [50000, 512] features and the whole
  [512, 256] weight, and writes rows 2000 t … 2000 t + 1999 of the [50000, 256] result. The block a point writes back is
  that block of one function of the two arrays, entry (r, q) being the sum over k of x (r, k) * w (k, q); the 25 blocks
  tile the result (row r lies in the block of point r / 2000), so after the region the result array is that function.
-/
import proofs.«122691_j4398046511761_1_alg».proof.Proof.KI.Region0
import proofs.«122691_j4398046511761_1_alg».proof.Proof.MatmulValue
import proofs.«122691_j4398046511761_1_alg».proof.Proof.MmRows
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the feature and result windows sit at row block t, the weight window at the
    whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t, entry (p, k), is the features' entry (2000 t + p, k). -/
theorem iblk0_0_apply (c : Dev nD) (t : Fin cfg0.N) (p : Fin 2000) (k : Fin 512) (r : Fin 50000)
    (hr : r.val = 2000 * t.val + p.val) :
    (iblk0 V c 0 t : S2000x512.Idx → EReal) (ix2 p k) = (V c main_arg0 : S50000x512.Idx → EReal) (ix2 r k) := by
  obtain ⟨e0, e1, -⟩ := idx_facts0 t
  unfold iblk0
  rw [View.read_apply]
  show (V c main_arg0 : S50000x512.Idx → EReal) _ = _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weight block at any point is the whole weight matrix. -/
theorem iblk0_1_apply (c : Dev nD) (t : Fin cfg0.N) (k : Fin 512) (q : Fin 256) :
    (iblk0 V c 1 t : S512x256.Idx → EReal) (ix2 k q) = (V c main_arg2 : S512x256.Idx → EReal) (ix2 k q) := by
  obtain ⟨-, -, e0, e1, -⟩ := idx_facts0 t
  unfold iblk0
  rw [View.read_apply]
  show (V c main_arg2 : S512x256.Idx → EReal) _ = _
  congr 1
  funext a
  apply Fin.ext
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- What point t writes back is block t of the product of the two arrays as the region finds them. -/
theorem flushed0_eq (c : Dev nD) (t : Fin cfg0.N) :
    (dat0 V c).flushed 2 t = ((cfg0.win 2).blk t).view.read (Elt Ideal) (mmRows512 (V c main_arg0) (V c main_arg2)) := by
  obtain ⟨-, -, -, -, e0, e1⟩ := idx_facts0 t
  have ht : t.val < 25 := Nat.lt_of_lt_of_eq t.isLt N_0
  show (cfg0.win 2).cut (grid0.coords t) ((dat0 V c).after 2 t) = _
  rw [after0_2]
  unfold out0_2
  rw [View.canon_unit_zero hz2]
  simp only [View.ld_unit_zero (S := S2000x512) hz2, View.ld_unit_zero (S := S512x256) hz2]
  funext j
  obtain ⟨p, q, rfl⟩ : ∃ (p : Fin 2000) (q : Fin 256), j = ix2 p q := ⟨j 0, j 1, eq_ix2 j⟩
  have hemb : ((cfg0.win 2).blk t).view.emb (ix2 p q) = ix2 (⟨2000 * t.val + p.val, by omega⟩ : Fin 50000) q := by
    funext a
    apply Fin.ext
    match a with
    | ⟨0, _⟩ => show win0_2.index t (0 : Fin 2) * 2000 + 1 * p.val = 2000 * t.val + p.val; rw [e0]; omega
    | ⟨1, _⟩ => show win0_2.index t (1 : Fin 2) * 256 + 1 * q.val = q.val; rw [e1]; omega
  show k0_pay1 (F := Ideal) (iblk0 V c 0 t) (iblk0 V c 1 t) (ix2 p q)
    = mmRows512 (V c main_arg0) (V c main_arg2) (((cfg0.win 2).blk t).view.emb (ix2 p q))
  rw [hemb, mmRows512_apply, k0_pay1_apply]
  refine Finset.sum_congr rfl fun k _ => ?_
  rw [iblk0_0_apply V c t p k ⟨2000 * t.val + p.val, by omega⟩ rfl, iblk0_1_apply V c t k q]

/-- An index of the result is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- Row r of the result lies in the block of point r / 2000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e0]; show (i 0).val / 2000 * 2000 ≤ (i 0).val ∧ (i 0).val < (i 0).val / 2000 * 2000 + 2000; omega
  | ⟨1, _⟩ =>
    show win0_2.index t (1 : Fin 2) * 256 ≤ (i 1).val ∧ (i 1).val < win0_2.index t (1 : Fin 2) * 256 + 256
    rw [e1]; omega

/-- After the region the result array is the product of the features and the weight, as the region finds them. -/
theorem final0 (c : Dev nD) :
    (dat0 (F := Ideal) V c).arrAt 2 cfg0.N = mmRows512 (V c main_arg0) (V c main_arg2) :=
  (dat0 V c).arrAt_eq_of_cover 2 (mmRows512 (V c main_arg0) (V c main_arg2)) (fun t _ => flushed0_eq V c t) cover0

end Cert.Bridge

end
-- ==== Proof.BnValue.lean ====
/-
  The normalisation-and-activation kernels, read at one entry, on the extended reals.

  With a the aggregated entry, b the bias, rm and rv the running mean and variance, g and bt the scale and shift of
  one feature column, the second kernel computes
      y = (a + b - rm) * rsqrt (rv + eps) * g + bt,      then   y if y > 0, else y * slope,
  and the fourth the same with the residual entry h added right after the bias, (a + b + h - rm) ...; its second
  result adds the previous sum of layer outputs in front. The reciprocal square root is the extended reals' one
  (it decides the values at 0, at the infinities and below 0), and the two float literals eps and slope stay the
  words the programs print: nothing here depends on their values.

  The reference writes the activation as  y if y >= 0, else slope * y.  On the extended reals the two agree
  everywhere: above 0 both return y, at 0 both return 0, below 0 the products differ only in the order of the factors.
-/
import proofs.«122691_j4398046511761_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.Bridge

open Idealize.ShloMosaic Idealize.ShloMosaic.ValueIdx

/-! ## The specification, entry by entry -/

/-- The activation as the kernels compute it: y where y > 0, else y * slope. -/
def lrelu (y : EReal) : EReal :=
  Scalar.select (Ideal.cmp .ogt y (Ideal.ofBits .f32 0x00000000#32)) y (y * Ideal.ofBits .f32 0x3C23D70A#32)

/-- Bias, normalisation by the running statistics, scale and shift, activation. -/
def bnAct (a b rm rv g bt : EReal) : EReal :=
  lrelu ((a + b - rm) * Ideal.rsqrt (rv + Ideal.ofBits .f32 0x3727C5AC#32) * g + bt)

/-- The same with the residual entry h added after the bias. -/
def bnRes (a b h rm rv g bt : EReal) : EReal :=
  lrelu ((a + b + h - rm) * Ideal.rsqrt (rv + Ideal.ofBits .f32 0x3727C5AC#32) * g + bt)

/-- The activation in the reference's form, y where y >= 0, else slope * y, is the same function. -/
theorem lrelu_of_ge (y : EReal) :
    Scalar.select (Ideal.cmp .oge y (Ideal.ofBits .f32 0x00000000#32)) y (Ideal.ofBits .f32 0x3C23D70A#32 * y) = lrelu y := by
  unfold lrelu
  simp only [Scalar.select, Ideal.cmp, Ideal.ofBits_zero_f32]
  rcases lt_trichotomy y 0 with h | h | h
  · have h1 : ¬ (0 ≤ y) := not_le.mpr h
    have h2 : ¬ (0 < y) := not_lt.mpr h.le
    simp [h1, h2, mul_comm]
  · subst h
    simp
  · have h1 : (0 : EReal) ≤ y := h.le
    simp [h1, h]

/-! ## Reading the vector operations at an entry -/

/-- A reciprocal square root at an index is the extended reals' one of the element. -/
theorem rsqrt_apply {s : Shape} {φ : FTy} (a : FVec Ideal s φ) (i : s.Idx) : rsqrt a i = Ideal.rsqrt (a i) := rfl

/-- A [256] parameter reshaped to one row, read at (0, q), is its entry q. -/
theorem param_row_apply {α : Type} (v : Cert.KernelIdeal.S256.Idx → α)
    (h : Cert.KernelIdeal.S256.ShapeCasts Cert.KernelIdeal.S1x256) (q : Fin 256) :
    shapeCast Cert.KernelIdeal.S1x256 v h (ix2 0 q) = v (ix1 q) :=
  shapeCast_a_1a_apply v h 0 q

/-! ## The kernels' payloads -/

/-- The second kernel's block at (p, q). -/
theorem k1_pay1_apply (v0 : Vec Ideal Cert.KernelIdeal.S2000x256 .f32) (v2 v6 v10 v17 v21 : Vec Ideal Cert.KernelIdeal.S1x256 .f32)
    (p : Fin 2000) (q : Fin 256) :
    Cert.KernelIdeal.Gen.k1_pay1 (F := Ideal) v0 v2 v6 v10 v17 v21 (ix2 p q)
      = bnAct (v0 (ix2 p q)) (v2 (ix2 0 q)) (v6 (ix2 0 q)) (v10 (ix2 0 q)) (v17 (ix2 0 q)) (v21 (ix2 0 q)) := by
  unfold Cert.KernelIdeal.Gen.k1_pay1
  simp only [shapeCast_self, select_apply, cmpf_apply, mulf_apply, addf_apply, subf_apply, broadcast_apply,
    broadcastTo_1b_ab_apply, rsqrt_apply]
  rfl

/-- The fourth kernel's first block at (p, q). -/
theorem k3_pay1_apply (v0 : Vec Ideal Cert.KernelIdeal.S2000x256 .f32) (v2 : Vec Ideal Cert.KernelIdeal.S1x256 .f32)
    (v6 : Vec Ideal Cert.KernelIdeal.S2000x256 .f32) (v9 v13 v20 v24 : Vec Ideal Cert.KernelIdeal.S1x256 .f32)
    (p : Fin 2000) (q : Fin 256) :
    Cert.KernelIdeal.Gen.k3_pay1 (F := Ideal) v0 v2 v6 v9 v13 v20 v24 (ix2 p q)
      = bnRes (v0 (ix2 p q)) (v2 (ix2 0 q)) (v6 (ix2 p q)) (v9 (ix2 0 q)) (v13 (ix2 0 q)) (v20 (ix2 0 q)) (v24 (ix2 0 q)) := by
  unfold Cert.KernelIdeal.Gen.k3_pay1
  simp only [shapeCast_self, select_apply, cmpf_apply, mulf_apply, addf_apply, subf_apply, broadcast_apply,
    broadcastTo_1b_ab_apply, rsqrt_apply]
  rfl

/-- The fourth kernel's second block at (p, q): the running sum of layer outputs, plus the first block. -/
theorem k3_pay2_apply (v0 : Vec Ideal Cert.KernelIdeal.S2000x256 .f32) (v2 : Vec Ideal Cert.KernelIdeal.S1x256 .f32)
    (v6 : Vec Ideal Cert.KernelIdeal.S2000x256 .f32) (v9 v13 v20 v24 : Vec Ideal Cert.KernelIdeal.S1x256 .f32)
    (v34 : Vec Ideal Cert.KernelIdeal.S2000x256 .f32) (p : Fin 2000) (q : Fin 256) :
    Cert.KernelIdeal.Gen.k3_pay2 (F := Ideal) v0 v2 v6 v9 v13 v20 v24 v34 (ix2 p q)
      = v34 (ix2 p q)
        + bnRes (v0 (ix2 p q)) (v2 (ix2 0 q)) (v6 (ix2 p q)) (v9 (ix2 0 q)) (v13 (ix2 0 q)) (v20 (ix2 0 q)) (v24 (ix2 0 q)) := by
  unfold Cert.KernelIdeal.Gen.k3_pay2
  rw [shapeCast_self, addf_apply, k3_pay1_apply]

end Cert.Bridge

end
-- ==== Proof.KIFinal1.lean ====
/-
  The first normalisation region, from blocks to the array, on the extended reals.

  The region runs over 25 points; point t reads rows 2000 t … 2000 t + 1999 of the aggregated messages and the five
  [1, 256] parameter rows (bias, scale, shift, running mean, running variance: each window is the whole row at every
  point), and writes rows 2000 t … 2000 t + 1999 of the result. The block a point writes back is that block of one
  function of the six arrays: entry (r, q) is the normalisation and activation of the message entry (r, q) with the
  parameters of column q. The 25 blocks tile the result, so after the region the result array is that function.
-/
import proofs.«122691_j4398046511761_1_alg».proof.Proof.KI.Region1
import proofs.«122691_j4398046511761_1_alg».proof.Proof.BnValue
import proofs.«122691_j4398046511761_1_alg».proof.Proof.MmRows
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- Normalisation and activation of a [50000, 256] array against [1, 256] parameter rows, entry by entry:
    a the array, b the bias, rm and rv the running mean and variance, g and bt the scale and shift. -/
def bnRows (a : S50000x256.Idx → EReal) (b rm rv g bt : S1x256.Idx → EReal) : S50000x256.Idx → EReal :=
  fun j => bnAct (a j) (b (ix2 0 (j 1))) (rm (ix2 0 (j 1))) (rv (ix2 0 (j 1))) (g (ix2 0 (j 1))) (bt (ix2 0 (j 1)))

theorem bnRows_apply (a : S50000x256.Idx → EReal) (b rm rv g bt : S1x256.Idx → EReal) (r : Fin 50000) (q : Fin 256) :
    bnRows a b rm rv g bt (ix2 r q)
      = bnAct (a (ix2 r q)) (b (ix2 0 q)) (rm (ix2 0 q)) (rv (ix2 0 q)) (g (ix2 0 q)) (bt (ix2 0 q)) := rfl

variable (V : (c : Dev nD) → (b : Ref sig .tc) → Buf (Elt Ideal) ((c : Thread nD τ).loc b))

/-- The message window sits at row block t, so its block at point t, entry (p, q), is the array's entry (2000 t + p, q). -/
theorem idx1_0 : ∀ t : Fin cfg1.N, win1_0.index t (0 : Fin 2) = t.val ∧ win1_0.index t (1 : Fin 2) = 0 :=
  (by decide +kernel : ∀ t : Fin grid1.N, _)

theorem iblk1_0_apply (c : Dev nD) (t : Fin cfg1.N) (p : Fin 2000) (q : Fin 256) (r : Fin 50000)
    (hr : r.val = 2000 * t.val + p.val) :
    (iblk1 V c 0 t : S2000x256.Idx → EReal) (ix2 p q) = (V c main_v43 : S50000x256.Idx → EReal) (ix2 r q) := by
  obtain ⟨e0, e1⟩ := idx1_0 t
  unfold iblk1
  rw [View.read_apply]
  show (V c main_v43 : S50000x256.Idx → EReal) _ = _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * q.val = q.val; rw [e1]; omega

/-- The bias row's window sits at the whole row at every point, so its block is the row. -/
theorem idx1_1 : ∀ t : Fin cfg1.N, win1_1.index t (0 : Fin 2) = 0 ∧ win1_1.index t (1 : Fin 2) = 0 :=
  (by decide +kernel : ∀ t : Fin grid1.N, _)

theorem iblk1_1_apply (c : Dev nD) (t : Fin cfg1.N) (q : Fin 256) :
    (iblk1 V c 1 t : S1x256.Idx → EReal) (ix2 0 q) = (V c main_v44 : S1x256.Idx → EReal) (ix2 0 q) := by
  obtain ⟨e0, e1⟩ := idx1_1 t
  unfold iblk1
  rw [View.read_apply]
  show (V c main_v44 : S1x256.Idx → EReal) _ = _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

/-- The scale row's window sits at the whole row at every point, so its block is the row. -/
theorem idx1_2 : ∀ t : Fin cfg1.N, win1_2.index t (0 : Fin 2) = 0 ∧ win1_2.index t (1 : Fin 2) = 0 :=
  (by decide +kernel : ∀ t : Fin grid1.N, _)

theorem iblk1_2_apply (c : Dev nD) (t : Fin cfg1.N) (q : Fin 256) :
    (iblk1 V c 2 t : S1x256.Idx → EReal) (ix2 0 q) = (V c main_v45 : S1x256.Idx → EReal) (ix2 0 q) := by
  obtain ⟨e0, e1⟩ := idx1_2 t
  unfold iblk1
  rw [View.read_apply]
  show (V c main_v45 : S1x256.Idx → EReal) _ = _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- The shift row's window sits at the whole row at every point, so its block is the row. -/
theorem idx1_3 : ∀ t : Fin cfg1.N, win1_3.index t (0 : Fin 2) = 0 ∧ win1_3.index t (1 : Fin 2) = 0 :=
  (by decide +kernel : ∀ t : Fin grid1.N, _)

theorem iblk1_3_apply (c : Dev nD) (t : Fin cfg1.N) (q : Fin 256) :
    (iblk1 V c 3 t : S1x256.Idx → EReal) (ix2 0 q) = (V c main_v46 : S1x256.Idx → EReal) (ix2 0 q) := by
  obtain ⟨e0, e1⟩ := idx1_3 t
  unfold iblk1
  rw [View.read_apply]
  show (V c main_v46 : S1x256.Idx → EReal) _ = _
  congr 1
  funext a
  apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- The running-mean row's window sits at the whole row at every point, so its block is the row. -/
theorem idx1_4 : ∀ t : Fin cfg1.N, win1_4.index t (0 : Fin 2) = 0 ∧ win1_4.index t (1 : Fin 2) = 0 :=
  (by decide +kernel : ∀ t : Fin grid1.N, _)

theorem iblk1_4_apply (c : Dev nD) (t : Fin cfg1.N) (q : Fin 256) :
    (iblk1 V c 4 t : S1x256.Idx → EReal) (ix2 0 q) = (V c main_v47 : S1x256.Idx → EReal) (ix2 0 q) := by
  obtain ⟨e0, e1⟩ := idx1_4 t
  unfold iblk1
  rw [View.read_apply]
  show (V c main_v47 : S1x256.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- The running-variance row's window sits at the whole row at every point, so its block is the row. -/
theorem idx1_5 : ∀ t : Fin cfg1.N, win1_5.index t (0 : Fin 2) = 0 ∧ win1_5.index t (1 : Fin 2) = 0 :=
  (by decide +kernel : ∀ t : Fin grid1.N, _)

theorem iblk1_5_apply (c : Dev nD) (t : Fin cfg1.N) (q : Fin 256) :
    (iblk1 V c 5 t : S1x256.Idx → EReal) (ix2 0 q) = (V c main_v48 : S1x256.Idx → EReal) (ix2 0 q) := by
  obtain ⟨e0, e1⟩ := idx1_5 t
  unfold iblk1
  rw [View.read_apply]
  show (V c main_v48 : S1x256.Idx → EReal) _ = _
  congr 1
  funext a
  apply Fin.ext
  match a with
  | ⟨0, _⟩ => show win1_5.index t (0 : Fin 2) * 1 + 1 * 0 = 0; rw [e0]
  | ⟨1, _⟩ => show win1_5.index t (1 : Fin 2) * 256 + 1 * q.val = q.val; rw [e1]; omega

/-- The result window 6 sits at row block t. -/
theorem idx1_6 : ∀ t : Fin cfg1.N, win1_6.index t (0 : Fin 2) = t.val ∧ win1_6.index t (1 : Fin 2) = 0 :=
  (by decide +kernel : ∀ t : Fin grid1.N, _)

/-- An entry (p, q) of point t's result block sits in the array at (2000 t + p, q). -/
theorem emb1_6 (t : Fin cfg1.N) (p : Fin 2000) (q : Fin 256) (r : Fin 50000) (hr : r.val = 2000 * t.val + p.val) :
    ((cfg1.win 6).blk t).view.emb (ix2 p q) = ix2 r q := by
  obtain ⟨e0, e1⟩ := idx1_6 t
  funext a
  apply Fin.ext
  match a with
  | ⟨0, _⟩ => show win1_6.index t (0 : Fin 2) * 2000 + 1 * p.val = r.val; rw [e0, hr]; omega
  | ⟨1, _⟩ => show win1_6.index t (1 : Fin 2) * 256 + 1 * q.val = q.val; rw [e1]; omega

/-- An index of the result is in point t's block iff each coordinate is in the block's range on its axis. -/
theorem mem_blk1_6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v49).slice (win1_6.rect t)).set ↔ _
  rw [View.set_slice_whole, Rect.mem_set_unit]
  exact Iff.rfl

/-- Row r of the result lies in the block of point r / 2000. -/
theorem cover1_6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e0, e1⟩ := idx1_6 t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    rw [e0]; show (i 0).val / 2000 * 2000 ≤ (i 0).val ∧ (i 0).val < (i 0).val / 2000 * 2000 + 2000; omega
  | ⟨1, _⟩ =>
    show win1_6.index t (1 : Fin 2) * 256 ≤ (i 1).val ∧ (i 1).val < win1_6.index t (1 : Fin 2) * 256 + 256
    rw [e1]; omega

/-- What point t writes back is block t of the normalised and activated array, of the arrays as the region finds them. -/
theorem flushed1_eq (c : Dev nD) (t : Fin cfg1.N) :
    (dat1 V c).flushed 6 t = ((cfg1.win 6).blk t).view.read (Elt Ideal)
      (bnRows (V c main_v43) (V c main_v44) (V c main_v47) (V c main_v48) (V c main_v45) (V c main_v46)) := by
  have ht : t.val < 25 := Nat.lt_of_lt_of_eq t.isLt N_1
  show (cfg1.win 6).cut (grid1.coords t) ((dat1 V c).after 6 t) = _
  rw [after1_6]
  unfold out1_6
  rw [View.canon_unit_zero hz2]
  simp only [View.ld_unit_zero (S := S2000x256) hz2, View.ld_unit_zero (S := S1x256) hz2]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 4 t) (iblk1 V c 5 t) (iblk1 V c 2 t) (iblk1 V c 3 t) (ix2 p q)
    = bnRows (V c main_v43) (V c main_v44) (V c main_v47) (V c main_v48) (V c main_v45) (V c main_v46)
        (((cfg1.win 6).blk t).view.emb (ix2 p q))
  rw [emb1_6 t p q ⟨2000 * t.val + p.val, by omega⟩ rfl, bnRows_apply, k1_pay1_apply,
    iblk1_0_apply V c t p q ⟨2000 * t.val + p.val, by omega⟩ rfl, iblk1_1_apply V c t q, iblk1_2_apply V c t q,
    iblk1_3_apply V c t q, iblk1_4_apply V c t q, iblk1_5_apply V c t q]

/-- After the region the result array is the normalised and activated messages, of the arrays as the region finds them. -/
theorem final1 (c : Dev nD) :
    (dat1 (F := Ideal) V c).arrAt 6 cfg1.N
      = bnRows (V c main_v43) (V c main_v44) (V c main_v47) (V c main_v48) (V c main_v45) (V c main_v46) :=
  (dat1 V c).arrAt_eq_of_cover 6 _ (fun t _ => flushed1_eq V c t) cover1_6

end Cert.Bridge

end
-- ==== Proof.KIFinal2.lean ====
/-
  The second product region, from blocks to the array, on the extended reals.

  The region runs over 25 points; point t reads rows 2000 t … 2000 t + 1999 of a [50000, 256] array of activations and
  the whole [256, 256] weight, and writes rows 2000 t … 2000 t + 1999 of the [50000, 256] result. The block a point writes
  back is that block of one function of the two arrays, entry (r, q) being the sum over k of x (r, k) * w (k, q); the 25
  blocks tile the result (row r lies in the block of point r / 2000), so after the region the result array is that function.
-/
import proofs.«122691_j4398046511761_1_alg».proof.Proof.KI.Region2
import proofs.«122691_j4398046511761_1_alg».proof.Proof.MatmulValue
import proofs.«122691_j4398046511761_1_alg».proof.Proof.MmRows
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the activation and result windows sit at row block t, the weight window at the
    whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activation block at point t, entry (p, k), is the array's entry (2000 t + p, k). -/
theorem iblk2_0_apply (c : Dev nD) (t : Fin cfg2.N) (p : Fin 2000) (k : Fin 256) (r : Fin 50000)
    (hr : r.val = 2000 * t.val + p.val) :
    (iblk2 V c 0 t : S2000x256.Idx → EReal) (ix2 p k) = (V c main_v49 : S50000x256.Idx → EReal) (ix2 r k) := by
  obtain ⟨e0, e1, -⟩ := idx_facts2 t
  unfold iblk2
  rw [View.read_apply]
  show (V c main_v49 : S50000x256.Idx → EReal) _ = _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The weight block at any point is the whole weight matrix. -/
theorem iblk2_1_apply (c : Dev nD) (t : Fin cfg2.N) (k : Fin 256) (q : Fin 256) :
    (iblk2 V c 1 t : S256x256.Idx → EReal) (ix2 k q) = (V c main_arg4 : S256x256.Idx → EReal) (ix2 k q) := by
  obtain ⟨-, -, e0, e1, -⟩ := idx_facts2 t
  unfold iblk2
  rw [View.read_apply]
  show (V c main_arg4 : S256x256.Idx → EReal) _ = _
  congr 1
  funext a
  apply Fin.ext
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- What point t writes back is block t of the product of the two arrays as the region finds them. -/
theorem flushed2_eq (c : Dev nD) (t : Fin cfg2.N) :
    (dat2 V c).flushed 2 t = ((cfg2.win 2).blk t).view.read (Elt Ideal) (mmRows256 (V c main_v49) (V c main_arg4)) := by
  obtain ⟨-, -, -, -, e0, e1⟩ := idx_facts2 t
  have ht : t.val < 25 := Nat.lt_of_lt_of_eq t.isLt N_2
  show (cfg2.win 2).cut (grid2.coords t) ((dat2 V c).after 2 t) = _
  rw [after2_2]
  unfold out2_2
  rw [View.canon_unit_zero hz2]
  simp only [View.ld_unit_zero (S := S2000x256) hz2, View.ld_unit_zero (S := S256x256) hz2]
  funext j
  obtain ⟨p, q, rfl⟩ : ∃ (p : Fin 2000) (q : Fin 256), j = ix2 p q := ⟨j 0, j 1, eq_ix2 j⟩
  have hemb : ((cfg2.win 2).blk t).view.emb (ix2 p q) = ix2 (⟨2000 * t.val + p.val, by omega⟩ : Fin 50000) q := by
    funext a
    apply Fin.ext
    match a with
    | ⟨0, _⟩ => show win2_2.index t (0 : Fin 2) * 2000 + 1 * p.val = 2000 * t.val + p.val; rw [e0]; omega
    | ⟨1, _⟩ => show win2_2.index t (1 : Fin 2) * 256 + 1 * q.val = q.val; rw [e1]; omega
  show k2_pay1 (F := Ideal) (iblk2 V c 0 t) (iblk2 V c 1 t) (ix2 p q)
    = mmRows256 (V c main_v49) (V c main_arg4) (((cfg2.win 2).blk t).view.emb (ix2 p q))
  rw [hemb, mmRows256_apply, k2_pay1_apply]
  refine Finset.sum_congr rfl fun k _ => ?_
  rw [iblk2_0_apply V c t p k ⟨2000 * t.val + p.val, by omega⟩ rfl, iblk2_1_apply V c t k q]

/-- An index of the result is in point t's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v50).slice (win2_2.rect t)).set ↔ _
  rw [View.set_slice_whole, Rect.mem_set_unit]
  exact Iff.rfl

/-- Row r of the result lies in the block of point r / 2000. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨-, -, -, -, e0, e1⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e0]; show (i 0).val / 2000 * 2000 ≤ (i 0).val ∧ (i 0).val < (i 0).val / 2000 * 2000 + 2000; omega
  | ⟨1, _⟩ =>
    show win2_2.index t (1 : Fin 2) * 256 ≤ (i 1).val ∧ (i 1).val < win2_2.index t (1 : Fin 2) * 256 + 256
    rw [e1]; omega

/-- After the region the result array is the product of the activations and the weight, as the region finds them. -/
theorem final2 (c : Dev nD) :
    (dat2 (F := Ideal) V c).arrAt 2 cfg2.N = mmRows256 (V c main_v49) (V c main_arg4) :=
  (dat2 V c).arrAt_eq_of_cover 2 (mmRows256 (V c main_v49) (V c main_arg4)) (fun t _ => flushed2_eq V c t) cover2

end Cert.Bridge

end
-- ==== Proof.KIFinal3.lean ====
/-
  The second normalisation region, from blocks to the arrays, on the extended reals.

  The region runs over 25 points; point t reads rows 2000 t … 2000 t + 1999 of the aggregated messages, of the previous
  layer's output (twice: as the residual and as the running sum of layer outputs) and the five [1, 256] parameter rows,
  and writes rows 2000 t … 2000 t + 1999 of two results: the normalised and activated block with the residual added
  after the bias, and that block added to the running sum. Each block a point writes back is that block of one function
  of the arrays, entry by entry; the 25 blocks tile each result, so after the region each result array is its function.
-/
import proofs.«122691_j4398046511761_1_alg».proof.Proof.KI.Region3
import proofs.«122691_j4398046511761_1_alg».proof.Proof.BnValue
import proofs.«122691_j4398046511761_1_alg».proof.Proof.MmRows
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- Normalisation and activation with a residual, of [50000, 256] arrays against [1, 256] parameter rows, entry by
    entry: a the array, b the bias, h the residual array, rm and rv the running mean and variance, g and bt the scale
    and shift. -/
def bnResRows (a : S50000x256.Idx → EReal) (b : S1x256.Idx → EReal) (h : S50000x256.Idx → EReal)
    (rm rv g bt : S1x256.Idx → EReal) : S50000x256.Idx → EReal :=
  fun j => bnRes (a j) (b (ix2 0 (j 1))) (h j) (rm (ix2 0 (j 1))) (rv (ix2 0 (j 1))) (g (ix2 0 (j 1))) (bt (ix2 0 (j 1)))

theorem bnResRows_apply (a : S50000x256.Idx → EReal) (b : S1x256.Idx → EReal) (h : S50000x256.Idx → EReal)
    (rm rv g bt : S1x256.Idx → EReal) (r : Fin 50000) (q : Fin 256) :
    bnResRows a b h rm rv g bt (ix2 r q)
      = bnRes (a (ix2 r q)) (b (ix2 0 q)) (h (ix2 r q)) (rm (ix2 0 q)) (rv (ix2 0 q)) (g (ix2 0 q)) (bt (ix2 0 q)) := rfl

/-- The running sum of layer outputs plus one more layer's output, entry by entry. -/
def sumRows (acc f : S50000x256.Idx → EReal) : S50000x256.Idx → EReal := fun j => acc j + f j

theorem sumRows_apply (acc f : S50000x256.Idx → EReal) (j : S50000x256.Idx) : sumRows acc f j = acc j + f j := rfl

variable (V : (c : Dev nD) → (b : Ref sig .tc) → Buf (Elt Ideal) ((c : Thread nD τ).loc b))

/-- The message window sits at row block t, so its block at point t, entry (p, q), is the array's entry (2000 t + p, q). -/
theorem idx3_0 : ∀ t : Fin cfg3.N, win3_0.index t (0 : Fin 2) = t.val ∧ win3_0.index t (1 : Fin 2) = 0 :=
  (by decide +kernel : ∀ t : Fin grid3.N, _)

theorem iblk3_0_apply (c : Dev nD) (t : Fin cfg3.N) (p : Fin 2000) (q : Fin 256) (r : Fin 50000)
    (hr : r.val = 2000 * t.val + p.val) :
    (iblk3 V c 0 t : S2000x256.Idx → EReal) (ix2 p q) = (V c main_v63 : S50000x256.Idx → EReal) (ix2 r q) := by
  obtain ⟨e0, e1⟩ := idx3_0 t
  unfold iblk3
  rw [View.read_apply]
  show (V c main_v63 : S50000x256.Idx → EReal) _ = _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * q.val = q.val; rw [e1]; omega

/-- The bias row's window sits at the whole row at every point, so its block is the row. -/
theorem idx3_1 : ∀ t : Fin cfg3.N, win3_1.index t (0 : Fin 2) = 0 ∧ win3_1.index t (1 : Fin 2) = 0 :=
  (by decide +kernel : ∀ t : Fin grid3.N, _)

theorem iblk3_1_apply (c : Dev nD) (t : Fin cfg3.N) (q : Fin 256) :
    (iblk3 V c 1 t : S1x256.Idx → EReal) (ix2 0 q) = (V c main_v64 : S1x256.Idx → EReal) (ix2 0 q) := by
  obtain ⟨e0, e1⟩ := idx3_1 t
  unfold iblk3
  rw [View.read_apply]
  show (V c main_v64 : S1x256.Idx → EReal) _ = _
  congr 1
  funext a
  apply Fin.ext
  match a with
  | ⟨0, _⟩ => show win3_1.index t (0 : Fin 2) * 1 + 1 * 0 = 0; rw [e0]
  | ⟨1, _⟩ => show win3_1.index t (1 : Fin 2) * 256 + 1 * q.val = q.val; rw [e1]; omega

/-- The residual window sits at row block t, so its block at point t, entry (p, q), is the array's entry (2000 t + p, q). -/
theorem idx3_2 : ∀ t : Fin cfg3.N, win3_2.index t (0 : Fin 2) = t.val ∧ win3_2.index t (1 : Fin 2) = 0 :=
  (by decide +kernel : ∀ t : Fin grid3.N, _)

theorem iblk3_2_apply (c : Dev nD) (t : Fin cfg3.N) (p : Fin 2000) (q : Fin 256) (r : Fin 50000)
    (hr : r.val = 2000 * t.val + p.val) :
    (iblk3 V c 2 t : S2000x256.Idx → EReal) (ix2 p q) = (V c main_v49 : S50000x256.Idx → EReal) (ix2 r q) := by
  obtain ⟨e0, e1⟩ := idx3_2 t
  unfold iblk3
  rw [View.read_apply]
  show (V c main_v49 : S50000x256.Idx → EReal) _ = _
  congr 1
  funext a
  apply Fin.ext
  match a with
  | ⟨0, _⟩ => show win3_2.index t (0 : Fin 2) * 2000 + 1 * p.val = r.val; rw [e0, hr]; omega
  | ⟨1, _⟩ => show win3_2.index t (1 : Fin 2) * 256 + 1 * q.val = q.val; rw [e1]; omega

/-- The scale row's window sits at the whole row at every point, so its block is the row. -/
theorem idx3_3 : ∀ t : Fin cfg3.N, win3_3.index t (0 : Fin 2) = 0 ∧ win3_3.index t (1 : Fin 2) = 0 :=
  (by decide +kernel : ∀ t : Fin grid3.N, _)

theorem iblk3_3_apply (c : Dev nD) (t : Fin cfg3.N) (q : Fin 256) :
    (iblk3 V c 3 t : S1x256.Idx → EReal) (ix2 0 q) = (V c main_v65 : S1x256.Idx → EReal) (ix2 0 q) := by
  obtain ⟨e0, e1⟩ := idx3_3 t
  unfold iblk3
  rw [View.read_apply]
  show (V c main_v65 : S1x256.Idx → EReal) _ = _
  congr 1
  funext a
  apply Fin.ext
  match a with
  | ⟨0, _⟩ => show win3_3.index t (0 : Fin 2) * 1 + 1 * 0 = 0; rw [e0]
  | ⟨1, _⟩ => show win3_3.index t (1 : Fin 2) * 256 + 1 * q.val = q.val; rw [e1]; omega

/-- The shift row's window sits at the whole row at every point, so its block is the row. -/
theorem idx3_4 : ∀ t : Fin cfg3.N, win3_4.index t (0 : Fin 2) = 0 ∧ win3_4.index t (1 : Fin 2) = 0 :=
  (by decide +kernel : ∀ t : Fin grid3.N, _)

theorem iblk3_4_apply (c : Dev nD) (t : Fin cfg3.N) (q : Fin 256) :
    (iblk3 V c 4 t : S1x256.Idx → EReal) (ix2 0 q) = (V c main_v66 : S1x256.Idx → EReal) (ix2 0 q) := by
  obtain ⟨e0, e1⟩ := idx3_4 t
  unfold iblk3
  rw [View.read_apply]
  show (V c main_v66 : S1x256.Idx → EReal) _ = _
  congr 1
  funext a
  apply Fin.ext
  match a with
  | ⟨0, _⟩ => show win3_4.index t (0 : Fin 2) * 1 + 1 * 0 = 0; rw [e0]
  | ⟨1, _⟩ => show win3_4.index t (1 : Fin 2) * 256 + 1 * q.val = q.val; rw [e1]; omega

/-- The running-mean row's window sits at the whole row at every point, so its block is the row. -/
theorem idx3_5 : ∀ t : Fin cfg3.N, win3_5.index t (0 : Fin 2) = 0 ∧ win3_5.index t (1 : Fin 2) = 0 :=
  (by decide +kernel : ∀ t : Fin grid3.N, _)

theorem iblk3_5_apply (c : Dev nD) (t : Fin cfg3.N) (q : Fin 256) :
    (iblk3 V c 5 t : S1x256.Idx → EReal) (ix2 0 q) = (V c main_v67 : S1x256.Idx → EReal) (ix2 0 q) := by
  obtain ⟨e0, e1⟩ := idx3_5 t
  unfold iblk3
  rw [View.read_apply]
  show (V c main_v67 : S1x256.Idx → EReal) _ = _
  congr 1
  funext a
  apply Fin.ext
  match a with
  | ⟨0, _⟩ => show win3_5.index t (0 : Fin 2) * 1 + 1 * 0 = 0; rw [e0]
  | ⟨1, _⟩ => show win3_5.index t (1 : Fin 2) * 256 + 1 * q.val = q.val; rw [e1]; omega

/-- The running-variance row's window sits at the whole row at every point, so its block is the row. -/
theorem idx3_6 : ∀ t : Fin cfg3.N, win3_6.index t (0 : Fin 2) = 0 ∧ win3_6.index t (1 : Fin 2) = 0 :=
  (by decide +kernel : ∀ t : Fin grid3.N, _)

theorem iblk3_6_apply (c : Dev nD) (t : Fin cfg3.N) (q : Fin 256) :
    (iblk3 V c 6 t : S1x256.Idx → EReal) (ix2 0 q) = (V c main_v68 : S1x256.Idx → EReal) (ix2 0 q) := by
  obtain ⟨e0, e1⟩ := idx3_6 t
  unfold iblk3
  rw [View.read_apply]
  show (V c main_v68 : S1x256.Idx → EReal) _ = _
  congr 1
  funext a
  apply Fin.ext
  match a with
  | ⟨0, _⟩ => show win3_6.index t (0 : Fin 2) * 1 + 1 * 0 = 0; rw [e0]
  | ⟨1, _⟩ => show win3_6.index t (1 : Fin 2) * 256 + 1 * q.val = q.val; rw [e1]; omega

/-- The running-sum window sits at row block t, so its block at point t, entry (p, q), is the array's entry (2000 t + p, q). -/
theorem idx3_7 : ∀ t : Fin cfg3.N, win3_7.index t (0 : Fin 2) = t.val ∧ win3_7.index t (1 : Fin 2) = 0 :=
  (by decide +kernel : ∀ t : Fin grid3.N, _)

theorem iblk3_7_apply (c : Dev nD) (t : Fin cfg3.N) (p : Fin 2000) (q : Fin 256) (r : Fin 50000)
    (hr : r.val = 2000 * t.val + p.val) :
    (iblk3 V c 7 t : S2000x256.Idx → EReal) (ix2 p q) = (V c main_v49 : S50000x256.Idx → EReal) (ix2 r q) := by
  obtain ⟨e0, e1⟩ := idx3_7 t
  unfold iblk3
  rw [View.read_apply]
  show (V c main_v49 : S50000x256.Idx → EReal) _ = _
  congr 1
  funext a
  apply Fin.ext
  match a with
  | ⟨0, _⟩ => show win3_7.index t (0 : Fin 2) * 2000 + 1 * p.val = r.val; rw [e0, hr]; omega
  | ⟨1, _⟩ => show win3_7.index t (1 : Fin 2) * 256 + 1 * q.val = q.val; rw [e1]; omega

/-- The result window 8 sits at row block t. -/
theorem idx3_8 : ∀ t : Fin cfg3.N, win3_8.index t (0 : Fin 2) = t.val ∧ win3_8.index t (1 : Fin 2) = 0 :=
  (by decide +kernel : ∀ t : Fin grid3.N, _)

/-- An entry (p, q) of point t's result block sits in the array at (2000 t + p, q). -/
theorem emb3_8 (t : Fin cfg3.N) (p : Fin 2000) (q : Fin 256) (r : Fin 50000) (hr : r.val = 2000 * t.val + p.val) :
    ((cfg3.win 8).blk t).view.emb (ix2 p q) = ix2 r q := by
  obtain ⟨e0, e1⟩ := idx3_8 t
  funext a
  apply Fin.ext
  match a with
  | ⟨0, _⟩ => show win3_8.index t (0 : Fin 2) * 2000 + 1 * p.val = r.val; rw [e0, hr]; omega
  | ⟨1, _⟩ => show win3_8.index t (1 : Fin 2) * 256 + 1 * q.val = q.val; rw [e1]; omega

/-- An index of the result is in point t's block iff each coordinate is in the block's range on its axis. -/
theorem mem_blk3_8 (t : Fin cfg3.N) (i : S50000x256.Idx) :
    i ∈ ((cfg3.win 8).blk t).view.set ↔ ∀ a : Fin 2, win3_8.index t a * S2000x256.size a ≤ (i a).val
      ∧ (i a).val < win3_8.index t a * S2000x256.size a + S2000x256.size a := by
  show i ∈ ((View.whole main_v69_0).slice (win3_8.rect t)).set ↔ _
  rw [View.set_slice_whole, Rect.mem_set_unit]
  exact Iff.rfl

/-- Row r of the result lies in the block of point r / 2000. -/
theorem cover3_8 (i : S50000x256.Idx) :
    ∃ t : Fin cfg3.N, (cfg3.win 8).flush t = true ∧ i ∈ ((cfg3.win 8).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e0, e1⟩ := idx3_8 t
  refine ⟨t, flush3_8 t, ?_⟩
  rw [mem_blk3_8]
  intro a
  match a with
  | ⟨0, _⟩ =>
    show win3_8.index t (0 : Fin 2) * 2000 ≤ (i 0).val ∧ (i 0).val < win3_8.index t (0 : Fin 2) * 2000 + 2000
    rw [e0]; show (i 0).val / 2000 * 2000 ≤ (i 0).val ∧ (i 0).val < (i 0).val / 2000 * 2000 + 2000; omega
  | ⟨1, _⟩ =>
    show win3_8.index t (1 : Fin 2) * 256 ≤ (i 1).val ∧ (i 1).val < win3_8.index t (1 : Fin 2) * 256 + 256
    rw [e1]; omega

/-- The result window 9 sits at row block t. -/
theorem idx3_9 : ∀ t : Fin cfg3.N, win3_9.index t (0 : Fin 2) = t.val ∧ win3_9.index t (1 : Fin 2) = 0 :=
  (by decide +kernel : ∀ t : Fin grid3.N, _)

/-- An entry (p, q) of point t's result block sits in the array at (2000 t + p, q). -/
theorem emb3_9 (t : Fin cfg3.N) (p : Fin 2000) (q : Fin 256) (r : Fin 50000) (hr : r.val = 2000 * t.val + p.val) :
    ((cfg3.win 9).blk t).view.emb (ix2 p q) = ix2 r q := by
  obtain ⟨e0, e1⟩ := idx3_9 t
  funext a
  apply Fin.ext
  match a with
  | ⟨0, _⟩ => show win3_9.index t (0 : Fin 2) * 2000 + 1 * p.val = r.val; rw [e0, hr]; omega
  | ⟨1, _⟩ => show win3_9.index t (1 : Fin 2) * 256 + 1 * q.val = q.val; rw [e1]; omega

/-- An index of the result is in point t's block iff each coordinate is in the block's range on its axis. -/
theorem mem_blk3_9 (t : Fin cfg3.N) (i : S50000x256.Idx) :
    i ∈ ((cfg3.win 9).blk t).view.set ↔ ∀ a : Fin 2, win3_9.index t a * S2000x256.size a ≤ (i a).val
      ∧ (i a).val < win3_9.index t a * S2000x256.size a + S2000x256.size a := by
  show i ∈ ((View.whole main_v69_1).slice (win3_9.rect t)).set ↔ _
  rw [View.set_slice_whole, Rect.mem_set_unit]
  exact Iff.rfl

/-- Row r of the result lies in the block of point r / 2000. -/
theorem cover3_9 (i : S50000x256.Idx) :
    ∃ t : Fin cfg3.N, (cfg3.win 9).flush t = true ∧ i ∈ ((cfg3.win 9).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e0, e1⟩ := idx3_9 t
  refine ⟨t, flush3_9 t, ?_⟩
  rw [mem_blk3_9]
  intro a
  match a with
  | ⟨0, _⟩ =>
    show win3_9.index t (0 : Fin 2) * 2000 ≤ (i 0).val ∧ (i 0).val < win3_9.index t (0 : Fin 2) * 2000 + 2000
    rw [e0]; show (i 0).val / 2000 * 2000 ≤ (i 0).val ∧ (i 0).val < (i 0).val / 2000 * 2000 + 2000; omega
  | ⟨1, _⟩ =>
    show win3_9.index t (1 : Fin 2) * 256 ≤ (i 1).val ∧ (i 1).val < win3_9.index t (1 : Fin 2) * 256 + 256
    rw [e1]; omega

/-- What point t writes back to the first result is block t of the normalised and activated array. -/
theorem flushed3_8_eq (c : Dev nD) (t : Fin cfg3.N) :
    (dat3 V c).flushed 8 t = ((cfg3.win 8).blk t).view.read (Elt Ideal)
      (bnResRows (V c main_v63) (V c main_v64) (V c main_v49) (V c main_v67) (V c main_v68) (V c main_v65) (V c main_v66)) := by
  have ht : t.val < 25 := Nat.lt_of_lt_of_eq t.isLt N_3
  show (cfg3.win 8).cut (grid3.coords t) ((dat3 V c).after 8 t) = _
  rw [after3_8]
  unfold out3_8
  rw [View.canon_unit_zero hz2]
  simp only [View.ld_unit_zero (S := S2000x256) hz2, View.ld_unit_zero (S := S1x256) hz2]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (iblk3 V c 5 t) (iblk3 V c 6 t) (iblk3 V c 3 t)
      (iblk3 V c 4 t) (ix2 p q)
    = bnResRows (V c main_v63) (V c main_v64) (V c main_v49) (V c main_v67) (V c main_v68) (V c main_v65) (V c main_v66)
        (((cfg3.win 8).blk t).view.emb (ix2 p q))
  rw [emb3_8 t p q ⟨2000 * t.val + p.val, by omega⟩ rfl, bnResRows_apply, k3_pay1_apply,
    iblk3_0_apply V c t p q ⟨2000 * t.val + p.val, by omega⟩ rfl, iblk3_1_apply V c t q,
    iblk3_2_apply V c t p q ⟨2000 * t.val + p.val, by omega⟩ rfl, iblk3_3_apply V c t q, iblk3_4_apply V c t q,
    iblk3_5_apply V c t q, iblk3_6_apply V c t q]

/-- What point t writes back to the second result is block t of the running sum plus that array. -/
theorem flushed3_9_eq (c : Dev nD) (t : Fin cfg3.N) :
    (dat3 V c).flushed 9 t = ((cfg3.win 9).blk t).view.read (Elt Ideal)
      (sumRows (V c main_v49) (bnResRows (V c main_v63) (V c main_v64) (V c main_v49) (V c main_v67) (V c main_v68) (V c main_v65) (V c main_v66))) := by
  have ht : t.val < 25 := Nat.lt_of_lt_of_eq t.isLt N_3
  show (cfg3.win 9).cut (grid3.coords t) ((dat3 V c).after 9 t) = _
  rw [after3_9]
  unfold out3_9
  rw [View.canon_unit_zero hz2]
  simp only [View.ld_unit_zero (S := S2000x256) hz2, View.ld_unit_zero (S := S1x256) hz2]
  funext j
  obtain ⟨p, q, rfl⟩ : ∃ (p : Fin 2000) (q : Fin 256), j = ix2 p q := ⟨j 0, j 1, eq_ix2 j⟩
  show k3_pay2 (F := Ideal) (iblk3 V c 0 t) (iblk3 V c 1 t) (iblk3 V c 2 t) (iblk3 V c 5 t) (iblk3 V c 6 t) (iblk3 V c 3 t)
      (iblk3 V c 4 t) (iblk3 V c 7 t) (ix2 p q)
    = sumRows (V c main_v49) (bnResRows (V c main_v63) (V c main_v64) (V c main_v49) (V c main_v67) (V c main_v68) (V c main_v65) (V c main_v66))
        (((cfg3.win 9).blk t).view.emb (ix2 p q))
  rw [emb3_9 t p q ⟨2000 * t.val + p.val, by omega⟩ rfl, sumRows_apply, bnResRows_apply, k3_pay2_apply,
    iblk3_0_apply V c t p q ⟨2000 * t.val + p.val, by omega⟩ rfl, iblk3_1_apply V c t q,
    iblk3_2_apply V c t p q ⟨2000 * t.val + p.val, by omega⟩ rfl, iblk3_3_apply V c t q, iblk3_4_apply V c t q,
    iblk3_5_apply V c t q, iblk3_6_apply V c t q, iblk3_7_apply V c t p q ⟨2000 * t.val + p.val, by omega⟩ rfl]

/-- After the region the first result array is the normalised and activated messages with the residual. -/
theorem final3_8 (c : Dev nD) :
    (dat3 (F := Ideal) V c).arrAt 8 cfg3.N
      = bnResRows (V c main_v63) (V c main_v64) (V c main_v49) (V c main_v67) (V c main_v68) (V c main_v65) (V c main_v66) :=
  (dat3 V c).arrAt_eq_of_cover 8 _ (fun t _ => flushed3_8_eq V c t) cover3_8

/-- After the region the second result array is the running sum plus the first result. -/
theorem final3_9 (c : Dev nD) :
    (dat3 (F := Ideal) V c).arrAt 9 cfg3.N
      = sumRows (V c main_v49) (bnResRows (V c main_v63) (V c main_v64) (V c main_v49) (V c main_v67) (V c main_v68) (V c main_v65) (V c main_v66)) :=
  (dat3 V c).arrAt_eq_of_cover 9 _ (fun t _ => flushed3_9_eq V c t) cover3_9

end Cert.Bridge

end
-- ==== Proof.KIFinal4.lean ====
/-
  The third product region, from blocks to the array, on the extended reals.

  The region runs over 25 points; point t reads rows 2000 t … 2000 t + 1999 of a [50000, 256] array of activations and
  the whole [256, 256] weight, and writes rows 2000 t … 2000 t + 1999 of the [50000, 256] result. The block a point writes
  back is that block of one function of the two arrays, entry (r, q) being the sum over k of x (r, k) * w (k, q); the 25
  blocks tile the result (row r lies in the block of point r / 2000), so after the region the result array is that function.
-/
import proofs.«122691_j4398046511761_1_alg».proof.Proof.KI.Region4
import proofs.«122691_j4398046511761_1_alg».proof.Proof.MatmulValue
import proofs.«122691_j4398046511761_1_alg».proof.Proof.MmRows
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the activation and result windows sit at row block t, the weight window at the
    whole matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The activation block at point t, entry (p, k), is the array's entry (2000 t + p, k). -/
theorem iblk4_0_apply (c : Dev nD) (t : Fin cfg4.N) (p : Fin 2000) (k : Fin 256) (r : Fin 50000)
    (hr : r.val = 2000 * t.val + p.val) :
    (iblk4 V c 0 t : S2000x256.Idx → EReal) (ix2 p k) = (V c main_v69_1 : S50000x256.Idx → EReal) (ix2 r k) := by
  obtain ⟨e0, e1, -⟩ := idx_facts4 t
  unfold iblk4
  rw [View.read_apply]
  show (V c main_v69_1 : S50000x256.Idx → EReal) _ = _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 256 + 1 * k.val = k.val; rw [e1]; omega

/-- The weight block at any point is the whole weight matrix. -/
theorem iblk4_1_apply (c : Dev nD) (t : Fin cfg4.N) (k : Fin 256) (q : Fin 256) :
    (iblk4 V c 1 t : S256x256.Idx → EReal) (ix2 k q) = (V c main_arg6 : S256x256.Idx → EReal) (ix2 k q) := by
  obtain ⟨-, -, e0, e1, -⟩ := idx_facts4 t
  unfold iblk4
  rw [View.read_apply]
  show (V c main_arg6 : S256x256.Idx → EReal) _ = _
  congr 1
  funext a
  apply Fin.ext
  match a with
  | ⟨0, _⟩ => show win4_1.index t (0 : Fin 2) * 256 + 1 * k.val = k.val; rw [e0]; omega
  | ⟨1, _⟩ => show win4_1.index t (1 : Fin 2) * 256 + 1 * q.val = q.val; rw [e1]; omega

/-- What point t writes back is block t of the product of the two arrays as the region finds them. -/
theorem flushed4_eq (c : Dev nD) (t : Fin cfg4.N) :
    (dat4 V c).flushed 2 t = ((cfg4.win 2).blk t).view.read (Elt Ideal) (mmRows256 (V c main_v69_1) (V c main_arg6)) := by
  obtain ⟨-, -, -, -, e0, e1⟩ := idx_facts4 t
  have ht : t.val < 25 := Nat.lt_of_lt_of_eq t.isLt N_4
  show (cfg4.win 2).cut (grid4.coords t) ((dat4 V c).after 2 t) = _
  rw [after4_2]
  unfold out4_2
  rw [View.canon_unit_zero hz2]
  simp only [View.ld_unit_zero (S := S2000x256) hz2, View.ld_unit_zero (S := S256x256) hz2]
  funext j
  obtain ⟨p, q, rfl⟩ : ∃ (p : Fin 2000) (q : Fin 256), j = ix2 p q := ⟨j 0, j 1, eq_ix2 j⟩
  have hemb : ((cfg4.win 2).blk t).view.emb (ix2 p q) = ix2 (⟨2000 * t.val + p.val, by omega⟩ : Fin 50000) q := by
    funext a
    apply Fin.ext
    match a with
    | ⟨0, _⟩ => show win4_2.index t (0 : Fin 2) * 2000 + 1 * p.val = 2000 * t.val + p.val; rw [e0]; omega
    | ⟨1, _⟩ => show win4_2.index t (1 : Fin 2) * 256 + 1 * q.val = q.val; rw [e1]; omega
  show k4_pay1 (F := Ideal) (iblk4 V c 0 t) (iblk4 V c 1 t) (ix2 p q)
    = mmRows256 (V c main_v69_1) (V c main_arg6) (((cfg4.win 2).blk t).view.emb (ix2 p q))
  rw [hemb, mmRows256_apply, k4_pay1_apply]
  refine Finset.sum_congr rfl fun k _ => ?_
  rw [iblk4_0_apply V c t p k ⟨2000 * t.val + p.val, by omega⟩ rfl, iblk4_1_apply V c t k q]

/-- An index of the result is in point t's block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v70).slice (win4_2.rect t)).set ↔ _
  rw [View.set_slice_whole, Rect.mem_set_unit]
  exact Iff.rfl

/-- Row r of the result lies in the block of point r / 2000. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 25 := N_4
  let t : Fin cfg4.N := ⟨(i 0).val / 2000, by rw [hN]; omega⟩
  obtain ⟨-, -, -, -, e0, e1⟩ := idx_facts4 t
  refine ⟨t, flush4_2 t, ?_⟩
  rw [mem_blk4]
  intro a
  match a with
  | ⟨0, _⟩ =>
    show win4_2.index t (0 : Fin 2) * 2000 ≤ (i 0).val ∧ (i 0).val < win4_2.index t (0 : Fin 2) * 2000 + 2000
    rw [e0]; show (i 0).val / 2000 * 2000 ≤ (i 0).val ∧ (i 0).val < (i 0).val / 2000 * 2000 + 2000; omega
  | ⟨1, _⟩ =>
    show win4_2.index t (1 : Fin 2) * 256 ≤ (i 1).val ∧ (i 1).val < win4_2.index t (1 : Fin 2) * 256 + 256
    rw [e1]; omega

/-- After the region the result array is the product of the activations and the weight, as the region finds them. -/
theorem final4 (c : Dev nD) :
    (dat4 (F := Ideal) V c).arrAt 2 cfg4.N = mmRows256 (V c main_v69_1) (V c main_arg6) :=
  (dat4 V c).arrAt_eq_of_cover 2 (mmRows256 (V c main_v69_1) (V c main_arg6)) (fun t _ => flushed4_eq V c t) cover4

end Cert.Bridge

end
-- ==== Proof.KNet.lean ====
/-
  The kernel program's result as one function of its sixteen arguments: per layer a row-blocked matrix product (entry
  (r, q) the sum over k of x (r, k) · w (k, q)), a round of message passing over the graph, and the pointwise stage read
  entry by entry against the parameter rows; the second layer adds the first layer's output before normalising and the
  accumulated representation is the first layer's output plus the second's activation.
-/
import proofs.«122691_j4398046511761_1_alg».proof.Proof.Glue
import proofs.«122691_j4398046511761_1_alg».proof.Proof.MmRows
import proofs.«122691_j4398046511761_1_alg».proof.Proof.KIFinal1
import proofs.«122691_j4398046511761_1_alg».proof.Proof.KIFinal3

noncomputable section

namespace Cert.Bridge

open Idealize.ShloMosaic Idealize.ShloMosaic.ValueIdx

variable [Cert.ReferenceIdeal.Facts₀]

/-- A vector of 256 parameters as the [1, 256] row the kernel program hands its pointwise regions. -/
def rowOf (v : FVec Ideal Cert.KernelIdeal.S256 .f32) : FVec Ideal Cert.KernelIdeal.S1x256 .f32 :=
  shapeCast Cert.KernelIdeal.S1x256 v Cert.KernelIdeal.Facts₀.shapeCasts_S256_S1x256

/-- The first layer's output. -/
def kH1 (s d : (⟨Cert.ReferenceIdeal.S850000, .i32⟩ : BufTy).Contents (Elt Ideal)) (n : FVec Ideal Cert.ReferenceIdeal.S850000 .f32)
    (x : FVec Ideal Cert.KernelIdeal.S50000x512 .f32) (w0 : FVec Ideal Cert.KernelIdeal.S512x256 .f32)
    (b0 rm0 rv0 g0 bt0 : FVec Ideal Cert.KernelIdeal.S256 .f32) : FVec Ideal Cert.KernelIdeal.S50000x256 .f32 :=
  bnRows (propagate (F := Ideal) s d n (mmRows512 x w0)) (rowOf b0) (rowOf rm0) (rowOf rv0) (rowOf g0) (rowOf bt0)

/-- The accumulated representation after the second layer, from the first layer's output h. -/
def kGx (s d : (⟨Cert.ReferenceIdeal.S850000, .i32⟩ : BufTy).Contents (Elt Ideal)) (n : FVec Ideal Cert.ReferenceIdeal.S850000 .f32)
    (h : FVec Ideal Cert.KernelIdeal.S50000x256 .f32) (w1 : FVec Ideal Cert.KernelIdeal.S256x256 .f32)
    (b1 rm1 rv1 g1 bt1 : FVec Ideal Cert.KernelIdeal.S256 .f32) : FVec Ideal Cert.KernelIdeal.S50000x256 .f32 :=
  sumRows h (bnResRows (propagate (F := Ideal) s d n (mmRows256 h w1)) (rowOf b1) h (rowOf rm1) (rowOf rv1) (rowOf g1) (rowOf bt1))

/-- The third layer, from the accumulated representation gx. -/
def kOut (s d : (⟨Cert.ReferenceIdeal.S850000, .i32⟩ : BufTy).Contents (Elt Ideal)) (n : FVec Ideal Cert.ReferenceIdeal.S850000 .f32)
    (gx : FVec Ideal Cert.KernelIdeal.S50000x256 .f32) (w2 : FVec Ideal Cert.KernelIdeal.S256x256 .f32)
    (b2 : FVec Ideal Cert.KernelIdeal.S256 .f32) : FVec Ideal Cert.KernelIdeal.S50000x256 .f32 :=
  addRow (F := Ideal) (propagate (F := Ideal) s d n (mmRows256 gx w2)) b2

/-- The whole kernel program as a function of its sixteen arguments, in their order. -/
def kNet (x : FVec Ideal Cert.KernelIdeal.S50000x512 .f32) (ei : (⟨Cert.ReferenceIdeal.S2x800000, .i32⟩ : BufTy).Contents (Elt Ideal))
    (w0 : FVec Ideal Cert.KernelIdeal.S512x256 .f32) (b0 : FVec Ideal Cert.KernelIdeal.S256 .f32)
    (w1 : FVec Ideal Cert.KernelIdeal.S256x256 .f32) (b1 : FVec Ideal Cert.KernelIdeal.S256 .f32)
    (w2 : FVec Ideal Cert.KernelIdeal.S256x256 .f32) (b2 g0 bt0 rm0 rv0 g1 bt1 rm1 rv1 : FVec Ideal Cert.KernelIdeal.S256 .f32) :
    FVec Ideal Cert.KernelIdeal.S50000x256 .f32 :=
  kOut (srcOf ei) (dstOf ei) (normOf (srcOf ei) (dstOf ei))
    (kGx (srcOf ei) (dstOf ei) (normOf (srcOf ei) (dstOf ei))
      (kH1 (srcOf ei) (dstOf ei) (normOf (srcOf ei) (dstOf ei)) x w0 b0 rm0 rv0 g0 bt0) w1 b1 rm1 rv1 g1 bt1)
    w2 b2

end Cert.Bridge

end
-- ==== Proof.KI.Value.lean ====
/-
  The idealized kernel program's result as a value: following the contents of the buffers from boundary to boundary — the
  edge lists and weights from the first stretches, each matrix product block by block, each round of message passing, each
  pointwise stage entry by entry — the result array ends at the kernel program's function of the sixteen launch arrays.
-/
import proofs.«122691_j4398046511761_1_alg».proof.Proof.Gen.KernelIdeal.Launch
import proofs.«122691_j4398046511761_1_alg».proof.Proof.Gen.KernelIdeal.Skeleton
import proofs.«122691_j4398046511761_1_alg».proof.Proof.Gen.KernelIdeal.Points
import proofs.«122691_j4398046511761_1_alg».proof.Proof.KI.Frame
import proofs.«122691_j4398046511761_1_alg».proof.Proof.KI.Stretch
import proofs.«122691_j4398046511761_1_alg».proof.Proof.KIFinal0
import proofs.«122691_j4398046511761_1_alg».proof.Proof.KIFinal1
import proofs.«122691_j4398046511761_1_alg».proof.Proof.KIFinal2
import proofs.«122691_j4398046511761_1_alg».proof.Proof.KIFinal3
import proofs.«122691_j4398046511761_1_alg».proof.Proof.KIFinal4
import proofs.«122691_j4398046511761_1_alg».proof.Proof.KNet
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Bridge

variable [Cert.ReferenceIdeal.Facts₀]
variable (m : (ℓ : Loc nD τ sig) → Buf (Elt Ideal) ℓ) (c : Dev nD)

/-! ## A buffer nothing writes, up to each boundary -/

theorem upto3 (b : Ref sig .tc) (h1 : b ∉ hostOps0_W) (h2 : b ∉ hostOps0_1_W) (h3 : b ∉ hostOps0_2_W) :
    W3 m c (Proc.devRef .tc b) = W0 m c (Proc.devRef .tc b) :=
  (s3 m c b h3).trans ((s2 m c b h2).trans (s1 m c b h1))
theorem upto4 (b : Ref sig .tc) (h1 : b ∉ hostOps0_W) (h2 : b ∉ hostOps0_1_W) (h3 : b ∉ hostOps0_2_W) (h4 : ∀ w, Pipeline.arrRef spec0 w ≠ b) :
    W4 m c (Proc.devRef .tc b) = W0 m c (Proc.devRef .tc b) :=
  (s4 m c b h4).trans (upto3 m c b h1 h2 h3)
theorem upto6 (b : Ref sig .tc) (h1 : b ∉ hostOps0_W) (h2 : b ∉ hostOps0_1_W) (h3 : b ∉ hostOps0_2_W) (h4 : ∀ w, Pipeline.arrRef spec0 w ≠ b)
    (h5 : b ∉ hostOps1_W) (h6 : ∀ w, Pipeline.arrRef spec1 w ≠ b) : W6 m c (Proc.devRef .tc b) = W0 m c (Proc.devRef .tc b) :=
  (s6 m c b h6).trans ((s5 m c b h5).trans (upto4 m c b h1 h2 h3 h4))
theorem upto7 (b : Ref sig .tc) (h1 : b ∉ hostOps0_W) (h2 : b ∉ hostOps0_1_W) (h3 : b ∉ hostOps0_2_W) (h4 : ∀ w, Pipeline.arrRef spec0 w ≠ b)
    (h5 : b ∉ hostOps1_W) (h6 : ∀ w, Pipeline.arrRef spec1 w ≠ b) (h7 : ∀ w, Pipeline.arrRef spec2 w ≠ b) : W7 m c (Proc.devRef .tc b) = W0 m c (Proc.devRef .tc b) :=
  (s7 m c b h7).trans (upto6 m c b h1 h2 h3 h4 h5 h6)
theorem upto9 (b : Ref sig .tc) (h1 : b ∉ hostOps0_W) (h2 : b ∉ hostOps0_1_W) (h3 : b ∉ hostOps0_2_W) (h4 : ∀ w, Pipeline.arrRef spec0 w ≠ b)
    (h5 : b ∉ hostOps1_W) (h6 : ∀ w, Pipeline.arrRef spec1 w ≠ b) (h7 : ∀ w, Pipeline.arrRef spec2 w ≠ b) (h8 : b ∉ hostOps3_W)
    (h9 : b ≠ main_v69_0) (h9' : b ≠ main_v69_1) : W9 m c (Proc.devRef .tc b) = W0 m c (Proc.devRef .tc b) :=
  (s9 m c b h9 h9').trans ((s8 m c b h8).trans (upto7 m c b h1 h2 h3 h4 h5 h6 h7))
theorem upto10 (b : Ref sig .tc) (h1 : b ∉ hostOps0_W) (h2 : b ∉ hostOps0_1_W) (h3 : b ∉ hostOps0_2_W) (h4 : ∀ w, Pipeline.arrRef spec0 w ≠ b)
    (h5 : b ∉ hostOps1_W) (h6 : ∀ w, Pipeline.arrRef spec1 w ≠ b) (h7 : ∀ w, Pipeline.arrRef spec2 w ≠ b) (h8 : b ∉ hostOps3_W)
    (h9 : b ≠ main_v69_0) (h9' : b ≠ main_v69_1) (h10 : ∀ w, Pipeline.arrRef spec4 w ≠ b) : W10 m c (Proc.devRef .tc b) = W0 m c (Proc.devRef .tc b) :=
  (s10 m c b h10).trans (upto9 m c b h1 h2 h3 h4 h5 h6 h7 h8 h9 h9')

/-! ## The graph: edge lists and edge weights, computed once and read by every round of message passing -/

/-- A buffer the first three stretches computed passes every later boundary up to the one before the last stretch. -/
theorem graph4 (b : Ref sig .tc) (h4 : ∀ w, Pipeline.arrRef spec0 w ≠ b) : W4 m c (Proc.devRef .tc b) = W3 m c (Proc.devRef .tc b) := s4 m c b h4
theorem graph7 (b : Ref sig .tc) (h4 : ∀ w, Pipeline.arrRef spec0 w ≠ b) (h5 : b ∉ hostOps1_W) (h6 : ∀ w, Pipeline.arrRef spec1 w ≠ b)
    (h7 : ∀ w, Pipeline.arrRef spec2 w ≠ b) : W7 m c (Proc.devRef .tc b) = W3 m c (Proc.devRef .tc b) :=
  (s7 m c b h7).trans ((s6 m c b h6).trans ((s5 m c b h5).trans (s4 m c b h4)))
theorem graph10 (b : Ref sig .tc) (h4 : ∀ w, Pipeline.arrRef spec0 w ≠ b) (h5 : b ∉ hostOps1_W) (h6 : ∀ w, Pipeline.arrRef spec1 w ≠ b)
    (h7 : ∀ w, Pipeline.arrRef spec2 w ≠ b) (h8 : b ∉ hostOps3_W) (h9 : b ≠ main_v69_0) (h9' : b ≠ main_v69_1)
    (h10 : ∀ w, Pipeline.arrRef spec4 w ≠ b) : W10 m c (Proc.devRef .tc b) = W3 m c (Proc.devRef .tc b) :=
  (s10 m c b h10).trans ((s9 m c b h9 h9').trans ((s8 m c b h8).trans (graph7 m c b h4 h5 h6 h7)))

theorem src3 : (W3 m c (Proc.devRef .tc main_v3) : (⟨S850000, .i32⟩ : BufTy).Contents (Elt Ideal)) = srcOf (W0 m c (Proc.devRef .tc main_arg1)) :=
  (s3 m c main_v3 (by decide)).trans ((s2 m c main_v3 (by decide)).trans (src_eq (W0 m c)))
theorem dst3 : (W3 m c (Proc.devRef .tc main_v6) : (⟨S850000, .i32⟩ : BufTy).Contents (Elt Ideal)) = dstOf (W0 m c (Proc.devRef .tc main_arg1)) :=
  (s3 m c main_v6 (by decide)).trans ((s2 m c main_v6 (by decide)).trans (dst_eq (W0 m c)))

theorem norm3 : (W3 m c (Proc.devRef .tc main_v29) : FVec Ideal S850000 .f32)
    = normOf (F := Ideal) (srcOf (W0 m c (Proc.devRef .tc main_arg1))) (dstOf (W0 m c (Proc.devRef .tc main_arg1))) := by
  have e14 : (W2 m c (Proc.devRef .tc main_v14) : FVec Ideal S50000 .f32) = dinvOf (F := Ideal) (degOf (F := Ideal) (dstOf (W0 m c (Proc.devRef .tc main_arg1)))) := by
    refine (dinv_eq (W1 m c)).trans ?_
    rw [show W1 m c (Proc.devRef .tc main_v12) = _ from pos_eq (W0 m c), show W1 m c (Proc.devRef .tc main_v13) = _ from rsq_eq (W0 m c),
      show W1 m c (Proc.devRef .tc main_cst_2) = _ from zero_eq (W0 m c)]
    rfl
  have e3 : (W2 m c (Proc.devRef .tc main_v3) : (⟨S850000, .i32⟩ : BufTy).Contents (Elt Ideal)) = srcOf (W0 m c (Proc.devRef .tc main_arg1)) :=
    (s2 m c main_v3 (by decide)).trans (src_eq (W0 m c))
  have e6 : (W2 m c (Proc.devRef .tc main_v6) : (⟨S850000, .i32⟩ : BufTy).Contents (Elt Ideal)) = dstOf (W0 m c (Proc.devRef .tc main_arg1)) :=
    (s2 m c main_v6 (by decide)).trans (dst_eq (W0 m c))
  refine (norm_step (W2 m c)).trans ?_
  rw [e14, e3, e6]
  rfl

/-! ## Layer by layer -/

/-- The first matrix product. -/
theorem v30_4 : (W4 m c (Proc.devRef .tc main_v30) : FVec Ideal S50000x256 .f32) = mmRows512 (W0 m c (Proc.devRef .tc main_arg0)) (W0 m c (Proc.devRef .tc main_arg2)) := by
  refine (W4_arr m c 2).trans ((final0 (V3 m) c).trans ?_)
  rw [show V3 m c main_arg0 = W0 m c (Proc.devRef .tc main_arg0) from upto3 m c main_arg0 (by decide) (by decide) (by decide),
    show V3 m c main_arg2 = W0 m c (Proc.devRef .tc main_arg2) from upto3 m c main_arg2 (by decide) (by decide) (by decide)]

/-- The first layer's output. -/
theorem v49_6 : (W6 m c (Proc.devRef .tc main_v49) : FVec Ideal S50000x256 .f32)
    = kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1))))
        (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9)) := by
  refine (W6_arr m c 6).trans ((final1 (V5 m) c).trans ?_)
  rw [show V5 m c main_v43 = _ from agg0_eq (W4 m c), show V5 m c main_v44 = _ from row44_eq (W4 m c), show V5 m c main_v45 = _ from row45_eq (W4 m c),
    show V5 m c main_v46 = _ from row46_eq (W4 m c), show V5 m c main_v47 = _ from row47_eq (W4 m c), show V5 m c main_v48 = _ from row48_eq (W4 m c),
    graph4 m c main_v3 (by decide), graph4 m c main_v6 (by decide), graph4 m c main_v29 (by decide), src3, dst3, norm3, v30_4,
    upto4 m c main_arg3 (by decide) (by decide) (by decide) (by decide), upto4 m c main_arg8 (by decide) (by decide) (by decide) (by decide),
    upto4 m c main_arg9 (by decide) (by decide) (by decide) (by decide), upto4 m c main_arg10 (by decide) (by decide) (by decide) (by decide),
    upto4 m c main_arg11 (by decide) (by decide) (by decide) (by decide)]
  rfl

/-- The second matrix product, of the first layer's output. -/
theorem v50_7 : (W7 m c (Proc.devRef .tc main_v50) : FVec Ideal S50000x256 .f32) = mmRows256 (kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9))) (W0 m c (Proc.devRef .tc main_arg4)) := by
  refine (W7_arr m c 2).trans ((final2 (V6 m) c).trans ?_)
  rw [show V6 m c main_v49 = _ from v49_6 m c,
    show V6 m c main_arg4 = W0 m c (Proc.devRef .tc main_arg4) from upto6 m c main_arg4 (by decide) (by decide) (by decide) (by decide) (by decide) (by decide)]

/-- The first layer's output is still there when the second pointwise region is entered. -/
theorem v49_8 : (W8 m c (Proc.devRef .tc main_v49) : FVec Ideal S50000x256 .f32) = (kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9))) :=
  (s8 m c main_v49 (by decide)).trans ((s7i m c 0 rfl).trans (v49_6 m c))

/-- The second round of message passing. -/
theorem v63_8 : (W8 m c (Proc.devRef .tc main_v63) : FVec Ideal S50000x256 .f32) = propagate (F := Ideal) (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (mmRows256 (kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9))) (W0 m c (Proc.devRef .tc main_arg4))) := by
  refine (agg1_eq (W7 m c)).trans ?_
  rw [graph7 m c main_v3 (by decide) (by decide) (by decide) (by decide), graph7 m c main_v6 (by decide) (by decide) (by decide) (by decide), graph7 m c main_v29 (by decide) (by decide) (by decide) (by decide), src3, dst3, norm3, v50_7]

/-- The accumulated representation after the second layer. -/
theorem v69_1_9 : (W9 m c (Proc.devRef .tc main_v69_1) : FVec Ideal S50000x256 .f32) = (kGx (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9))) (W0 m c (Proc.devRef .tc main_arg4)) (W0 m c (Proc.devRef .tc main_arg5)) (W0 m c (Proc.devRef .tc main_arg14)) (W0 m c (Proc.devRef .tc main_arg15)) (W0 m c (Proc.devRef .tc main_arg12)) (W0 m c (Proc.devRef .tc main_arg13))) := by
  refine (W9_v69_1 m c).trans ((final3_9 (V8 m) c).trans ?_)
  rw [show V8 m c main_v63 = _ from v63_8 m c, show V8 m c main_v49 = _ from v49_8 m c,
    show V8 m c main_v64 = _ from row64_eq (W7 m c), show V8 m c main_v65 = _ from row65_eq (W7 m c), show V8 m c main_v66 = _ from row66_eq (W7 m c),
    show V8 m c main_v67 = _ from row67_eq (W7 m c), show V8 m c main_v68 = _ from row68_eq (W7 m c),
    upto7 m c main_arg5 (by decide) (by decide) (by decide) (by decide) (by decide) (by decide) (by decide), upto7 m c main_arg12 (by decide) (by decide) (by decide) (by decide) (by decide) (by decide) (by decide), upto7 m c main_arg13 (by decide) (by decide) (by decide) (by decide) (by decide) (by decide) (by decide),
    upto7 m c main_arg14 (by decide) (by decide) (by decide) (by decide) (by decide) (by decide) (by decide), upto7 m c main_arg15 (by decide) (by decide) (by decide) (by decide) (by decide) (by decide) (by decide)]
  rfl

/-- The third matrix product. -/
theorem v70_10 : (W10 m c (Proc.devRef .tc main_v70) : FVec Ideal S50000x256 .f32) = mmRows256 (kGx (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (kH1 (srcOf (W0 m c (Proc.devRef .tc main_arg1))) (dstOf (W0 m c (Proc.devRef .tc main_arg1))) (normOf (F := Ideal) (srcOf (W0 m c (Proc.devRef .tc main_arg1))) (dstOf (W0 m c (Proc.devRef .tc main_arg1)))) (W0 m c (Proc.devRef .tc main_arg0)) (W0 m c (Proc.devRef .tc main_arg2)) (W0 m c (Proc.devRef .tc main_arg3)) (W0 m c (Proc.devRef .tc main_arg10)) (W0 m c (Proc.devRef .tc main_arg11)) (W0 m c (Proc.devRef .tc main_arg8)) (W0 m c (Proc.devRef .tc main_arg9))) (W0 m c (Proc.devRef .tc main_arg4)) (W0 m c (Proc.devRef .tc main_arg5)) (W0 m c (Proc.devRef .tc main_arg14)) (W0 m c (Proc.devRef .tc main_arg15)) (W0 m c (Proc.devRef .tc main_arg12)) (W0 m c (Proc.devRef .tc main_arg13))) (W0 m c (Proc.devRef .tc main_arg6)) := by
  refine (W10_arr m c 2).trans ((final4 (V9 m) c).trans ?_)
  rw [show V9 m c main_v69_1 = _ from v69_1_9 m c,
    show V9 m c main_arg6 = W0 m c (Proc.devRef .tc main_arg6) from upto9 m c main_arg6 (by decide) (by decide) (by decide) (by decide) (by decide) (by decide) (by decide) (by decide) (by decide) (by decide)]

/-- THE VALUE: the result array ends at the kernel program's function of the sixteen launch arrays. -/
theorem result_value : (W11 m c (Proc.devRef .tc main_v86) : FVec Ideal S50000x256 .f32)
    = kNet (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (W0 m c (Proc.devRef .tc main_arg11)) (W0 m c (Proc.devRef .tc main_arg12)) (W0 m c (Proc.devRef .tc main_arg13)) (W0 m c (Proc.devRef .tc main_arg14)) (W0 m c (Proc.devRef .tc main_arg15)) := by
  refine (out_eq (W10 m c)).trans ?_
  rw [graph10 m c main_v3 (by decide) (by decide) (by decide) (by decide) (by decide) (by decide) (by decide) (by decide), graph10 m c main_v6 (by decide) (by decide) (by decide) (by decide) (by decide) (by decide) (by decide) (by decide), graph10 m c main_v29 (by decide) (by decide) (by decide) (by decide) (by decide) (by decide) (by decide) (by decide), src3, dst3, norm3, v70_10,
    upto10 m c main_arg7 (by decide) (by decide) (by decide) (by decide) (by decide) (by decide) (by decide) (by decide) (by decide) (by decide) (by decide)]
  rfl

end Cert.KernelIdeal.Hand

end
-- ==== Proof.RefRun.lean ====
/- The reference program's run, read as a straight line of host operations.

   @main of the reference is 137 statements, three of them calls (`_where` once, `leaky_relu` twice, which itself calls
   `_where_0`). Unfolding the calls at their sites gives 150 operations over the buffers the signature declares; they are
   listed here in ten consecutive stretches — the normalisation, then per layer the dense product, the message passing
   and the pointwise tail — so that a later argument can walk the program one stretch at a time. `main_eq` says @main is
   exactly that line; `run_all` that every execution of it terminates with every buffer at the fold of the operations
   over the launch contents; `frame_ri` that no argument buffer is written. -/
import proofs.«122691_j4398046511761_1_alg».proof.Defs
import proofs.«122691_j4398046511761_1_alg».proof.Proof.Gen.ReferenceIdeal
import proofs.«122691_j4398046511761_1_alg».proof.Proof.Gen.Pre_finite_inputs
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## The operations, stretch by stretch -/

/-- The edge lists with self loops and the symmetric normalisation: `%0 … %29`. Sources and targets of the edges
    (`%3`, `%6`: the two rows of the edge table, each followed by the identity on the nodes), the degree of every node as a
    scatter-add of ones over the targets (`%10`), its inverse square root where it is positive and zero elsewhere (`%14`,
    the three operations of `_where` in place of its call), the two gathers of that vector at the sources and at the
    targets, and their product `%29`, the weight of every edge. -/
abbrev opsA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

/-- The first layer's dense product `%30 = %arg0 · %arg2`. -/
abbrev opsD0 : List (HloOp τ sig (Elt F)) :=
  [ StableHlo.binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]

/-- The first layer's message passing, `%c_6 … %43`: the sources normalised to non-negative indices, the rows of `%30`
    gathered at them, each scaled by its edge's weight, and summed into the targets' rows of a zero array (`%43`). -/
abbrev opsP0 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The first layer's pointwise tail, `%44 … %62`: the bias added, the batch normalisation (subtract the mean, multiply
    by the inverse square root of the variance plus `ε`, scale, shift), and the leaky rectifier — `leaky_relu`'s six
    operations and the select of the `_where_0` it calls, in place of the call. -/
abbrev opsB0 : List (HloOp τ sig (Elt F)) :=
  [ StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.unary main_arg10 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)),
    StableHlo.binary main_v46 main_v48 main_v49 (subf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3727C5AC#32),
    StableHlo.unary main_cst_9 main_v50 (broadcastInDim S256 ![] bcast_S_S256 : (⟨S_, .f32⟩ : BufTy).Contents (Elt F) → (⟨S256, .f32⟩ : BufTy).Contents (Elt F)),
    StableHlo.binary main_arg11 main_v50 main_v51 (addf : (⟨S256, .f32⟩ : BufTy).Contents (Elt F) → (⟨S256, .f32⟩ : BufTy).Contents (Elt F) → (⟨S256, .f32⟩ : BufTy).Contents (Elt F)),
    StableHlo.unary main_v51 main_v52 (Host.rsqrt : (⟨S256, .f32⟩ : BufTy).Contents (Elt F) → (⟨S256, .f32⟩ : BufTy).Contents (Elt F)),
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v54 main_v55 (mulf : (⟨S50000x256, .f32⟩ : BufTy).Contents (Elt F) → (⟨S50000x256, .f32⟩ : BufTy).Contents (Elt F) → (⟨S50000x256, .f32⟩ : BufTy).Contents (Elt F)),
    StableHlo.unary main_arg8 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (mulf : (⟨S50000x256, .f32⟩ : BufTy).Contents (Elt F) → (⟨S50000x256, .f32⟩ : BufTy).Contents (Elt F) → (⟨S50000x256, .f32⟩ : BufTy).Contents (Elt F)),
    StableHlo.unary main_arg9 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v60 main_v61 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S50000x256 ![] bcast_S_S50000x256),
    StableHlo.TRef.binary (.of main_v61 : StableHlo.TRef sig ⟨S50000x256, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S50000x256 ![] bcast_S_S50000x256),
    StableHlo.TRef.binary main_call1.v3 (.of main_v61 : StableHlo.TRef sig ⟨S50000x256, .f32⟩) main_call1.v4 mulf,
    StableHlo.TRef.ternary main_call1.v1 (.of main_v61 : StableHlo.TRef sig ⟨S50000x256, .f32⟩) main_call1.v4 main_call1.call0.v0 select ]

/-- The second layer's dense product `%63 = %62 · %arg4`. -/
abbrev opsD1 : List (HloOp τ sig (Elt F)) :=
  [ StableHlo.binary main_v62 main_arg4 main_v63 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The second layer's message passing, `%c_11 … %76`. -/
abbrev opsP1 : List (HloOp τ sig (Elt F)) :=
  [ StableHlo.nullary main_c_11 (constantI S_ 32 0#32),
    StableHlo.unary main_c_11 main_v64 (broadcastInDim S850000 ![] bcast_S_S850000 : (⟨S_, .i32⟩ : BufTy).Contents (Elt F) → (⟨S850000, .i32⟩ : BufTy).Contents (Elt F)),
    StableHlo.binary main_v3 main_v64 main_v65 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v66 (broadcastInDim S850000 ![] bcast_S_S850000 : (⟨S_, .i32⟩ : BufTy).Contents (Elt F) → (⟨S850000, .i32⟩ : BufTy).Contents (Elt F)),
    StableHlo.binary main_v3 main_v66 main_v67 (addi : (⟨S850000, .i32⟩ : BufTy).Contents (Elt F) → (⟨S850000, .i32⟩ : BufTy).Contents (Elt F) → (⟨S850000, .i32⟩ : BufTy).Contents (Elt F)),
    StableHlo.ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v68 main_v69 (broadcastInDim S850000x1 ![0] bcast_S850000_S850000x1_0 : (⟨S850000, .i32⟩ : BufTy).Contents (Elt F) → (⟨S850000x1, .i32⟩ : BufTy).Contents (Elt F)),
    StableHlo.binary main_v63 main_v69 main_v70 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v71 (broadcastInDim S850000x1 ![0] bcast_S850000_S850000x1_0 : (⟨S850000, .f32⟩ : BufTy).Contents (Elt F) → (⟨S850000x1, .f32⟩ : BufTy).Contents (Elt F)),
    StableHlo.unary main_v71 main_v72 (broadcastInDim S850000x256 ![0, 1] bcast_S850000x1_S850000x256_0_1 : (⟨S850000x1, .f32⟩ : BufTy).Contents (Elt F) → (⟨S850000x256, .f32⟩ : BufTy).Contents (Elt F)),
    StableHlo.binary main_v70 main_v72 main_v73 (mulf : (⟨S850000x256, .f32⟩ : BufTy).Contents (Elt F) → (⟨S850000x256, .f32⟩ : BufTy).Contents (Elt F) → (⟨S850000x256, .f32⟩ : BufTy).Contents (Elt F)),
    StableHlo.nullary main_cst_13 (constant S_ .f32 0x00000000#32),
    StableHlo.unary main_cst_13 main_v74 (broadcastInDim S50000x256 ![] bcast_S_S50000x256 : (⟨S_, .f32⟩ : BufTy).Contents (Elt F) → (⟨S50000x256, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The second layer's pointwise tail, `%77 … %97`: the bias, the residual `%62` added, the batch normalisation, the leaky
    rectifier in place of its call (`%96`), and the sum `%97 = %62 + %96` the third layer reads. -/
abbrev opsB1 : List (HloOp τ sig (Elt F)) :=
  [ StableHlo.unary main_arg5 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v78 main_v79 (addf : (⟨S50000x256, .f32⟩ : BufTy).Contents (Elt F) → (⟨S50000x256, .f32⟩ : BufTy).Contents (Elt F) → (⟨S50000x256, .f32⟩ : BufTy).Contents (Elt F)),
    StableHlo.binary main_v79 main_v62 main_v80 (addf : (⟨S50000x256, .f32⟩ : BufTy).Contents (Elt F) → (⟨S50000x256, .f32⟩ : BufTy).Contents (Elt F) → (⟨S50000x256, .f32⟩ : BufTy).Contents (Elt F)),
    StableHlo.unary main_arg14 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S50000x256 ![0, 1] bcast_S1x256_S50000x256_0_1 : (⟨S1x256, .f32⟩ : BufTy).Contents (Elt F) → (⟨S50000x256, .f32⟩ : BufTy).Contents (Elt F)),
    StableHlo.binary main_v80 main_v82 main_v83 (subf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x3727C5AC#32),
    StableHlo.unary main_cst_14 main_v84 (broadcastInDim S256 ![] bcast_S_S256 : (⟨S_, .f32⟩ : BufTy).Contents (Elt F) → (⟨S256, .f32⟩ : BufTy).Contents (Elt F)),
    StableHlo.binary main_arg15 main_v84 main_v85 (addf : (⟨S256, .f32⟩ : BufTy).Contents (Elt F) → (⟨S256, .f32⟩ : BufTy).Contents (Elt F) → (⟨S256, .f32⟩ : BufTy).Contents (Elt F)),
    StableHlo.unary main_v85 main_v86 (Host.rsqrt : (⟨S256, .f32⟩ : BufTy).Contents (Elt F) → (⟨S256, .f32⟩ : BufTy).Contents (Elt F)),
    StableHlo.unary main_v86 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v88 main_v89 (mulf : (⟨S50000x256, .f32⟩ : BufTy).Contents (Elt F) → (⟨S50000x256, .f32⟩ : BufTy).Contents (Elt F) → (⟨S50000x256, .f32⟩ : BufTy).Contents (Elt F)),
    StableHlo.unary main_arg12 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S50000x256 ![0, 1] bcast_S1x256_S50000x256_0_1 : (⟨S1x256, .f32⟩ : BufTy).Contents (Elt F) → (⟨S50000x256, .f32⟩ : BufTy).Contents (Elt F)),
    StableHlo.binary main_v89 main_v91 main_v92 (mulf : (⟨S50000x256, .f32⟩ : BufTy).Contents (Elt F) → (⟨S50000x256, .f32⟩ : BufTy).Contents (Elt F) → (⟨S50000x256, .f32⟩ : BufTy).Contents (Elt F)),
    StableHlo.unary main_arg13 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3C23D70A#32),
    StableHlo.TRef.nullary main_call2.cst (constant S_ .f32 0x00000000#32),
    StableHlo.TRef.unary main_call2.cst main_call2.v0 (broadcastInDim S50000x256 ![] bcast_S_S50000x256),
    StableHlo.TRef.binary (.of main_v95 : StableHlo.TRef sig ⟨S50000x256, .f32⟩) main_call2.v0 main_call2.v1 (cmpf .oge),
    StableHlo.TRef.unary (.of main_cst_15 : StableHlo.TRef sig ⟨S_, .f32⟩) main_call2.v2 id,
    StableHlo.TRef.unary main_call2.v2 main_call2.v3 (broadcastInDim S50000x256 ![] bcast_S_S50000x256),
    StableHlo.TRef.binary main_call2.v3 (.of main_v95 : StableHlo.TRef sig ⟨S50000x256, .f32⟩) main_call2.v4 mulf,
    StableHlo.TRef.ternary main_call2.v1 (.of main_v95 : StableHlo.TRef sig ⟨S50000x256, .f32⟩) main_call2.v4 main_call2.call0.v0 select,
    StableHlo.binary main_v62 main_v96 main_v97 (addf : (⟨S50000x256, .f32⟩ : BufTy).Contents (Elt F) → (⟨S50000x256, .f32⟩ : BufTy).Contents (Elt F) → (⟨S50000x256, .f32⟩ : BufTy).Contents (Elt F)) ]

/-- The third layer's dense product `%98 = %97 · %arg6`. -/
abbrev opsD2 : List (HloOp τ sig (Elt F)) :=
  [ StableHlo.binary main_v97 main_arg6 main_v98 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The third layer's message passing, `%c_16 … %111`. -/
abbrev opsP2 : List (HloOp τ sig (Elt F)) :=
  [ StableHlo.nullary main_c_16 (constantI S_ 32 0#32),
    StableHlo.unary main_c_16 main_v99 (broadcastInDim S850000 ![] bcast_S_S850000 : (⟨S_, .i32⟩ : BufTy).Contents (Elt F) → (⟨S850000, .i32⟩ : BufTy).Contents (Elt F)),
    StableHlo.binary main_v3 main_v99 main_v100 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v101 (broadcastInDim S850000 ![] bcast_S_S850000 : (⟨S_, .i32⟩ : BufTy).Contents (Elt F) → (⟨S850000, .i32⟩ : BufTy).Contents (Elt F)),
    StableHlo.binary main_v3 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v98 main_v104 main_v105 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v106 (broadcastInDim S850000x1 ![0] bcast_S850000_S850000x1_0 : (⟨S850000, .f32⟩ : BufTy).Contents (Elt F) → (⟨S850000x1, .f32⟩ : BufTy).Contents (Elt F)),
    StableHlo.unary main_v106 main_v107 (broadcastInDim S850000x256 ![0, 1] bcast_S850000x1_S850000x256_0_1 : (⟨S850000x1, .f32⟩ : BufTy).Contents (Elt F) → (⟨S850000x256, .f32⟩ : BufTy).Contents (Elt F)),
    StableHlo.binary main_v105 main_v107 main_v108 (mulf : (⟨S850000x256, .f32⟩ : BufTy).Contents (Elt F) → (⟨S850000x256, .f32⟩ : BufTy).Contents (Elt F) → (⟨S850000x256, .f32⟩ : BufTy).Contents (Elt F)),
    StableHlo.nullary main_cst_18 (constant S_ .f32 0x00000000#32),
    StableHlo.unary main_cst_18 main_v109 (broadcastInDim S50000x256 ![] bcast_S_S50000x256 : (⟨S_, .f32⟩ : BufTy).Contents (Elt F) → (⟨S50000x256, .f32⟩ : BufTy).Contents (Elt F)),
    StableHlo.unary main_v6 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The third layer's bias: `%112 … %114`, the result. -/
abbrev opsT : List (HloOp τ sig (Elt F)) :=
  [ StableHlo.unary main_arg7 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (addf : (⟨S50000x256, .f32⟩ : BufTy).Contents (Elt F) → (⟨S50000x256, .f32⟩ : BufTy).Contents (Elt F) → (⟨S50000x256, .f32⟩ : BufTy).Contents (Elt F)) ]

/-- @main's 150 operations, in order. -/
abbrev ops : List (HloOp τ sig (Elt F)) :=
  opsA ++ opsD0 ++ opsP0 ++ opsB0 ++ opsD1 ++ opsP1 ++ opsB1 ++ opsD2 ++ opsP2 ++ opsT

/-! ## @main is that line

@main is printed as three consecutive windows. Each window is the line of its own operations (the calls unfolded),
and the three lines laid end to end are `ops`. -/

/-- The operations of @main's window 0, in order. -/
abbrev W0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.unary main_arg10 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)) ]

/-- The operations of @main's window 1, in order. -/
abbrev W1 : List (HloOp τ sig (Elt F)) :=
  [ StableHlo.binary main_v46 main_v48 main_v49 (subf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3727C5AC#32),
    StableHlo.unary main_cst_9 main_v50 (broadcastInDim S256 ![] bcast_S_S256 : (⟨S_, .f32⟩ : BufTy).Contents (Elt F) → (⟨S256, .f32⟩ : BufTy).Contents (Elt F)),
    StableHlo.binary main_arg11 main_v50 main_v51 (addf : (⟨S256, .f32⟩ : BufTy).Contents (Elt F) → (⟨S256, .f32⟩ : BufTy).Contents (Elt F) → (⟨S256, .f32⟩ : BufTy).Contents (Elt F)),
    StableHlo.unary main_v51 main_v52 (Host.rsqrt : (⟨S256, .f32⟩ : BufTy).Contents (Elt F) → (⟨S256, .f32⟩ : BufTy).Contents (Elt F)),
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v54 main_v55 (mulf : (⟨S50000x256, .f32⟩ : BufTy).Contents (Elt F) → (⟨S50000x256, .f32⟩ : BufTy).Contents (Elt F) → (⟨S50000x256, .f32⟩ : BufTy).Contents (Elt F)),
    StableHlo.unary main_arg8 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (mulf : (⟨S50000x256, .f32⟩ : BufTy).Contents (Elt F) → (⟨S50000x256, .f32⟩ : BufTy).Contents (Elt F) → (⟨S50000x256, .f32⟩ : BufTy).Contents (Elt F)),
    StableHlo.unary main_arg9 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v60 main_v61 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S50000x256 ![] bcast_S_S50000x256),
    StableHlo.TRef.binary (.of main_v61 : StableHlo.TRef sig ⟨S50000x256, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S50000x256 ![] bcast_S_S50000x256),
    StableHlo.TRef.binary main_call1.v3 (.of main_v61 : StableHlo.TRef sig ⟨S50000x256, .f32⟩) main_call1.v4 mulf,
    StableHlo.TRef.ternary main_call1.v1 (.of main_v61 : StableHlo.TRef sig ⟨S50000x256, .f32⟩) main_call1.v4 main_call1.call0.v0 select,
    StableHlo.binary main_v62 main_arg4 main_v63 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_11 (constantI S_ 32 0#32),
    StableHlo.unary main_c_11 main_v64 (broadcastInDim S850000 ![] bcast_S_S850000 : (⟨S_, .i32⟩ : BufTy).Contents (Elt F) → (⟨S850000, .i32⟩ : BufTy).Contents (Elt F)),
    StableHlo.binary main_v3 main_v64 main_v65 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v66 (broadcastInDim S850000 ![] bcast_S_S850000 : (⟨S_, .i32⟩ : BufTy).Contents (Elt F) → (⟨S850000, .i32⟩ : BufTy).Contents (Elt F)),
    StableHlo.binary main_v3 main_v66 main_v67 (addi : (⟨S850000, .i32⟩ : BufTy).Contents (Elt F) → (⟨S850000, .i32⟩ : BufTy).Contents (Elt F) → (⟨S850000, .i32⟩ : BufTy).Contents (Elt F)),
    StableHlo.ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v68 main_v69 (broadcastInDim S850000x1 ![0] bcast_S850000_S850000x1_0 : (⟨S850000, .i32⟩ : BufTy).Contents (Elt F) → (⟨S850000x1, .i32⟩ : BufTy).Contents (Elt F)),
    StableHlo.binary main_v63 main_v69 main_v70 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v71 (broadcastInDim S850000x1 ![0] bcast_S850000_S850000x1_0 : (⟨S850000, .f32⟩ : BufTy).Contents (Elt F) → (⟨S850000x1, .f32⟩ : BufTy).Contents (Elt F)),
    StableHlo.unary main_v71 main_v72 (broadcastInDim S850000x256 ![0, 1] bcast_S850000x1_S850000x256_0_1 : (⟨S850000x1, .f32⟩ : BufTy).Contents (Elt F) → (⟨S850000x256, .f32⟩ : BufTy).Contents (Elt F)),
    StableHlo.binary main_v70 main_v72 main_v73 (mulf : (⟨S850000x256, .f32⟩ : BufTy).Contents (Elt F) → (⟨S850000x256, .f32⟩ : BufTy).Contents (Elt F) → (⟨S850000x256, .f32⟩ : BufTy).Contents (Elt F)),
    StableHlo.nullary main_cst_13 (constant S_ .f32 0x00000000#32),
    StableHlo.unary main_cst_13 main_v74 (broadcastInDim S50000x256 ![] bcast_S_S50000x256 : (⟨S_, .f32⟩ : BufTy).Contents (Elt F) → (⟨S50000x256, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v78 main_v79 (addf : (⟨S50000x256, .f32⟩ : BufTy).Contents (Elt F) → (⟨S50000x256, .f32⟩ : BufTy).Contents (Elt F) → (⟨S50000x256, .f32⟩ : BufTy).Contents (Elt F)),
    StableHlo.binary main_v79 main_v62 main_v80 (addf : (⟨S50000x256, .f32⟩ : BufTy).Contents (Elt F) → (⟨S50000x256, .f32⟩ : BufTy).Contents (Elt F) → (⟨S50000x256, .f32⟩ : BufTy).Contents (Elt F)),
    StableHlo.unary main_arg14 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S50000x256 ![0, 1] bcast_S1x256_S50000x256_0_1 : (⟨S1x256, .f32⟩ : BufTy).Contents (Elt F) → (⟨S50000x256, .f32⟩ : BufTy).Contents (Elt F)),
    StableHlo.binary main_v80 main_v82 main_v83 (subf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x3727C5AC#32),
    StableHlo.unary main_cst_14 main_v84 (broadcastInDim S256 ![] bcast_S_S256 : (⟨S_, .f32⟩ : BufTy).Contents (Elt F) → (⟨S256, .f32⟩ : BufTy).Contents (Elt F)),
    StableHlo.binary main_arg15 main_v84 main_v85 (addf : (⟨S256, .f32⟩ : BufTy).Contents (Elt F) → (⟨S256, .f32⟩ : BufTy).Contents (Elt F) → (⟨S256, .f32⟩ : BufTy).Contents (Elt F)),
    StableHlo.unary main_v85 main_v86 (Host.rsqrt : (⟨S256, .f32⟩ : BufTy).Contents (Elt F) → (⟨S256, .f32⟩ : BufTy).Contents (Elt F)),
    StableHlo.unary main_v86 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v88 main_v89 (mulf : (⟨S50000x256, .f32⟩ : BufTy).Contents (Elt F) → (⟨S50000x256, .f32⟩ : BufTy).Contents (Elt F) → (⟨S50000x256, .f32⟩ : BufTy).Contents (Elt F)),
    StableHlo.unary main_arg12 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S50000x256 ![0, 1] bcast_S1x256_S50000x256_0_1 : (⟨S1x256, .f32⟩ : BufTy).Contents (Elt F) → (⟨S50000x256, .f32⟩ : BufTy).Contents (Elt F)),
    StableHlo.binary main_v89 main_v91 main_v92 (mulf : (⟨S50000x256, .f32⟩ : BufTy).Contents (Elt F) → (⟨S50000x256, .f32⟩ : BufTy).Contents (Elt F) → (⟨S50000x256, .f32⟩ : BufTy).Contents (Elt F)),
    StableHlo.unary main_arg13 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3C23D70A#32),
    StableHlo.TRef.nullary main_call2.cst (constant S_ .f32 0x00000000#32),
    StableHlo.TRef.unary main_call2.cst main_call2.v0 (broadcastInDim S50000x256 ![] bcast_S_S50000x256),
    StableHlo.TRef.binary (.of main_v95 : StableHlo.TRef sig ⟨S50000x256, .f32⟩) main_call2.v0 main_call2.v1 (cmpf .oge),
    StableHlo.TRef.unary (.of main_cst_15 : StableHlo.TRef sig ⟨S_, .f32⟩) main_call2.v2 id,
    StableHlo.TRef.unary main_call2.v2 main_call2.v3 (broadcastInDim S50000x256 ![] bcast_S_S50000x256),
    StableHlo.TRef.binary main_call2.v3 (.of main_v95 : StableHlo.TRef sig ⟨S50000x256, .f32⟩) main_call2.v4 mulf,
    StableHlo.TRef.ternary main_call2.v1 (.of main_v95 : StableHlo.TRef sig ⟨S50000x256, .f32⟩) main_call2.v4 main_call2.call0.v0 select,
    StableHlo.binary main_v62 main_v96 main_v97 (addf : (⟨S50000x256, .f32⟩ : BufTy).Contents (Elt F) → (⟨S50000x256, .f32⟩ : BufTy).Contents (Elt F) → (⟨S50000x256, .f32⟩ : BufTy).Contents (Elt F)),
    StableHlo.binary main_v97 main_arg6 main_v98 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_16 (constantI S_ 32 0#32),
    StableHlo.unary main_c_16 main_v99 (broadcastInDim S850000 ![] bcast_S_S850000 : (⟨S_, .i32⟩ : BufTy).Contents (Elt F) → (⟨S850000, .i32⟩ : BufTy).Contents (Elt F)),
    StableHlo.binary main_v3 main_v99 main_v100 (cmpi .slt : (⟨S850000, .i32⟩ : BufTy).Contents (Elt F) → (⟨S850000, .i32⟩ : BufTy).Contents (Elt F) → (⟨S850000, .i1⟩ : BufTy).Contents (Elt F)) ]

/-- The operations of @main's window 2, in order. -/
abbrev W2 : List (HloOp τ sig (Elt F)) :=
  [ StableHlo.nullary main_c_17 (constantI S_ 32 50000#32),
    StableHlo.unary main_c_17 main_v101 (broadcastInDim S850000 ![] bcast_S_S850000 : (⟨S_, .i32⟩ : BufTy).Contents (Elt F) → (⟨S850000, .i32⟩ : BufTy).Contents (Elt F)),
    StableHlo.binary main_v3 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v98 main_v104 main_v105 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v106 (broadcastInDim S850000x1 ![0] bcast_S850000_S850000x1_0 : (⟨S850000, .f32⟩ : BufTy).Contents (Elt F) → (⟨S850000x1, .f32⟩ : BufTy).Contents (Elt F)),
    StableHlo.unary main_v106 main_v107 (broadcastInDim S850000x256 ![0, 1] bcast_S850000x1_S850000x256_0_1 : (⟨S850000x1, .f32⟩ : BufTy).Contents (Elt F) → (⟨S850000x256, .f32⟩ : BufTy).Contents (Elt F)),
    StableHlo.binary main_v105 main_v107 main_v108 (mulf : (⟨S850000x256, .f32⟩ : BufTy).Contents (Elt F) → (⟨S850000x256, .f32⟩ : BufTy).Contents (Elt F) → (⟨S850000x256, .f32⟩ : BufTy).Contents (Elt F)),
    StableHlo.nullary main_cst_18 (constant S_ .f32 0x00000000#32),
    StableHlo.unary main_cst_18 main_v109 (broadcastInDim S50000x256 ![] bcast_S_S50000x256 : (⟨S_, .f32⟩ : BufTy).Contents (Elt F) → (⟨S50000x256, .f32⟩ : BufTy).Contents (Elt F)),
    StableHlo.unary main_v6 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
theorem main_part0_eq (c : Dev nD) : main_part0 (F := F) c = seq W0 := rfl

set_option maxRecDepth 8192 in
set_option maxHeartbeats 4000000 in
theorem main_part1_eq (c : Dev nD) : main_part1 (F := F) c = seq W1 := rfl

set_option maxRecDepth 8192 in
set_option maxHeartbeats 4000000 in
theorem main_part2_eq (c : Dev nD) : main_part2 (F := F) c = seq W2 := rfl

/-- The ten stretches laid end to end are the three windows laid end to end. -/
theorem ops_eq : (ops : List (HloOp τ sig (Elt F))) = W0 ++ (W1 ++ W2) := rfl

/-- @main is the line of its 150 operations. -/
theorem main_eq (c : Dev nD) : main (F := F) c = seq ops := by
  rw [ops_eq, seq_append, seq_append, ← main_part0_eq c, ← main_part1_eq c, ← main_part2_eq c]
  rfl

/-! ## Side conditions of the run

Every operation touches TensorCore references only, determines what it writes, and writes exactly its result buffer. -/

/-- A property of every operation of two lines holds of every operation of the two laid end to end. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- A result buffer listed in `W`, as a one-element set of device buffers, is among `W`'s. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The fold of two lines laid end to end is the second's fold over the first's. -/
theorem after_append (xs ys : List (HloOp τ sig (Elt F))) (V : Valuation τ sig (Elt F)) : after (xs ++ ys) V = after ys (after xs V) := by
  induction xs generalizing V with
  | nil => rfl
  | cons op xs ih => exact ih (op.result V)

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA_fresh : (opsA : List (HloOp τ sig (Elt F))).Forall fun op => op.fresh = ∅ := by
  simp only [List.Forall]; repeat' constructor
/-- The references `opsA`'s operations write. -/
abbrev opsA_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem opsA_writes : (opsA : List (HloOp τ sig (Elt F))).Forall fun op => op.writes ⊆ (opsA_W.map (Proc.devRef (τ := τ) .tc)).toFinset :=
  ⟨writes_sub_of_mem (y := main_v0) (by decide),
    writes_sub_of_mem (y := main_v1) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_cst) (by decide),
    writes_sub_of_mem (y := main_v7) (by decide),
    writes_sub_of_mem (y := main_cst_0) (by decide),
    writes_sub_of_mem (y := main_v8) (by decide),
    writes_sub_of_mem (y := main_v9) (by decide),
    writes_sub_of_mem (y := main_v10) (by decide),
    writes_sub_of_mem (y := main_cst_1) (by decide),
    writes_sub_of_mem (y := main_v11) (by decide),
    writes_sub_of_mem (y := main_v12) (by decide),
    writes_sub_of_mem (y := main_v13) (by decide),
    writes_sub_of_mem (y := main_cst_2) (by decide),
    writes_sub_of_mem (y := main_call0_v0) (by decide),
    writes_sub_of_mem (y := main_call0_v1) (by decide),
    writes_sub_of_mem (y := main_v14) (by decide),
    writes_sub_of_mem (y := main_c) (by decide),
    writes_sub_of_mem (y := main_v15) (by decide),
    writes_sub_of_mem (y := main_v16) (by decide),
    writes_sub_of_mem (y := main_c_3) (by decide),
    writes_sub_of_mem (y := main_v17) (by decide),
    writes_sub_of_mem (y := main_v18) (by decide),
    writes_sub_of_mem (y := main_v19) (by decide),
    writes_sub_of_mem (y := main_v20) (by decide),
    writes_sub_of_mem (y := main_v21) (by decide),
    writes_sub_of_mem (y := main_c_4) (by decide),
    writes_sub_of_mem (y := main_v22) (by decide),
    writes_sub_of_mem (y := main_v23) (by decide),
    writes_sub_of_mem (y := main_c_5) (by decide),
    writes_sub_of_mem (y := main_v24) (by decide),
    writes_sub_of_mem (y := main_v25) (by decide),
    writes_sub_of_mem (y := main_v26) (by decide),
    writes_sub_of_mem (y := main_v27) (by decide),
    writes_sub_of_mem (y := main_v28) (by decide),
    writes_sub_of_mem (y := main_v29) (by decide)⟩

theorem opsD0_sub : (opsD0 : List (HloOp τ sig (Elt F))).Forall fun op => op.bufs ⊆ tcRefs τ sig :=
  binary_bufs_sub ..
theorem opsD0_fresh : (opsD0 : List (HloOp τ sig (Elt F))).Forall fun op => op.fresh = ∅ := by
  simp only [List.Forall]; repeat' constructor
/-- The references `opsD0`'s operations write. -/
abbrev opsD0_W : List (Ref sig .tc) := [main_v30]
theorem opsD0_writes : (opsD0 : List (HloOp τ sig (Elt F))).Forall fun op => op.writes ⊆ (opsD0_W.map (Proc.devRef (τ := τ) .tc)).toFinset :=
  writes_sub_of_mem (y := main_v30) (by decide)

theorem opsP0_sub : (opsP0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsP0_fresh : (opsP0 : List (HloOp τ sig (Elt F))).Forall fun op => op.fresh = ∅ := by
  simp only [List.Forall]; repeat' constructor
/-- The references `opsP0`'s operations write. -/
abbrev opsP0_W : List (Ref sig .tc) := [main_c_6, main_v31, main_v32, main_c_7, main_v33, main_v34, main_v35, main_v36, main_v37, main_v38, main_v39, main_v40, main_cst_8, main_v41, main_v42, main_v43]
theorem opsP0_writes : (opsP0 : List (HloOp τ sig (Elt F))).Forall fun op => op.writes ⊆ (opsP0_W.map (Proc.devRef (τ := τ) .tc)).toFinset :=
  ⟨writes_sub_of_mem (y := main_c_6) (by decide),
    writes_sub_of_mem (y := main_v31) (by decide),
    writes_sub_of_mem (y := main_v32) (by decide),
    writes_sub_of_mem (y := main_c_7) (by decide),
    writes_sub_of_mem (y := main_v33) (by decide),
    writes_sub_of_mem (y := main_v34) (by decide),
    writes_sub_of_mem (y := main_v35) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_cst_8) (by decide),
    writes_sub_of_mem (y := main_v41) (by decide),
    writes_sub_of_mem (y := main_v42) (by decide),
    writes_sub_of_mem (y := main_v43) (by decide)⟩

theorem opsB0_sub : (opsB0 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsB0_fresh : (opsB0 : List (HloOp τ sig (Elt F))).Forall fun op => op.fresh = ∅ := by
  simp only [List.Forall]; repeat' constructor
/-- The references `opsB0`'s operations write. -/
abbrev opsB0_W : List (Ref sig .tc) := [main_v44, main_v45, main_v46, main_v47, main_v48, main_v49, main_cst_9, main_v50, main_v51, main_v52, main_v53, main_v54, main_v55, main_v56, main_v57, main_v58, main_v59, main_v60, main_v61, main_cst_10, main_call1_cst, main_call1_v0, main_call1_v1, main_call1_v2, main_call1_v3, main_call1_v4, main_v62]
theorem opsB0_writes : (opsB0 : List (HloOp τ sig (Elt F))).Forall fun op => op.writes ⊆ (opsB0_W.map (Proc.devRef (τ := τ) .tc)).toFinset :=
  ⟨writes_sub_of_mem (y := main_v44) (by decide),
    writes_sub_of_mem (y := main_v45) (by decide),
    writes_sub_of_mem (y := main_v46) (by decide),
    writes_sub_of_mem (y := main_v47) (by decide),
    writes_sub_of_mem (y := main_v48) (by decide),
    writes_sub_of_mem (y := main_v49) (by decide),
    writes_sub_of_mem (y := main_cst_9) (by decide),
    writes_sub_of_mem (y := main_v50) (by decide),
    writes_sub_of_mem (y := main_v51) (by decide),
    writes_sub_of_mem (y := main_v52) (by decide),
    writes_sub_of_mem (y := main_v53) (by decide),
    writes_sub_of_mem (y := main_v54) (by decide),
    writes_sub_of_mem (y := main_v55) (by decide),
    writes_sub_of_mem (y := main_v56) (by decide),
    writes_sub_of_mem (y := main_v57) (by decide),
    writes_sub_of_mem (y := main_v58) (by decide),
    writes_sub_of_mem (y := main_v59) (by decide),
    writes_sub_of_mem (y := main_v60) (by decide),
    writes_sub_of_mem (y := main_v61) (by decide),
    writes_sub_of_mem (y := main_cst_10) (by decide),
    writes_sub_of_mem (y := main_call1_cst) (by decide),
    writes_sub_of_mem (y := main_call1_v0) (by decide),
    writes_sub_of_mem (y := main_call1_v1) (by decide),
    writes_sub_of_mem (y := main_call1_v2) (by decide),
    writes_sub_of_mem (y := main_call1_v3) (by decide),
    writes_sub_of_mem (y := main_call1_v4) (by decide),
    writes_sub_of_mem (y := main_v62) (by decide)⟩

theorem opsD1_sub : (opsD1 : List (HloOp τ sig (Elt F))).Forall fun op => op.bufs ⊆ tcRefs τ sig :=
  binary_bufs_sub ..
theorem opsD1_fresh : (opsD1 : List (HloOp τ sig (Elt F))).Forall fun op => op.fresh = ∅ := by
  simp only [List.Forall]; repeat' constructor
/-- The references `opsD1`'s operations write. -/
abbrev opsD1_W : List (Ref sig .tc) := [main_v63]
theorem opsD1_writes : (opsD1 : List (HloOp τ sig (Elt F))).Forall fun op => op.writes ⊆ (opsD1_W.map (Proc.devRef (τ := τ) .tc)).toFinset :=
  writes_sub_of_mem (y := main_v63) (by decide)

theorem opsP1_sub : (opsP1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsP1_fresh : (opsP1 : List (HloOp τ sig (Elt F))).Forall fun op => op.fresh = ∅ := by
  simp only [List.Forall]; repeat' constructor
/-- The references `opsP1`'s operations write. -/
abbrev opsP1_W : List (Ref sig .tc) := [main_c_11, main_v64, main_v65, main_c_12, main_v66, main_v67, main_v68, main_v69, main_v70, main_v71, main_v72, main_v73, main_cst_13, main_v74, main_v75, main_v76]
theorem opsP1_writes : (opsP1 : List (HloOp τ sig (Elt F))).Forall fun op => op.writes ⊆ (opsP1_W.map (Proc.devRef (τ := τ) .tc)).toFinset :=
  ⟨writes_sub_of_mem (y := main_c_11) (by decide),
    writes_sub_of_mem (y := main_v64) (by decide),
    writes_sub_of_mem (y := main_v65) (by decide),
    writes_sub_of_mem (y := main_c_12) (by decide),
    writes_sub_of_mem (y := main_v66) (by decide),
    writes_sub_of_mem (y := main_v67) (by decide),
    writes_sub_of_mem (y := main_v68) (by decide),
    writes_sub_of_mem (y := main_v69) (by decide),
    writes_sub_of_mem (y := main_v70) (by decide),
    writes_sub_of_mem (y := main_v71) (by decide),
    writes_sub_of_mem (y := main_v72) (by decide),
    writes_sub_of_mem (y := main_v73) (by decide),
    writes_sub_of_mem (y := main_cst_13) (by decide),
    writes_sub_of_mem (y := main_v74) (by decide),
    writes_sub_of_mem (y := main_v75) (by decide),
    writes_sub_of_mem (y := main_v76) (by decide)⟩

theorem opsB1_sub : (opsB1 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩
theorem opsB1_fresh : (opsB1 : List (HloOp τ sig (Elt F))).Forall fun op => op.fresh = ∅ := by
  simp only [List.Forall]; repeat' constructor
/-- The references `opsB1`'s operations write. -/
abbrev opsB1_W : List (Ref sig .tc) := [main_v77, main_v78, main_v79, main_v80, main_v81, main_v82, main_v83, main_cst_14, main_v84, main_v85, main_v86, main_v87, main_v88, main_v89, main_v90, main_v91, main_v92, main_v93, main_v94, main_v95, main_cst_15, main_call2_cst, main_call2_v0, main_call2_v1, main_call2_v2, main_call2_v3, main_call2_v4, main_v96, main_v97]
theorem opsB1_writes : (opsB1 : List (HloOp τ sig (Elt F))).Forall fun op => op.writes ⊆ (opsB1_W.map (Proc.devRef (τ := τ) .tc)).toFinset :=
  ⟨writes_sub_of_mem (y := main_v77) (by decide),
    writes_sub_of_mem (y := main_v78) (by decide),
    writes_sub_of_mem (y := main_v79) (by decide),
    writes_sub_of_mem (y := main_v80) (by decide),
    writes_sub_of_mem (y := main_v81) (by decide),
    writes_sub_of_mem (y := main_v82) (by decide),
    writes_sub_of_mem (y := main_v83) (by decide),
    writes_sub_of_mem (y := main_cst_14) (by decide),
    writes_sub_of_mem (y := main_v84) (by decide),
    writes_sub_of_mem (y := main_v85) (by decide),
    writes_sub_of_mem (y := main_v86) (by decide),
    writes_sub_of_mem (y := main_v87) (by decide),
    writes_sub_of_mem (y := main_v88) (by decide),
    writes_sub_of_mem (y := main_v89) (by decide),
    writes_sub_of_mem (y := main_v90) (by decide),
    writes_sub_of_mem (y := main_v91) (by decide),
    writes_sub_of_mem (y := main_v92) (by decide),
    writes_sub_of_mem (y := main_v93) (by decide),
    writes_sub_of_mem (y := main_v94) (by decide),
    writes_sub_of_mem (y := main_v95) (by decide),
    writes_sub_of_mem (y := main_cst_15) (by decide),
    writes_sub_of_mem (y := main_call2_cst) (by decide),
    writes_sub_of_mem (y := main_call2_v0) (by decide),
    writes_sub_of_mem (y := main_call2_v1) (by decide),
    writes_sub_of_mem (y := main_call2_v2) (by decide),
    writes_sub_of_mem (y := main_call2_v3) (by decide),
    writes_sub_of_mem (y := main_call2_v4) (by decide),
    writes_sub_of_mem (y := main_v96) (by decide),
    writes_sub_of_mem (y := main_v97) (by decide)⟩

theorem opsD2_sub : (opsD2 : List (HloOp τ sig (Elt F))).Forall fun op => op.bufs ⊆ tcRefs τ sig :=
  binary_bufs_sub ..
theorem opsD2_fresh : (opsD2 : List (HloOp τ sig (Elt F))).Forall fun op => op.fresh = ∅ := by
  simp only [List.Forall]; repeat' constructor
/-- The references `opsD2`'s operations write. -/
abbrev opsD2_W : List (Ref sig .tc) := [main_v98]
theorem opsD2_writes : (opsD2 : List (HloOp τ sig (Elt F))).Forall fun op => op.writes ⊆ (opsD2_W.map (Proc.devRef (τ := τ) .tc)).toFinset :=
  writes_sub_of_mem (y := main_v98) (by decide)

theorem opsP2_sub : (opsP2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsP2_fresh : (opsP2 : List (HloOp τ sig (Elt F))).Forall fun op => op.fresh = ∅ := by
  simp only [List.Forall]; repeat' constructor
/-- The references `opsP2`'s operations write. -/
abbrev opsP2_W : List (Ref sig .tc) := [main_c_16, main_v99, main_v100, main_c_17, main_v101, main_v102, main_v103, main_v104, main_v105, main_v106, main_v107, main_v108, main_cst_18, main_v109, main_v110, main_v111]
theorem opsP2_writes : (opsP2 : List (HloOp τ sig (Elt F))).Forall fun op => op.writes ⊆ (opsP2_W.map (Proc.devRef (τ := τ) .tc)).toFinset :=
  ⟨writes_sub_of_mem (y := main_c_16) (by decide),
    writes_sub_of_mem (y := main_v99) (by decide),
    writes_sub_of_mem (y := main_v100) (by decide),
    writes_sub_of_mem (y := main_c_17) (by decide),
    writes_sub_of_mem (y := main_v101) (by decide),
    writes_sub_of_mem (y := main_v102) (by decide),
    writes_sub_of_mem (y := main_v103) (by decide),
    writes_sub_of_mem (y := main_v104) (by decide),
    writes_sub_of_mem (y := main_v105) (by decide),
    writes_sub_of_mem (y := main_v106) (by decide),
    writes_sub_of_mem (y := main_v107) (by decide),
    writes_sub_of_mem (y := main_v108) (by decide),
    writes_sub_of_mem (y := main_cst_18) (by decide),
    writes_sub_of_mem (y := main_v109) (by decide),
    writes_sub_of_mem (y := main_v110) (by decide),
    writes_sub_of_mem (y := main_v111) (by decide)⟩

theorem opsT_sub : (opsT : List (HloOp τ sig (Elt F))).Forall fun op => op.bufs ⊆ tcRefs τ sig :=
  ⟨unary_bufs_sub .., unary_bufs_sub .., binary_bufs_sub ..⟩
theorem opsT_fresh : (opsT : List (HloOp τ sig (Elt F))).Forall fun op => op.fresh = ∅ := by
  simp only [List.Forall]; repeat' constructor
/-- The references `opsT`'s operations write. -/
abbrev opsT_W : List (Ref sig .tc) := [main_v112, main_v113, main_v114]
theorem opsT_writes : (opsT : List (HloOp τ sig (Elt F))).Forall fun op => op.writes ⊆ (opsT_W.map (Proc.devRef (τ := τ) .tc)).toFinset :=
  ⟨writes_sub_of_mem (y := main_v112) (by decide),
    writes_sub_of_mem (y := main_v113) (by decide),
    writes_sub_of_mem (y := main_v114) (by decide)⟩

theorem ops_sub : (ops : List (HloOp τ sig (Elt F))).Forall fun op => op.bufs ⊆ tcRefs τ sig :=
  forall_append (forall_append (forall_append (forall_append (forall_append (forall_append (forall_append (forall_append (forall_append (opsA_sub) opsD0_sub) opsP0_sub) opsB0_sub) opsD1_sub) opsP1_sub) opsB1_sub) opsD2_sub) opsP2_sub) opsT_sub
theorem ops_fresh : (ops : List (HloOp τ sig (Elt F))).Forall fun op => op.fresh = ∅ :=
  forall_append (forall_append (forall_append (forall_append (forall_append (forall_append (forall_append (forall_append (forall_append (opsA_fresh) opsD0_fresh) opsP0_fresh) opsB0_fresh) opsD1_fresh) opsP1_fresh) opsB1_fresh) opsD2_fresh) opsP2_fresh) opsT_fresh

/-- The fold of the whole line, stretch by stretch. -/
theorem after_ops (V : Valuation τ sig (Elt F)) :
    after ops V = after opsT (after opsP2 (after opsD2 (after opsB1 (after opsP1 (after opsD1 (after opsB0 (after opsP0 (after opsD0 (after opsA (V)))))))))) := by
  simp only [ops, after_append]

/-- Every reference the line writes: the stretches' lists laid end to end. -/
abbrev ops_W : List (Ref sig .tc) := opsA_W ++ opsD0_W ++ opsP0_W ++ opsB0_W ++ opsD1_W ++ opsP1_W ++ opsB1_W ++ opsD2_W ++ opsP2_W ++ opsT_W

/-- A reference no operation writes holds after the whole line what it held before. -/
theorem after_ops_of_not_mem (V : Valuation τ sig (Elt F)) {r : Ref sig .tc} (h : r ∉ ops_W) :
    after ops V (Proc.devRef .tc r) = V (Proc.devRef .tc r) := by
  have hs : r ∉ opsA_W ∧ r ∉ opsD0_W ∧ r ∉ opsP0_W ∧ r ∉ opsB0_W ∧ r ∉ opsD1_W ∧ r ∉ opsP1_W ∧ r ∉ opsB1_W ∧ r ∉ opsD2_W ∧ r ∉ opsP2_W ∧ r ∉ opsT_W := by
    simpa only [ops_W, List.mem_append, not_or, and_assoc] using h
  obtain ⟨hA, hD0, hP0, hB0, hD1, hP1, hB1, hD2, hP2, hT⟩ := hs
  rw [after_ops]
  exact (after_of_writes_sub opsT _ opsT_writes hT).trans <|
    (after_of_writes_sub opsP2 _ opsP2_writes hP2).trans <|
    (after_of_writes_sub opsD2 _ opsD2_writes hD2).trans <|
    (after_of_writes_sub opsB1 _ opsB1_writes hB1).trans <|
    (after_of_writes_sub opsP1 _ opsP1_writes hP1).trans <|
    (after_of_writes_sub opsD1 _ opsD1_writes hD1).trans <|
    (after_of_writes_sub opsB0 _ opsB0_writes hB0).trans <|
    (after_of_writes_sub opsP0 _ opsP0_writes hP0).trans <|
    (after_of_writes_sub opsD0 _ opsD0_writes hD0).trans <|
    (after_of_writes_sub opsA _ opsA_writes hA)

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ
    (fun _ op h => List.forall_iff_forall_mem.mp ops_fresh op h)

/-- The reference runs, and its sixteen argument arrays end holding their launch contents: none of them is among the
    references the line writes. -/
theorem frame_ri [Cert.Pre_finite_inputs.Facts] : Cert.frame_ReferenceIdeal := by
  intro m g _
  refine (θ_run _ _ _).mono (fun _ h c => ?_) (run_all (F := Ideal) m g)
  exact ⟨(h c main_arg0).trans (after_ops_of_not_mem _ (by decide)),
    (h c main_arg1).trans (after_ops_of_not_mem _ (by decide)),
    (h c main_arg2).trans (after_ops_of_not_mem _ (by decide)),
    (h c main_arg3).trans (after_ops_of_not_mem _ (by decide)),
    (h c main_arg4).trans (after_ops_of_not_mem _ (by decide)),
    (h c main_arg5).trans (after_ops_of_not_mem _ (by decide)),
    (h c main_arg6).trans (after_ops_of_not_mem _ (by decide)),
    (h c main_arg7).trans (after_ops_of_not_mem _ (by decide)),
    (h c main_arg8).trans (after_ops_of_not_mem _ (by decide)),
    (h c main_arg9).trans (after_ops_of_not_mem _ (by decide)),
    (h c main_arg10).trans (after_ops_of_not_mem _ (by decide)),
    (h c main_arg11).trans (after_ops_of_not_mem _ (by decide)),
    (h c main_arg12).trans (after_ops_of_not_mem _ (by decide)),
    (h c main_arg13).trans (after_ops_of_not_mem _ (by decide)),
    (h c main_arg14).trans (after_ops_of_not_mem _ (by decide)),
    (h c main_arg15).trans (after_ops_of_not_mem _ (by decide))⟩

end Cert.ReferenceIdeal.HandRun

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.RefBnValue.lean ====
/-
  The reference's normalisation and activation, read at one entry, on the extended reals.

  The reference lays each [256] parameter out as one row and repeats it down the 50000 rows, adds the bias (and, in the
  second layer, the previous layer's output), subtracts the running mean, multiplies by the reciprocal square root of
  the running variance plus eps, scales, shifts, and applies the activation  y if y >= 0, else slope * y.
  At entry (i, q) this is the same function of the entries as the kernels': only the activation is written
  differently, and the two writings agree on all of the extended reals.
-/
import proofs.«122691_j4398046511761_1_alg».proof.ReferenceIdeal
import proofs.«122691_j4398046511761_1_alg».proof.Proof.BnValue
import proofs.«122691_j4398046511761_1_alg».proof.Proof.LibRowBroadcast
import Idealize.ShloMosaic.Lib.IdealHost

noncomputable section

namespace Cert.Bridge

open Idealize.ShloMosaic Idealize.ShloMosaic.ValueIdx
open Cert.ReferenceIdeal Cert.ReferenceIdeal.Facts₀

variable [Cert.ReferenceIdeal.Facts₀]

/-- The host's reciprocal square root at an index is the extended reals' one of the element. -/
theorem hostRsqrt_apply {s : Shape} {φ : FTy} (a : FVec Ideal s φ) (i : s.Idx) : Host.rsqrt a i = Ideal.rsqrt (a i) := rfl

/-- A [256] parameter laid out as one row and repeated down the 50000 rows, read at (i, q), is its entry q. -/
theorem rows_apply (v : FVec Ideal S256 .f32) (i : Fin 50000) (q : Fin 256) :
    broadcastInDim S50000x256 ![0, 1] bcast_S1x256_S50000x256_0_1 (broadcastInDim S1x256 ![1] bcast_S256_S1x256_1 v) (ix2 i q)
      = v (ix1 q) :=
  RowBroadcast.rowsOf_apply v bcast_S256_S1x256_1 bcast_S1x256_S50000x256_0_1 i q

/-- A float literal spread over the [50000, 256] array reads the literal everywhere. -/
theorem splat_apply (w : BitVec 32) (j : S50000x256.Idx) :
    broadcastInDim S50000x256 ![] bcast_S_S50000x256 (constant (F := Ideal) S_ .f32 w) j = Ideal.ofBits .f32 w :=
  broadcastInDim_scalar_apply bcast_S_S50000x256 (constant (F := Ideal) S_ .f32 w) j

/-- A float literal spread over a [256] vector reads the literal everywhere. -/
theorem splat256_apply (w : BitVec 32) (j : S256.Idx) :
    broadcastInDim S256 ![] bcast_S_S256 (constant (F := Ideal) S_ .f32 w) j = Ideal.ofBits .f32 w :=
  broadcastInDim_scalar_apply bcast_S_S256 (constant (F := Ideal) S_ .f32 w) j

/-- The first layer's normalisation and activation, as the reference composes it: agg the aggregated messages,
    b the bias, rm and rv the running mean and variance, g and bt the scale and shift. -/
def refBn0 (agg : FVec Ideal S50000x256 .f32) (b rm rv g bt : FVec Ideal S256 .f32) : FVec Ideal S50000x256 .f32 :=
  have v44 : FVec Ideal S1x256 .f32 := broadcastInDim S1x256 ![1] bcast_S256_S1x256_1 b
  have v45 : FVec Ideal S50000x256 .f32 := broadcastInDim S50000x256 ![0, 1] bcast_S1x256_S50000x256_0_1 v44
  have v46 : FVec Ideal S50000x256 .f32 := addf agg v45
  have v47 : FVec Ideal S1x256 .f32 := broadcastInDim S1x256 ![1] bcast_S256_S1x256_1 rm
  have v48 : FVec Ideal S50000x256 .f32 := broadcastInDim S50000x256 ![0, 1] bcast_S1x256_S50000x256_0_1 v47
  have v49 : FVec Ideal S50000x256 .f32 := subf v46 v48
  have cst_9 : FVec Ideal S_ .f32 := constant S_ .f32 0x3727C5AC#32
  have v50 : FVec Ideal S256 .f32 := broadcastInDim S256 ![] bcast_S_S256 cst_9
  have v51 : FVec Ideal S256 .f32 := addf rv v50
  have v52 : FVec Ideal S256 .f32 := Host.rsqrt v51
  have v53 : FVec Ideal S1x256 .f32 := broadcastInDim S1x256 ![1] bcast_S256_S1x256_1 v52
  have v54 : FVec Ideal S50000x256 .f32 := broadcastInDim S50000x256 ![0, 1] bcast_S1x256_S50000x256_0_1 v53
  have v55 : FVec Ideal S50000x256 .f32 := mulf v49 v54
  have v56 : FVec Ideal S1x256 .f32 := broadcastInDim S1x256 ![1] bcast_S256_S1x256_1 g
  have v57 : FVec Ideal S50000x256 .f32 := broadcastInDim S50000x256 ![0, 1] bcast_S1x256_S50000x256_0_1 v56
  have v58 : FVec Ideal S50000x256 .f32 := mulf v55 v57
  have v59 : FVec Ideal S1x256 .f32 := broadcastInDim S1x256 ![1] bcast_S256_S1x256_1 bt
  have v60 : FVec Ideal S50000x256 .f32 := broadcastInDim S50000x256 ![0, 1] bcast_S1x256_S50000x256_0_1 v59
  have v61 : FVec Ideal S50000x256 .f32 := addf v58 v60
  have cst_10 : FVec Ideal S_ .f32 := constant S_ .f32 0x3C23D70A#32
  -- the activation: its zero, the comparison, the slope laid out, the product, the selection
  have l_cst : FVec Ideal S_ .f32 := constant S_ .f32 0x00000000#32
  have l0 : FVec Ideal S50000x256 .f32 := broadcastInDim S50000x256 ![] bcast_S_S50000x256 l_cst
  have l1 : IVec S50000x256 1 := cmpf .oge v61 l0
  have l2 : FVec Ideal S_ .f32 := id cst_10
  have l3 : FVec Ideal S50000x256 .f32 := broadcastInDim S50000x256 ![] bcast_S_S50000x256 l2
  have l4 : FVec Ideal S50000x256 .f32 := mulf l3 v61
  select l1 v61 l4

/-- The first layer's normalisation and activation at entry (i, q). -/
theorem refBn0_apply (agg : FVec Ideal S50000x256 .f32) (b rm rv g bt : FVec Ideal S256 .f32) (i : Fin 50000) (q : Fin 256) :
    refBn0 agg b rm rv g bt (ix2 i q)
      = bnAct (agg (ix2 i q)) (b (ix1 q)) (rm (ix1 q)) (rv (ix1 q)) (g (ix1 q)) (bt (ix1 q)) := by
  unfold refBn0
  simp only [select_apply, cmpf_apply, mulf_apply, addf_apply, subf_apply, id]
  rw [rows_apply, rows_apply, rows_apply, rows_apply, rows_apply, splat_apply, splat_apply, hostRsqrt_apply, addf_apply,
    splat256_apply]
  exact lrelu_of_ge _

/-- The second layer's, as the reference composes it: the same with the previous layer's output h added after the
    bias. -/
def refBn1 (agg h : FVec Ideal S50000x256 .f32) (b rm rv g bt : FVec Ideal S256 .f32) : FVec Ideal S50000x256 .f32 :=
  have v77 : FVec Ideal S1x256 .f32 := broadcastInDim S1x256 ![1] bcast_S256_S1x256_1 b
  have v78 : FVec Ideal S50000x256 .f32 := broadcastInDim S50000x256 ![0, 1] bcast_S1x256_S50000x256_0_1 v77
  have v79 : FVec Ideal S50000x256 .f32 := addf agg v78
  have v80 : FVec Ideal S50000x256 .f32 := addf v79 h
  have v81 : FVec Ideal S1x256 .f32 := broadcastInDim S1x256 ![1] bcast_S256_S1x256_1 rm
  have v82 : FVec Ideal S50000x256 .f32 := broadcastInDim S50000x256 ![0, 1] bcast_S1x256_S50000x256_0_1 v81
  have v83 : FVec Ideal S50000x256 .f32 := subf v80 v82
  have cst_14 : FVec Ideal S_ .f32 := constant S_ .f32 0x3727C5AC#32
  have v84 : FVec Ideal S256 .f32 := broadcastInDim S256 ![] bcast_S_S256 cst_14
  have v85 : FVec Ideal S256 .f32 := addf rv v84
  have v86 : FVec Ideal S256 .f32 := Host.rsqrt v85
  have v87 : FVec Ideal S1x256 .f32 := broadcastInDim S1x256 ![1] bcast_S256_S1x256_1 v86
  have v88 : FVec Ideal S50000x256 .f32 := broadcastInDim S50000x256 ![0, 1] bcast_S1x256_S50000x256_0_1 v87
  have v89 : FVec Ideal S50000x256 .f32 := mulf v83 v88
  have v90 : FVec Ideal S1x256 .f32 := broadcastInDim S1x256 ![1] bcast_S256_S1x256_1 g
  have v91 : FVec Ideal S50000x256 .f32 := broadcastInDim S50000x256 ![0, 1] bcast_S1x256_S50000x256_0_1 v90
  have v92 : FVec Ideal S50000x256 .f32 := mulf v89 v91
  have v93 : FVec Ideal S1x256 .f32 := broadcastInDim S1x256 ![1] bcast_S256_S1x256_1 bt
  have v94 : FVec Ideal S50000x256 .f32 := broadcastInDim S50000x256 ![0, 1] bcast_S1x256_S50000x256_0_1 v93
  have v95 : FVec Ideal S50000x256 .f32 := addf v92 v94
  have cst_15 : FVec Ideal S_ .f32 := constant S_ .f32 0x3C23D70A#32
  have l_cst : FVec Ideal S_ .f32 := constant S_ .f32 0x00000000#32
  have l0 : FVec Ideal S50000x256 .f32 := broadcastInDim S50000x256 ![] bcast_S_S50000x256 l_cst
  have l1 : IVec S50000x256 1 := cmpf .oge v95 l0
  have l2 : FVec Ideal S_ .f32 := id cst_15
  have l3 : FVec Ideal S50000x256 .f32 := broadcastInDim S50000x256 ![] bcast_S_S50000x256 l2
  have l4 : FVec Ideal S50000x256 .f32 := mulf l3 v95
  select l1 v95 l4

/-- The second layer's normalisation and activation at entry (i, q). -/
theorem refBn1_apply (agg h : FVec Ideal S50000x256 .f32) (b rm rv g bt : FVec Ideal S256 .f32) (i : Fin 50000) (q : Fin 256) :
    refBn1 agg h b rm rv g bt (ix2 i q)
      = bnRes (agg (ix2 i q)) (b (ix1 q)) (h (ix2 i q)) (rm (ix1 q)) (rv (ix1 q)) (g (ix1 q)) (bt (ix1 q)) := by
  unfold refBn1
  simp only [select_apply, cmpf_apply, mulf_apply, addf_apply, subf_apply, id]
  rw [rows_apply, rows_apply, rows_apply, rows_apply, rows_apply, splat_apply, splat_apply, hostRsqrt_apply, addf_apply,
    splat256_apply]
  exact lrelu_of_ge _

end Cert.Bridge

end
-- ==== Proof.RefStages.lean ====
/- The reference program's values, stretch by stretch, and its result as one term of the arguments.

   Each stretch of the reference's line of operations computes one array from a few earlier ones: the edge lists and
   weights from the edge table; per layer the dense product, the message passing and the pointwise tail. For any contents
   of the buffers, each stretch's fold holds the corresponding shared function's value at its result buffer; a buffer a
   stretch does not write passes through it unchanged; so the last result is one composed term of the sixteen arguments. -/
import proofs.«122691_j4398046511761_1_alg».proof.Proof.RefRun
import proofs.«122691_j4398046511761_1_alg».proof.Proof.Glue
import proofs.«122691_j4398046511761_1_alg».proof.Proof.RefBnValue

noncomputable section

namespace Cert.Bridge

open Idealize.ShloMosaic
open Cert.ReferenceIdeal Cert.ReferenceIdeal.Facts₀

variable [Cert.ReferenceIdeal.Facts₀]

/-- The first layer's output from the graph and the layer's parameters. -/
def refH1 (s d : (⟨S850000, .i32⟩ : BufTy).Contents (Elt Ideal)) (n : FVec Ideal S850000 .f32)
    (x : FVec Ideal S50000x512 .f32) (w0 : FVec Ideal S512x256 .f32) (b0 rm0 rv0 g0 bt0 : FVec Ideal S256 .f32) : FVec Ideal S50000x256 .f32 :=
  refBn0 (propagate s d n (dot512 x w0)) b0 rm0 rv0 g0 bt0

/-- The second layer's activation from the first layer's output `h`. -/
def refH2 (s d : (⟨S850000, .i32⟩ : BufTy).Contents (Elt Ideal)) (n : FVec Ideal S850000 .f32)
    (h : FVec Ideal S50000x256 .f32) (w1 : FVec Ideal S256x256 .f32) (b1 rm1 rv1 g1 bt1 : FVec Ideal S256 .f32) : FVec Ideal S50000x256 .f32 :=
  refBn1 (propagate s d n (dot256 h w1)) h b1 rm1 rv1 g1 bt1

/-- The third layer from the first layer's output `h` and the second's activation `h2`. -/
def refOut (s d : (⟨S850000, .i32⟩ : BufTy).Contents (Elt Ideal)) (n : FVec Ideal S850000 .f32)
    (h h2 : FVec Ideal S50000x256 .f32) (w2 : FVec Ideal S256x256 .f32) (b2 : FVec Ideal S256 .f32) : FVec Ideal S50000x256 .f32 :=
  addRow (propagate s d n (dot256 (addf h h2) w2)) b2

/-- The whole reference as a function of its sixteen arguments, in their order: the features, the edge table, then
    weights and biases of the three layers, then scale, shift, running mean and running variance of the two normalisations. -/
def refNet (x : FVec Ideal S50000x512 .f32) (ei : (⟨S2x800000, .i32⟩ : BufTy).Contents (Elt Ideal))
    (w0 : FVec Ideal S512x256 .f32) (b0 : FVec Ideal S256 .f32) (w1 : FVec Ideal S256x256 .f32) (b1 : FVec Ideal S256 .f32)
    (w2 : FVec Ideal S256x256 .f32) (b2 g0 bt0 rm0 rv0 g1 bt1 rm1 rv1 : FVec Ideal S256 .f32) : FVec Ideal S50000x256 .f32 :=
  refOut (srcOf ei) (dstOf ei) (normOf (srcOf ei) (dstOf ei))
    (refH1 (srcOf ei) (dstOf ei) (normOf (srcOf ei) (dstOf ei)) x w0 b0 rm0 rv0 g0 bt0)
    (refH2 (srcOf ei) (dstOf ei) (normOf (srcOf ei) (dstOf ei))
      (refH1 (srcOf ei) (dstOf ei) (normOf (srcOf ei) (dstOf ei)) x w0 b0 rm0 rv0 g0 bt0) w1 b1 rm1 rv1 g1 bt1)
    w2 b2

end Cert.Bridge

namespace Cert.ReferenceIdeal.HandRun

open Cert.ReferenceIdeal Cert.ReferenceIdeal.Facts₀ Idealize.ShloMosaic Idealize.ShloMosaic.TcCoe Idealize.SL.Sem Idealize.ShloMosaic.StableHlo
open Cert.Bridge

variable {F : FTy → Type} [FloatOps F] [Cert.ReferenceIdeal.Facts]

/-! ## Each stretch's result, for any contents `V` of the buffers -/

set_option maxRecDepth 8192 in
set_option maxHeartbeats 4000000 in
/-- After the normalisation stretch `%3` holds the edges' sources. -/
theorem A_v3 (V : Valuation τ sig (Elt F)) : after opsA V (main_v3 : DevRef τ sig) = srcOf (V (main_arg1 : DevRef τ sig)) := by
  after_results_simp
  rfl

set_option maxRecDepth 8192 in
set_option maxHeartbeats 4000000 in
/-- After the normalisation stretch `%6` holds the edges' targets. -/
theorem A_v6 (V : Valuation τ sig (Elt F)) : after opsA V (main_v6 : DevRef τ sig) = dstOf (V (main_arg1 : DevRef τ sig)) := by
  after_results_simp
  rfl

set_option maxRecDepth 8192 in
set_option maxHeartbeats 4000000 in
/-- After the normalisation stretch `%29` holds the edges' weights. -/
theorem A_v29 (V : Valuation τ sig (Elt F)) :
    after opsA V (main_v29 : DevRef τ sig) = normOf (srcOf (V (main_arg1 : DevRef τ sig))) (dstOf (V (main_arg1 : DevRef τ sig))) := by
  after_results_simp
  rfl

/-- The first dense product: `%30` from `%arg0` and `%arg2`. -/
theorem D0_v30 (V : Valuation τ sig (Elt F)) :
    after opsD0 V (main_v30 : DevRef τ sig) = Host.dotGeneral dot_S50000x512_S512x256_S50000x256_1_0_0_1_n_n none (V (main_arg0 : DevRef τ sig)) (V (main_arg2 : DevRef τ sig)) := by
  after_results

/-- The second dense product: `%63` from `%62` and `%arg4`. -/
theorem D1_v63 (V : Valuation τ sig (Elt F)) :
    after opsD1 V (main_v63 : DevRef τ sig) = Host.dotGeneral dot_S50000x256_S256x256_S50000x256_1_0_0_1_n_n none (V (main_v62 : DevRef τ sig)) (V (main_arg4 : DevRef τ sig)) := by
  after_results

/-- The third dense product: `%98` from `%97` and `%arg6`. -/
theorem D2_v98 (V : Valuation τ sig (Elt F)) :
    after opsD2 V (main_v98 : DevRef τ sig) = Host.dotGeneral dot_S50000x256_S256x256_S50000x256_1_0_0_1_n_n none (V (main_v97 : DevRef τ sig)) (V (main_arg6 : DevRef τ sig)) := by
  after_results

set_option maxRecDepth 8192 in
set_option maxHeartbeats 4000000 in
/-- The first message passing: `%43` from `%3`, `%6`, `%29` and `%30`. -/
theorem P0_v43 (V : Valuation τ sig (Elt F)) :
    after opsP0 V (main_v43 : DevRef τ sig) = propagate (V (main_v3 : DevRef τ sig)) (V (main_v6 : DevRef τ sig)) (V (main_v29 : DevRef τ sig)) (V (main_v30 : DevRef τ sig)) := by
  after_results
  rfl

set_option maxRecDepth 8192 in
set_option maxHeartbeats 4000000 in
/-- The second message passing: `%76` from `%3`, `%6`, `%29` and `%63`. -/
theorem P1_v76 (V : Valuation τ sig (Elt F)) :
    after opsP1 V (main_v76 : DevRef τ sig) = propagate (V (main_v3 : DevRef τ sig)) (V (main_v6 : DevRef τ sig)) (V (main_v29 : DevRef τ sig)) (V (main_v63 : DevRef τ sig)) := by
  after_results
  rfl

set_option maxRecDepth 8192 in
set_option maxHeartbeats 4000000 in
/-- The third message passing: `%111` from `%3`, `%6`, `%29` and `%98`. -/
theorem P2_v111 (V : Valuation τ sig (Elt F)) :
    after opsP2 V (main_v111 : DevRef τ sig) = propagate (V (main_v3 : DevRef τ sig)) (V (main_v6 : DevRef τ sig)) (V (main_v29 : DevRef τ sig)) (V (main_v98 : DevRef τ sig)) := by
  after_results
  rfl

set_option maxRecDepth 8192 in
set_option maxHeartbeats 4000000 in
/-- The first pointwise tail, on the extended reals: `%62` from `%43` and the first normalisation's parameters. -/
theorem B0_v62 (V : Valuation τ sig (Elt Ideal)) :
    after opsB0 V (main_v62 : DevRef τ sig) = refBn0 (V (main_v43 : DevRef τ sig)) (V (main_arg3 : DevRef τ sig)) (V (main_arg10 : DevRef τ sig)) (V (main_arg11 : DevRef τ sig)) (V (main_arg8 : DevRef τ sig)) (V (main_arg9 : DevRef τ sig)) := by
  after_results
  rfl

set_option maxRecDepth 8192 in
set_option maxHeartbeats 4000000 in
/-- The second pointwise tail, on the extended reals: `%97 = %62 + %96`, `%96` from `%76`, `%62` and the second
    normalisation's parameters. -/
theorem B1_v97 (V : Valuation τ sig (Elt Ideal)) :
    after opsB1 V (main_v97 : DevRef τ sig) = addf (V (main_v62 : DevRef τ sig)) (refBn1 (V (main_v76 : DevRef τ sig)) (V (main_v62 : DevRef τ sig)) (V (main_arg5 : DevRef τ sig)) (V (main_arg14 : DevRef τ sig)) (V (main_arg15 : DevRef τ sig)) (V (main_arg12 : DevRef τ sig)) (V (main_arg13 : DevRef τ sig))) := by
  after_results
  rfl

/-- The third layer's bias: `%114` from `%111` and `%arg7`. -/
theorem T_v114 (V : Valuation τ sig (Elt F)) :
    after opsT V (main_v114 : DevRef τ sig) = addRow (V (main_v111 : DevRef τ sig)) (V (main_arg7 : DevRef τ sig)) := by
  after_results
  rfl

end Cert.ReferenceIdeal.HandRun

end
-- ==== Proof.KNetEq.lean ====
/-
  The kernel program's function of its arguments is the reference's.

  Stage by stage the two compositions differ only in how a product and a pointwise stage are written: a product as the
  entrywise sum over the contracted axis against the host's product; a normalisation read entry by entry against rows of
  parameters against the host's broadcasts and whole-array operations; the running sum as an entrywise sum against the
  host's addition. Each pair is one function (the entry lemmas of the value modules), and the message passing between
  them is the same term on both sides, so the compositions are equal.
-/
import proofs.«122691_j4398046511761_1_alg».proof.Proof.KNet
import proofs.«122691_j4398046511761_1_alg».proof.Proof.RefStages
import proofs.«122691_j4398046511761_1_alg».proof.Proof.MatmulValue
import proofs.«122691_j4398046511761_1_alg».proof.Proof.BnValue
import proofs.«122691_j4398046511761_1_alg».proof.Proof.RefBnValue

noncomputable section

namespace Cert.Bridge

open Idealize.ShloMosaic Idealize.ShloMosaic.ValueIdx
open Cert.ReferenceIdeal Cert.ReferenceIdeal.Facts₀

variable [Cert.ReferenceIdeal.Facts₀]

/-! ## The four array laws -/

/-- The entrywise product of the first layer is the host's product. -/
theorem mmRows512_eq_dot512 (x : FVec Ideal S50000x512 .f32) (w : FVec Ideal S512x256 .f32) :
    mmRows512 x w = dot512 (F := Ideal) x w := by
  funext j
  obtain ⟨r, q, rfl⟩ : ∃ (r : Fin 50000) (q : Fin 256), j = ix2 r q := ⟨j 0, j 1, eq_ix2 j⟩
  rw [mmRows512_apply]
  exact (ref_dot512_apply x w r q).symm

/-- The entrywise product of the other two layers is the host's product. -/
theorem mmRows256_eq_dot256 (x : FVec Ideal S50000x256 .f32) (w : FVec Ideal S256x256 .f32) :
    mmRows256 x w = dot256 (F := Ideal) x w := by
  funext j
  obtain ⟨r, q, rfl⟩ : ∃ (r : Fin 50000) (q : Fin 256), j = ix2 r q := ⟨j 0, j 1, eq_ix2 j⟩
  rw [mmRows256_apply]
  exact (ref_dot256_apply x w r q).symm

/-- A parameter vector as a row, read at (0, q), is its entry q. -/
theorem rowOf_apply (v : FVec Ideal S256 .f32) (q : Fin 256) : rowOf v (ix2 0 q) = v (ix1 q) :=
  param_row_apply v _ q

/-- The first normalisation read entry by entry against parameter rows is the host's composition. -/
theorem bnRows_eq_refBn0 (a : FVec Ideal S50000x256 .f32) (b rm rv g bt : FVec Ideal S256 .f32) :
    bnRows a (rowOf b) (rowOf rm) (rowOf rv) (rowOf g) (rowOf bt) = refBn0 a b rm rv g bt := by
  funext j
  obtain ⟨r, q, rfl⟩ : ∃ (r : Fin 50000) (q : Fin 256), j = ix2 r q := ⟨j 0, j 1, eq_ix2 j⟩
  rw [bnRows_apply, refBn0_apply, rowOf_apply, rowOf_apply, rowOf_apply, rowOf_apply, rowOf_apply]

/-- The second normalisation, with its residual, likewise. -/
theorem bnResRows_eq_refBn1 (a h : FVec Ideal S50000x256 .f32) (b rm rv g bt : FVec Ideal S256 .f32) :
    bnResRows a (rowOf b) h (rowOf rm) (rowOf rv) (rowOf g) (rowOf bt) = refBn1 a h b rm rv g bt := by
  funext j
  obtain ⟨r, q, rfl⟩ : ∃ (r : Fin 50000) (q : Fin 256), j = ix2 r q := ⟨j 0, j 1, eq_ix2 j⟩
  rw [bnResRows_apply, refBn1_apply, rowOf_apply, rowOf_apply, rowOf_apply, rowOf_apply, rowOf_apply]

/-- The entrywise sum of two arrays is the host's addition. -/
theorem sumRows_eq_addf (h f : FVec Ideal S50000x256 .f32) : sumRows h f = addf (F := Ideal) h f := rfl

/-! ## The stages -/

/-- The first layer's output. -/
theorem kH1_eq (s d : (⟨S850000, .i32⟩ : BufTy).Contents (Elt Ideal)) (n : FVec Ideal S850000 .f32)
    (x : FVec Ideal S50000x512 .f32) (w0 : FVec Ideal S512x256 .f32) (b0 rm0 rv0 g0 bt0 : FVec Ideal S256 .f32) :
    kH1 s d n x w0 b0 rm0 rv0 g0 bt0 = refH1 s d n x w0 b0 rm0 rv0 g0 bt0 := by
  unfold kH1 refH1
  rw [mmRows512_eq_dot512, bnRows_eq_refBn0]

/-- The accumulated representation: the first layer's output plus the second layer's activation. -/
theorem kGx_eq (s d : (⟨S850000, .i32⟩ : BufTy).Contents (Elt Ideal)) (n : FVec Ideal S850000 .f32)
    (h : FVec Ideal S50000x256 .f32) (w1 : FVec Ideal S256x256 .f32) (b1 rm1 rv1 g1 bt1 : FVec Ideal S256 .f32) :
    kGx s d n h w1 b1 rm1 rv1 g1 bt1 = addf (F := Ideal) h (refH2 s d n h w1 b1 rm1 rv1 g1 bt1) := by
  unfold kGx refH2
  rw [mmRows256_eq_dot256, bnResRows_eq_refBn1, sumRows_eq_addf]

/-- The third layer. -/
theorem kOut_eq (s d : (⟨S850000, .i32⟩ : BufTy).Contents (Elt Ideal)) (n : FVec Ideal S850000 .f32)
    (h h2 : FVec Ideal S50000x256 .f32) (w2 : FVec Ideal S256x256 .f32) (b2 : FVec Ideal S256 .f32) :
    kOut s d n (addf (F := Ideal) h h2) w2 b2 = refOut s d n h h2 w2 b2 := by
  unfold kOut refOut
  rw [mmRows256_eq_dot256]

/-! ## The whole network -/

/-- The kernel program's function of its sixteen arguments is the reference's. -/
theorem kNet_eq_refNet (x : FVec Ideal S50000x512 .f32) (ei : (⟨S2x800000, .i32⟩ : BufTy).Contents (Elt Ideal))
    (w0 : FVec Ideal S512x256 .f32) (b0 : FVec Ideal S256 .f32) (w1 : FVec Ideal S256x256 .f32) (b1 : FVec Ideal S256 .f32)
    (w2 : FVec Ideal S256x256 .f32) (b2 g0 bt0 rm0 rv0 g1 bt1 rm1 rv1 : FVec Ideal S256 .f32) :
    kNet x ei w0 b0 w1 b1 w2 b2 g0 bt0 rm0 rv0 g1 bt1 rm1 rv1 = refNet x ei w0 b0 w1 b1 w2 b2 g0 bt0 rm0 rv0 g1 bt1 rm1 rv1 := by
  unfold kNet refNet
  rw [kH1_eq, kGx_eq, kOut_eq]

end Cert.Bridge

end
-- ==== Proof.RefResult.lean ====
/- The reference's result as one term of its arguments.

   The stretches of the reference's line of operations are chained: a buffer a stretch does not write passes through it
   unchanged, so the argument arrays and the graph's three arrays can be read at any later point as what they were, and
   each stretch's result feeds the next. On the extended reals the last result is the composed function `refNet` of the
   sixteen arguments. -/
import proofs.«122691_j4398046511761_1_alg».proof.Proof.RefStages

noncomputable section

namespace Cert.ReferenceIdeal.HandRun

open Cert.ReferenceIdeal Cert.ReferenceIdeal.Facts₀ Idealize.ShloMosaic Idealize.ShloMosaic.TcCoe Idealize.SL.Sem Idealize.ShloMosaic.StableHlo
open Cert.Bridge

variable {F : FTy → Type} [FloatOps F] [Cert.ReferenceIdeal.Facts]

/-! ## What passes through a stretch unchanged -/

/-- `W` holds, at every reference the line never writes (the arguments among them), what `V` holds there. -/
def Kept (V W : Valuation τ sig (Elt F)) : Prop :=
  ∀ r : Ref sig .tc, r ∉ ops_W → W (Proc.devRef .tc r) = V (Proc.devRef .tc r)

theorem Kept.refl (V : Valuation τ sig (Elt F)) : Kept V V := fun _ _ => rfl

/-- A stretch whose written references are among the line's keeps that agreement. -/
theorem Kept.step {V W : Valuation τ sig (Elt F)} {X : List (HloOp τ sig (Elt F))} {XW : List (Ref sig .tc)}
    (hX : X.Forall fun op => op.writes ⊆ (XW.map (Proc.devRef (τ := τ) .tc)).toFinset) (hsub : ∀ r, r ∈ XW → r ∈ ops_W)
    (h : Kept V W) : Kept V (after X W) :=
  fun r hr => (after_of_writes_sub X W hX fun hm => hr (hsub r hm)).trans (h r hr)

theorem subA : ∀ r, r ∈ opsA_W → r ∈ ops_W := fun r h => by
  simp only [ops_W, List.mem_append, h, true_or, or_true]
theorem subD0 : ∀ r, r ∈ opsD0_W → r ∈ ops_W := fun r h => by
  simp only [ops_W, List.mem_append, h, true_or, or_true]
theorem subP0 : ∀ r, r ∈ opsP0_W → r ∈ ops_W := fun r h => by
  simp only [ops_W, List.mem_append, h, true_or, or_true]
theorem subB0 : ∀ r, r ∈ opsB0_W → r ∈ ops_W := fun r h => by
  simp only [ops_W, List.mem_append, h, true_or, or_true]
theorem subD1 : ∀ r, r ∈ opsD1_W → r ∈ ops_W := fun r h => by
  simp only [ops_W, List.mem_append, h, true_or, or_true]
theorem subP1 : ∀ r, r ∈ opsP1_W → r ∈ ops_W := fun r h => by
  simp only [ops_W, List.mem_append, h, true_or, or_true]
theorem subB1 : ∀ r, r ∈ opsB1_W → r ∈ ops_W := fun r h => by
  simp only [ops_W, List.mem_append, h, true_or, or_true]
theorem subD2 : ∀ r, r ∈ opsD2_W → r ∈ ops_W := fun r h => by
  simp only [ops_W, List.mem_append, h, true_or, or_true]
theorem subP2 : ∀ r, r ∈ opsP2_W → r ∈ ops_W := fun r h => by
  simp only [ops_W, List.mem_append, h, true_or, or_true]
theorem subT : ∀ r, r ∈ opsT_W → r ∈ ops_W := fun r h => by
  simp only [ops_W, List.mem_append, h, true_or, or_true]

/-- `W` holds the edges' sources, targets and weights `s`, `d`, `n` at `%3`, `%6`, `%29`. -/
def Graph (s d : (⟨S850000, .i32⟩ : BufTy).Contents (Elt F)) (n : FVec F S850000 .f32) (W : Valuation τ sig (Elt F)) : Prop :=
  W (main_v3 : DevRef τ sig) = s ∧ W (main_v6 : DevRef τ sig) = d ∧ W (main_v29 : DevRef τ sig) = n

/-- A stretch that writes none of the three keeps them. -/
theorem Graph.step {s d : (⟨S850000, .i32⟩ : BufTy).Contents (Elt F)} {n : FVec F S850000 .f32} {W : Valuation τ sig (Elt F)} {X : List (HloOp τ sig (Elt F))} {XW : List (Ref sig .tc)}
    (hX : X.Forall fun op => op.writes ⊆ (XW.map (Proc.devRef (τ := τ) .tc)).toFinset)
    (h3 : main_v3 ∉ XW) (h6 : main_v6 ∉ XW) (h29 : main_v29 ∉ XW) (h : Graph s d n W) : Graph s d n (after X W) :=
  ⟨(after_of_writes_sub X W hX h3).trans h.1, (after_of_writes_sub X W hX h6).trans h.2.1, (after_of_writes_sub X W hX h29).trans h.2.2⟩

/-! ## The result as one term of the arguments -/

/-- From contents `V1` that hold the graph and agree with `V` on the arguments, the nine stretches after the
    normalisation leave in `%114` the three layers' composed value. -/
theorem result_aux (V V1 : Valuation τ sig (Elt Ideal)) (s d : (⟨S850000, .i32⟩ : BufTy).Contents (Elt Ideal)) (n : FVec Ideal S850000 .f32)
    (k : Kept V V1) (g : Graph s d n V1) :
    after opsT (after opsP2 (after opsD2 (after opsB1 (after opsP1 (after opsD1 (after opsB0 (after opsP0 (after opsD0 (V1))))))))) (main_v114 : DevRef τ sig)
      = refOut s d n (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig)))
          (refH2 s d n (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig)) (V (main_arg5 : DevRef τ sig)) (V (main_arg14 : DevRef τ sig)) (V (main_arg15 : DevRef τ sig)) (V (main_arg12 : DevRef τ sig)) (V (main_arg13 : DevRef τ sig))) (V (main_arg6 : DevRef τ sig)) (V (main_arg7 : DevRef τ sig)) := by
  -- the first layer
  have e30 : after opsD0 V1 (main_v30 : DevRef τ sig) = dot512 (F := Ideal) (V (main_arg0 : DevRef τ sig)) (V (main_arg2 : DevRef τ sig)) := by
    rw [D0_v30, k main_arg0 (by decide), k main_arg2 (by decide)] <;> rfl
  have k := k.step opsD0_writes subD0
  have g := g.step opsD0_writes (by decide) (by decide) (by decide)
  generalize after opsD0 V1 = V2 at e30 k g ⊢
  have e43 : after opsP0 V2 (main_v43 : DevRef τ sig) = propagate (F := Ideal) s d n (dot512 (F := Ideal) (V (main_arg0 : DevRef τ sig)) (V (main_arg2 : DevRef τ sig))) := by
    rw [P0_v43, g.1, g.2.1, g.2.2, e30]
  have k := k.step opsP0_writes subP0
  have g := g.step opsP0_writes (by decide) (by decide) (by decide)
  generalize after opsP0 V2 = V3 at e43 k g ⊢
  have e62 : after opsB0 V3 (main_v62 : DevRef τ sig) = (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) := by
    rw [B0_v62, e43, k main_arg3 (by decide), k main_arg10 (by decide), k main_arg11 (by decide), k main_arg8 (by decide), k main_arg9 (by decide)] <;> rfl
  have k := k.step opsB0_writes subB0
  have g := g.step opsB0_writes (by decide) (by decide) (by decide)
  generalize after opsB0 V3 = V4 at e62 k g ⊢
  -- the second layer
  have e63 : after opsD1 V4 (main_v63 : DevRef τ sig) = dot256 (F := Ideal) (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig)) := by
    rw [D1_v63, e62, k main_arg4 (by decide)] <;> rfl
  have e62 : after opsD1 V4 (main_v62 : DevRef τ sig) = (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) :=
    (after_of_writes_sub opsD1 V4 opsD1_writes (by decide)).trans e62
  have k := k.step opsD1_writes subD1
  have g := g.step opsD1_writes (by decide) (by decide) (by decide)
  generalize after opsD1 V4 = V5 at e63 e62 k g ⊢
  have e76 : after opsP1 V5 (main_v76 : DevRef τ sig) = propagate (F := Ideal) s d n (dot256 (F := Ideal) (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig))) := by
    rw [P1_v76, g.1, g.2.1, g.2.2, e63]
  have e62 : after opsP1 V5 (main_v62 : DevRef τ sig) = (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) :=
    (after_of_writes_sub opsP1 V5 opsP1_writes (by decide)).trans e62
  have k := k.step opsP1_writes subP1
  have g := g.step opsP1_writes (by decide) (by decide) (by decide)
  generalize after opsP1 V5 = V6 at e76 e62 k g ⊢
  have e97 : after opsB1 V6 (main_v97 : DevRef τ sig) = addf (F := Ideal) (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (refH2 s d n (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig)) (V (main_arg5 : DevRef τ sig)) (V (main_arg14 : DevRef τ sig)) (V (main_arg15 : DevRef τ sig)) (V (main_arg12 : DevRef τ sig)) (V (main_arg13 : DevRef τ sig))) := by
    rw [B1_v97, e76, e62, k main_arg5 (by decide), k main_arg14 (by decide), k main_arg15 (by decide), k main_arg12 (by decide), k main_arg13 (by decide)] <;> rfl
  have k := k.step opsB1_writes subB1
  have g := g.step opsB1_writes (by decide) (by decide) (by decide)
  generalize after opsB1 V6 = V7 at e97 k g ⊢
  -- the third layer
  have e98 : after opsD2 V7 (main_v98 : DevRef τ sig) = dot256 (F := Ideal) (addf (F := Ideal) (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (refH2 s d n (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig)) (V (main_arg5 : DevRef τ sig)) (V (main_arg14 : DevRef τ sig)) (V (main_arg15 : DevRef τ sig)) (V (main_arg12 : DevRef τ sig)) (V (main_arg13 : DevRef τ sig)))) (V (main_arg6 : DevRef τ sig)) := by
    rw [D2_v98, e97, k main_arg6 (by decide)] <;> rfl
  have k := k.step opsD2_writes subD2
  have g := g.step opsD2_writes (by decide) (by decide) (by decide)
  generalize after opsD2 V7 = V8 at e98 k g ⊢
  have e111 : after opsP2 V8 (main_v111 : DevRef τ sig) = propagate (F := Ideal) s d n (dot256 (F := Ideal) (addf (F := Ideal) (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (refH2 s d n (refH1 s d n (V (main_arg0 : DevRef τ sig)) (V (main_arg2 : DevRef τ sig)) (V (main_arg3 : DevRef τ sig)) (V (main_arg10 : DevRef τ sig)) (V (main_arg11 : DevRef τ sig)) (V (main_arg8 : DevRef τ sig)) (V (main_arg9 : DevRef τ sig))) (V (main_arg4 : DevRef τ sig)) (V (main_arg5 : DevRef τ sig)) (V (main_arg14 : DevRef τ sig)) (V (main_arg15 : DevRef τ sig)) (V (main_arg12 : DevRef τ sig)) (V (main_arg13 : DevRef τ sig)))) (V (main_arg6 : DevRef τ sig))) := by
    rw [P2_v111, g.1, g.2.1, g.2.2, e98]
  have k := k.step opsP2_writes subP2
  generalize after opsP2 V8 = V9 at e111 k ⊢
  rw [T_v114, e111, k main_arg7 (by decide)] <;> rfl

/-- On the extended reals, for any contents `V` of the buffers, the whole line leaves in `%114` the reference's
    function of the sixteen arguments. -/
theorem result_eq (V : Valuation τ sig (Elt Ideal)) :
    after ops V (main_v114 : DevRef τ sig) = refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops]
  exact result_aux V (after opsA V) _ _ _ ((Kept.refl V).step opsA_writes subA) ⟨A_v3 V, A_v6 V, A_v29 V⟩

end Cert.ReferenceIdeal.HandRun

end
-- ==== Proof.RefValueRun.lean ====
/- The reference's run and its value.

   On the extended reals every execution of the reference terminates, leaves its result buffer holding the composed
   function of the sixteen arguments' launch contents, and leaves the arguments as they were. -/
import proofs.«122691_j4398046511761_1_alg».proof.Defs
import proofs.«122691_j4398046511761_1_alg».proof.Proof.RefResult

noncomputable section

namespace Cert.ReferenceIdeal.HandRun

open Cert.ReferenceIdeal Cert.ReferenceIdeal.Facts₀ Idealize.ShloMosaic Idealize.ShloMosaic.TcCoe Idealize.SL.Sem Idealize.ShloMosaic.StableHlo
open Cert.Bridge

variable [Cert.ReferenceIdeal.Facts]

/-- On the extended reals, from any memory with zero counters: every weakly fair execution of the reference terminates
    with `%114` at `refNet` of the sixteen arguments' launch contents, and the arguments unchanged. -/
theorem run_value (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v114) = refNet (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15) :=
  (θ_run _ _ _).mono (fun _ h c => ⟨(h c main_v114).trans (result_eq (launchContents m' c)),
    (h c main_arg0).trans (after_ops_of_not_mem _ (by decide)),
    (h c main_arg1).trans (after_ops_of_not_mem _ (by decide)),
    (h c main_arg2).trans (after_ops_of_not_mem _ (by decide)),
    (h c main_arg3).trans (after_ops_of_not_mem _ (by decide)),
    (h c main_arg4).trans (after_ops_of_not_mem _ (by decide)),
    (h c main_arg5).trans (after_ops_of_not_mem _ (by decide)),
    (h c main_arg6).trans (after_ops_of_not_mem _ (by decide)),
    (h c main_arg7).trans (after_ops_of_not_mem _ (by decide)),
    (h c main_arg8).trans (after_ops_of_not_mem _ (by decide)),
    (h c main_arg9).trans (after_ops_of_not_mem _ (by decide)),
    (h c main_arg10).trans (after_ops_of_not_mem _ (by decide)),
    (h c main_arg11).trans (after_ops_of_not_mem _ (by decide)),
    (h c main_arg12).trans (after_ops_of_not_mem _ (by decide)),
    (h c main_arg13).trans (after_ops_of_not_mem _ (by decide)),
    (h c main_arg14).trans (after_ops_of_not_mem _ (by decide)),
    (h c main_arg15).trans (after_ops_of_not_mem _ (by decide))⟩)
    (run_all (F := Ideal) m' g')

end Cert.ReferenceIdeal.HandRun

end
-- ==== Proof.lean ====
/-
  The certificate's claim for a three-layer graph-convolution encoder: a kernel program of five kernel regions (three
  row-blocked matrix products and two pointwise normalisation stages) among stretches of host operations (edge lists,
  edge weights, three rounds of message passing) against a reference written in host operations alone.

  Frames. Each kernel program is run as eleven segments between thread states that hold every unscoped buffer at the
  boundary's contents (Proof/K for the word-level program, Proof/KI for the idealized one: one module per region, the
  buffers' contents boundary by boundary, the segments, the run); every argument array passes every boundary unchanged.
  The reference is one line of host operations (Proof/RefRun).

  Values. On the extended reals the idealized kernel program's result array is one function of the sixteen launch
  arrays (Proof/KI/Value: each region's blocks assembled into its array, each host stretch read as a value), the
  reference's result another (Proof/RefResult), and the two functions are equal (Proof/KNetEq): a matrix product taken
  2000 rows at a time is the same sum over k entry by entry; a change of float format is the identity; the pointwise
  stages agree entry by entry, where the only algebra is that x > 0 and x ≥ 0 select the same value of the leaky
  rectifier (both give 0 at 0) and that the product with the slope commutes. No finiteness of the inputs is used.
  The idealization rewrote no operation, so there is nothing to preserve.
-/
import proofs.«122691_j4398046511761_1_alg».proof.Defs
import proofs.«122691_j4398046511761_1_alg».proof.Proof.Gen.Kernel
import proofs.«122691_j4398046511761_1_alg».proof.Proof.Gen.KernelIdeal
import proofs.«122691_j4398046511761_1_alg».proof.Proof.Gen.ReferenceIdeal
import proofs.«122691_j4398046511761_1_alg».proof.Proof.Gen.Pre_finite_inputs
import proofs.«122691_j4398046511761_1_alg».proof.Proof.K.Frame
import proofs.«122691_j4398046511761_1_alg».proof.Proof.KI.Frame
import proofs.«122691_j4398046511761_1_alg».proof.Proof.KI.Value
import proofs.«122691_j4398046511761_1_alg».proof.Proof.KNetEq
import proofs.«122691_j4398046511761_1_alg».proof.Proof.RefValueRun
import Idealize.ShloMosaic.Adequacy
import Idealize.ShloMosaic.Init

noncomputable section

namespace Cert.Proof

open Idealize.ShloMosaic Idealize.SL.Sem

/-- The word-level kernel program runs to the end without a fault and leaves its arguments unchanged. -/
theorem frame_k : Cert.frame_Kernel := fun m g _ => Cert.Kernel.Hand.frame (F := Bits) m g

/-- So does the idealized kernel program. -/
theorem frame_ki : Cert.frame_KernelIdeal := fun m g _ => Cert.KernelIdeal.Hand.frame (F := Ideal) m g

/-- So does the reference. -/
theorem frame_r : Cert.frame_ReferenceIdeal := Cert.ReferenceIdeal.HandRun.frame_ri

/-- The idealization rewrote nothing. -/
theorem preserves : Cert.preserves_Kernel_KernelIdeal := trivial

/-- On the extended reals, from memories that agree on the arguments, both programs run and end with the same result:
    the reference's function of the sixteen arguments. -/
theorem algebraic : Cert.algebraic_KernelIdeal_ReferenceIdeal := by
  intro m g m' g' _ hagree
  refine ⟨fun c => Cert.Bridge.refNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run (Cert.KernelIdeal.defs (F := Ideal)) _ _).mono (fun r h c => ⟨(h c).1.trans ?_, (h c).2⟩)
      (Cert.KernelIdeal.Hand.run_result (F := Ideal) m g)
    exact (Cert.KernelIdeal.Hand.result_value m c).trans (Cert.Bridge.kNet_eq_refNet _ _ _ _ _ _ _ _ _ _ _ _ _ _ _ _)
  · refine (θ_run (Cert.ReferenceIdeal.defs (F := Ideal)) _ _).mono (fun r h c => ⟨(h c).1.trans ?_, (h c).2⟩)
      (Cert.ReferenceIdeal.HandRun.run_value m' g')
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
